-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x50 : Shape := ⟨2, ![1024, 50]⟩
abbrev S1000x1000 : Shape := ⟨2, ![1000, 1000]⟩
abbrev S_ : Shape := ⟨0, ![]⟩

class Facts : Prop where
  bcast_S_S1000x1000 : S_.BroadcastsInDim S1000x1000 (![] : Fin 0 → Fin S1000x1000.rank)
  reducesTo_S1000x1000_S_d0_1 : S1000x1000.ReducesTo [0, 1] S_
  h_S_ : 0 < S_.numel
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_v10 : IVec S_ 1) (main_v15 : IVec S1024x50 1) (main_c_5 : IVec S_ 1) : IVec S_ 1 :=
  let main_v16 : IVec S_ 1 := (fun x v => Host.reduce IntOp.andi x v reducesTo_S1024x50_S_d0_1 h_S_) main_v15 main_c_5
  let main_v17 : IVec S_ 1 := andi main_v10 main_v16
  main_v17

def fn {F : FTy → Type} [FloatOps F] (main_arg0 : IVec S1024x50 32) (main_arg1 : IVec S1024x50 32) (main_arg2 : FVec F S1000x1000 .f32) : IVec S_ 1 :=
  let main_v0 : FVec F S1000x1000 .f32 := Host.absf main_arg2
  let main_cst : FVec F S_ .f32 := constant S_ .f32 0x7F800000#32
  let main_v1 : FVec F S1000x1000 .f32 := broadcastInDim S1000x1000 ![] bcast_S_S1000x1000 main_cst
  let main_v2 : IVec S1000x1000 1 := cmpf .olt main_v0 main_v1
  let main_c : IVec S_ 1 := constantI S_ 1 1#1
  let main_v3 : IVec S_ 1 := (fun x v => Host.reduce IntOp.andi x v reducesTo_S1000x1000_S_d0_1 h_S_) main_v2 main_c
  let main_c_0 : IVec S_ 32 := constantI S_ 32 0#32
  let main_v4 : IVec S1024x50 32 := broadcastInDim S1024x50 ![] bcast_S_S1024x50 main_c_0
  let main_v5 : IVec S1024x50 1 := cmpi .sge main_arg0 main_v4
  let main_c_1 : IVec S_ 32 := constantI S_ 32 999#32
  let main_v6 : IVec S1024x50 32 := broadcastInDim S1024x50 ![] bcast_S_S1024x50 main_c_1
  let main_v7 : IVec S1024x50 1 := cmpi .sle main_arg0 main_v6
  let main_v8 : IVec S1024x50 1 := andi main_v5 main_v7
  let main_c_2 : IVec S_ 1 := constantI S_ 1 1#1
  let main_v9 : IVec S_ 1 := (fun x v => Host.reduce IntOp.andi x v reducesTo_S1024x50_S_d0_1 h_S_) main_v8 main_c_2
  let main_v10 : IVec S_ 1 := andi main_v3 main_v9
  let main_c_3 : IVec S_ 32 := constantI S_ 32 0#32
  let main_v11 : IVec S1024x50 32 := broadcastInDim S1024x50 ![] bcast_S_S1024x50 main_c_3
  let main_v12 : IVec S1024x50 1 := cmpi .sge main_arg1 main_v11
  let main_c_4 : IVec S_ 32 := constantI S_ 32 999#32
  let main_v13 : IVec S1024x50 32 := broadcastInDim S1024x50 ![] bcast_S_S1024x50 main_c_4
  let main_v14 : IVec S1024x50 1 := cmpi .sle main_arg1 main_v13
  let main_v15 : IVec S1024x50 1 := andi main_v12 main_v14
  let main_c_5 : IVec S_ 1 := constantI S_ 1 1#1
  fn_part1 (F := F) main_v10 main_v15 main_c_5
-- ==== Kernel.lean ====
abbrev S1024x50 : Shape := ⟨2, ![1024, 50]⟩
abbrev S1000x1000 : Shape := ⟨2, ![1000, 1000]⟩
abbrev S50x1024 : Shape := ⟨2, ![50, 1024]⟩
abbrev S8000x128 : Shape := ⟨2, ![8000, 128]⟩
abbrev S51200 : Shape := ⟨1, ![51200]⟩
abbrev S1000 : Shape := ⟨1, ![1000]⟩
abbrev S1000x1 : Shape := ⟨2, ![1000, 1]⟩
abbrev S1000x128 : Shape := ⟨2, ![1000, 128]⟩
abbrev S1000x104 : Shape := ⟨2, ![1000, 104]⟩
abbrev S1000x24 : Shape := ⟨2, ![1000, 24]⟩
abbrev S1024000 : Shape := ⟨1, ![1024000]⟩
abbrev S1600 : Shape := ⟨1, ![1600]⟩
abbrev S_ : Shape := ⟨0, ![]⟩

abbrev nBuf : Table → Nat
  | .hbm => 11
  | .local .tc .vmem => 5
  | .local .scVector .vmem => 2
  | _ => 0

abbrev bufTy : (tb : Table) → Fin (nBuf tb) → BufTy
  | .hbm, ⟨0, _⟩ => ⟨S1024x50, .i32⟩
  | .hbm, ⟨1, _⟩ => ⟨S1024x50, .i32⟩
  | .hbm, ⟨2, _⟩ => ⟨S1000x1000, .f32⟩
  | .hbm, ⟨3, _⟩ => ⟨S50x1024, .i32⟩
  | .hbm, ⟨4, _⟩ => ⟨S50x1024, .i32⟩
  | .hbm, ⟨5, _⟩ => ⟨S8000x128, .f32⟩
  | .hbm, ⟨6, _⟩ => ⟨S51200, .i32⟩
  | .hbm, ⟨7, _⟩ => ⟨S1024000, .f32⟩
  | .hbm, ⟨8, _⟩ => ⟨S51200, .f32⟩
  | .hbm, ⟨9, _⟩ => ⟨S50x1024, .f32⟩
  | .hbm, ⟨10, _⟩ => ⟨S1024x50, .f32⟩
  | .local .tc .vmem, ⟨0, _⟩ => ⟨S1000x1000, .f32⟩
  | .local .tc .vmem, ⟨1, _⟩ => ⟨S50x1024, .i32⟩
  | .local .tc .vmem, ⟨2, _⟩ => ⟨S50x1024, .i32⟩
  | .local .tc .vmem, ⟨3, _⟩ => ⟨S8000x128, .f32⟩
  | .local .tc .vmem, ⟨4, _⟩ => ⟨S51200, .i32⟩
  | .local .scVector .vmem, ⟨0, _⟩ => ⟨S1600, .i32⟩
  | .local .scVector .vmem, ⟨1, _⟩ => ⟨S1600, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_1_scv : Ref sig .scVector := ⟨.hbm, 6, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1000x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S50x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S51200 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x50_S50x1024_1_0 : S1024x50.Transposes [1, 0] S50x1024
  inb_S1000x1000_S1000x1000_0_0 : ∀ a, (![0, 0] : Fin 2 → Nat) a + S1000x1000.size a ≤ S1000x1000.size a
  h_S1000x1000 : 0 < S1000x1000.numel
  reduces_S1000x1000_S1000 : S1000x1000.Reduces [1] S1000
  shapeCasts_S1000_S1000x1 : S1000.ShapeCasts S1000x1
  broadcasts_S1000x1_S1000x1000 : S1000x1.Broadcasts S1000x1000
  shapeCasts_S1000x1_S1000x1 : S1000x1.ShapeCasts S1000x1
  broadcasts_S1000x1_S1000x128 : S1000x1.Broadcasts S1000x128
  slices_S1000x1000_o0_0_S1000x128 : S1000x1000.Slices ![0, 0] S1000x128
  inb_S8000x128_S1000x128_0_0 : ∀ a, (![0, 0] : Fin 2 → Nat) a + S1000x128.size a ≤ S8000x128.size a
  h_S1000x128 : 0 < S1000x128.numel
  slices_S1000x1000_o0_128_S1000x128 : S1000x1000.Slices ![0, 128] S1000x128
  inb_S8000x128_S1000x128_1000_0 : ∀ a, (![1000, 0] : Fin 2 → Nat) a + S1000x128.size a ≤ S8000x128.size a
  slices_S1000x1000_o0_256_S1000x128 : S1000x1000.Slices ![0, 256] S1000x128
  inb_S8000x128_S1000x128_2000_0 : ∀ a, (![2000, 0] : Fin 2 → Nat) a + S1000x128.size a ≤ S8000x128.size a
  slices_S1000x1000_o0_384_S1000x128 : S1000x1000.Slices ![0, 384] S1000x128
  inb_S8000x128_S1000x128_3000_0 : ∀ a, (![3000, 0] : Fin 2 → Nat) a + S1000x128.size a ≤ S8000x128.size a
  slices_S1000x1000_o0_512_S1000x128 : S1000x1000.Slices ![0, 512] S1000x128
  inb_S8000x128_S1000x128_4000_0 : ∀ a, (![4000, 0] : Fin 2 → Nat) a + S1000x128.size a ≤ S8000x128.size a
  slices_S1000x1000_o0_640_S1000x128 : S1000x1000.Slices ![0, 640] S1000x128
  inb_S8000x128_S1000x128_5000_0 : ∀ a, (![5000, 0] : Fin 2 → Nat) a + S1000x128.size a ≤ S8000x128.size a
  slices_S1000x1000_o0_768_S1000x128 : S1000x1000.Slices ![0, 768] S1000x128
  inb_S8000x128_S1000x128_6000_0 : ∀ a, (![6000, 0] : Fin 2 → Nat) a + S1000x128.size a ≤ S8000x128.size a
  slices_S1000x1000_o0_896_S1000x104 : S1000x1000.Slices ![0, 896] S1000x104
  concatenates_S1000x104_S1000x24_S1000x128_d1 : Shape.Concatenates [S1000x104, S1000x24] S1000x128 1
  inb_S8000x128_S1000x128_7000_0 : ∀ a, (![7000, 0] : Fin 2 → Nat) a + S1000x128.size a ≤ S8000x128.size a
  inb_S50x1024_S50x1024_0_0 : ∀ a, (![0, 0] : Fin 2 → Nat) a + S50x1024.size a ≤ S50x1024.size a
  h_S50x1024 : 0 < S50x1024.numel
  shapeCasts_S50x1024_S50x1024 : S50x1024.ShapeCasts S50x1024
  shapeCasts_S50x1024_S51200 : S50x1024.ShapeCasts S51200
  inb_S51200_S51200_0 : ∀ a, (![0] : Fin 1 → Nat) a + S51200.size a ≤ S51200.size a
  h_S51200 : 0 < S51200.numel
  shapeCasts_S8000x128_S1024000 : S8000x128.ShapeCasts S1024000
  inb_S1600_S1600_0 : ∀ a, (![0] : Fin 1 → Nat) a + S1600.size a ≤ S1600.size a
  inb_S1024000_S1024000_0 : ∀ a, (![0] : Fin 1 → Nat) a + S1024000.size a ≤ S1024000.size a
  gathers_S1024000_S1600 : S1024000.Gathers 0 S1600
  shapeCasts_S51200_S50x1024 : S51200.ShapeCasts S50x1024
  transposes_S50x1024_S1024x50_1_0 : S50x1024.Transposes [1, 0] S1024x50
  hcc1_scratch2 : 5 + S_.numel ≤ 8
  hcc1_scoped0 : 6 + S_.numel ≤ 8
  hcc1_scoped1 : 7 + S_.numel ≤ 8
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hcore1 : grid1.bound 0 ≤ τ.nSC
  hsub1 : grid1.bound 1 ≤ τ.nSub
  k1_off1_inb : ∀ i : grid1.Coords, ∀ a, (k1_off1 i) a + S1600.size a ≤ S51200.size a

variable [Facts₀]

abbrev cc1_scratch2 : DmaSems sig S_ := SemArray.consecutive 5 S_ hcc1_scratch2
abbrev cc1_scoped0 : DmaSems sig S_ := SemArray.consecutive 6 S_ hcc1_scoped0
abbrev cc1_scoped1 : DmaSems sig S_ := SemArray.consecutive 7 S_ hcc1_scoped1

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2_0) true false (stage0_3 0) (sem0_3 0) (Memref.isWhole_whole _) (hstage0_3 0)

abbrev win0_4 : Pipeline.Window sig grid0 :=
  Pipeline.Window.whole (Memref.whole main_v2_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x50 : Shape := ⟨2, ![1024, 50]⟩
abbrev S1000x1000 : Shape := ⟨2, ![1000, 1000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x1000 : Shape := ⟨3, ![1024, 50, 1000]⟩
abbrev S1x1x1000 : Shape := ⟨3, ![1, 1, 1000]⟩

abbrev nBuf : Space → Nat
  | .hbm => 51
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1024x50, .i32⟩
  | .hbm, ⟨2, _⟩ => ⟨S1000x1000, .f32⟩
  | .hbm, ⟨3, _⟩ => ⟨S_, .i32⟩
  | .hbm, ⟨4, _⟩ => ⟨S1024x50, .i32⟩
  | .hbm, ⟨5, _⟩ => ⟨S1024x50, .i1⟩
  | .hbm, ⟨6, _⟩ => ⟨S_, .i32⟩
  | .hbm, ⟨7, _⟩ => ⟨S1024x50, .i32⟩
  | .hbm, ⟨8, _⟩ => ⟨S1024x50, .i32⟩
  | .hbm, ⟨9, _⟩ => ⟨S1024x50, .i32⟩
  | .hbm, ⟨10, _⟩ => ⟨S1024x50x1, .i32⟩
  | .hbm, ⟨11, _⟩ => ⟨S1, .i32⟩
  | .hbm, ⟨12, _⟩ => ⟨S_, .i32⟩
  | .hbm, ⟨13, _⟩ => ⟨S1024x50x1, .i32⟩
  | .hbm, ⟨14, _⟩ => ⟨S1024x50x1, .i1⟩
  | .hbm, ⟨15, _⟩ => ⟨S1x1x1, .i32⟩
  | .hbm, ⟨16, _⟩ => ⟨S1024x50x1, .i32⟩
  | .hbm, ⟨17, _⟩ => ⟨S1024x50x1, .i1⟩
  | .hbm, ⟨18, _⟩ => ⟨S1024x50x1, .i1⟩
  | .hbm, ⟨19, _⟩ => ⟨S_, .i1⟩
  | .hbm, ⟨20, _⟩ => ⟨S1024x50, .i1⟩
  | .hbm, ⟨21, _⟩ => ⟨S1024x50x1000, .f32⟩
  | .hbm, ⟨22, _⟩ => ⟨S1024x50x1000, .i1⟩
  | .hbm, ⟨23, _⟩ => ⟨S_, .f32⟩
  | .hbm, ⟨24, _⟩ => ⟨S1024x50x1000, .f32⟩
  | .hbm, ⟨25, _⟩ => ⟨S1024x50x1000, .f32⟩
  | .hbm, ⟨26, _⟩ => ⟨S1024x50x1, .i32⟩
  | .hbm, ⟨27, _⟩ => ⟨S1x1x1000, .i32⟩
  | .hbm, ⟨28, _⟩ => ⟨S1024x50x1000, .i32⟩
  | .hbm, ⟨29, _⟩ => ⟨S1024x50x1000, .i32⟩
  | .hbm, ⟨30, _⟩ => ⟨S1024x50x1000, .i1⟩
  | .hbm, ⟨31, _⟩ => ⟨S1024x50x1000, .f32⟩
  | .hbm, ⟨32, _⟩ => ⟨S_, .f32⟩
  | .hbm, ⟨33, _⟩ => ⟨S1024x50, .f32⟩
  | .hbm, ⟨34, _⟩ => ⟨S_, .f32⟩
  | .hbm, ⟨35, _⟩ => ⟨S1024x50, .f32⟩
  | .hbm, ⟨36, _⟩ => ⟨S1024x50, .f32⟩
  | .hbm, ⟨37, _⟩ => ⟨S1024x50x1, .f32⟩
  | .hbm, ⟨38, _⟩ => ⟨S1024x50x1000, .f32⟩
  | .hbm, ⟨39, _⟩ => ⟨S1024x50x1000, .f32⟩
  | .hbm, ⟨40, _⟩ => ⟨S1024x50x1000, .f32⟩
  | .hbm, ⟨41, _⟩ => ⟨S_, .f32⟩
  | .hbm, ⟨42, _⟩ => ⟨S1024x50, .f32⟩
  | .hbm, ⟨43, _⟩ => ⟨S1024x50x1, .f32⟩
  | .hbm, ⟨44, _⟩ => ⟨S1024x50x1, .f32⟩
  | .hbm, ⟨45, _⟩ => ⟨S1024x50x1000, .f32⟩
  | .hbm, ⟨46, _⟩ => ⟨S1024x50x1000, .f32⟩
  | .hbm, ⟨47, _⟩ => ⟨S1024x50x1000, .f32⟩
  | .hbm, ⟨48, _⟩ => ⟨S_, .f32⟩
  | .hbm, ⟨49, _⟩ => ⟨S1024x50, .f32⟩
  | .hbm, ⟨50, _⟩ => ⟨S1024x50, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v1 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v2 : Ref sig .tc := ⟨.hbm, 46, rfl⟩
abbrev main_v3 : Ref sig .tc := ⟨.hbm, 47, rfl⟩
abbrev main_cst : Ref sig .tc := ⟨.hbm, 48, rfl⟩
abbrev main_v4 : Ref sig .tc := ⟨.hbm, 49, rfl⟩
abbrev main_v5 : Ref sig .tc := ⟨.hbm, 50, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x1000_0_1 : S1024x50.BroadcastsInDim S1024x50x1000 (![0, 1] : Fin 2 → Fin S1024x50x1000.rank)
  bcast_S_S1024x50x1000 : S_.BroadcastsInDim S1024x50x1000 (![] : Fin 0 → Fin S1024x50x1000.rank)
  bcast_S1024x50x1_S1024x50x1000_0_1_2 : S1024x50x1.BroadcastsInDim S1024x50x1000 (![0, 1, 2] : Fin 3 → Fin S1024x50x1000.rank)
  bcast_S1x1x1000_S1024x50x1000_0_1_2 : S1x1x1000.BroadcastsInDim S1024x50x1000 (![0, 1, 2] : Fin 3 → Fin S1024x50x1000.rank)
  reducesTo_S1024x50x1000_S1024x50_d2 : S1024x50x1000.ReducesTo [2] S1024x50
  gather_S1000x1000_S1024x50x1_S1024x50x1000_2_0_n_n_0_2_11000_wf : GatherDims.WF S1000x1000 S1024x50x1 S1024x50x1000 [2] [0] [] [0] [] 2 ![1, 1000]

variable [Facts₀]

def gather_S1000x1000_S1024x50x1_S1024x50x1000_2_0_n_n_0_2_11000 : GatherDims S1000x1000 S1024x50x1 S1024x50x1000 where
  offsetDims := [2]
  collapsedSliceDims := [0]
  operandBatchingDims := []
  startIndicesBatchingDims := []
  startIndexMap := [0]
  indexVectorDim := 2
  sliceSizes := ![1, 1000]
  wf := gather_S1000x1000_S1024x50x1_S1024x50x1000_2_0_n_n_0_2_11000_wf

class Facts : Prop extends Facts₀ where

variable [Facts]
-- ==== Proof.PreFacts.lean ====
/-
  What the input precondition says of the inputs.

  The precondition is the conjunction of three "all entries" tests: every entry of the table w has absolute value
  below +∞; every entry of x is ≥ 0 and ≤ 999 as a signed 32-bit word; the same for y.  Each test is an and-reduction
  over all axes of an array of one-bit words, started from 1, and the three results are conjoined.  When the whole
  is 1, each reduction is 1, so each of its entries is 1.  For a word, signed 0 ≤ v ≤ 999 means the top bit is clear
  and the unsigned value is below 1000.  For an extended real a, max a (-a) < +∞ means a is neither +∞ nor -∞, so a
  is a real number.
-/
import proofs.«203669_g49563922596444_cont_8to1_c_1114_17_alg».proof.Pre_input_domain
import Idealize.ShloMosaic.Lib.ReduceAll
import Idealize.ShloMosaic.Lib.ValueIdx
import Idealize.ShloMosaic.PureOps.Ideal

noncomputable section

namespace Cert.PreFacts

open Idealize.ShloMosaic Cert.Pre_input_domain

variable [Cert.Pre_input_domain.Facts]

/-- The rank-0 shape has one index. -/
private instance : Subsingleton S_.Idx := ⟨fun a b => funext fun d => d.elim0⟩

/-- A one-bit word made from a Boolean is 1 exactly when the Boolean is true. -/
private theorem ofBool_eq_one {b : Bool} : BitVec.ofBool b = 1#1 ↔ b = true := by cases b <;> decide

/-- A 32-bit word that is ≥ 0 and ≤ 999 read signed is below 1000 read unsigned. -/
private theorem toNat_lt_of_cmp (v : BitVec 32)
    (h : IntOp.andi (IntOp.cmpi .sge v 0#32) (IntOp.cmpi .sle v 999#32) = 1#1) : v.toNat < 1000 := by
  obtain ⟨h1, h2⟩ := IntOp.andi_eq_one.1 h
  rw [IntOp.cmpi_sge, show (0#32 : BitVec 32).toInt = 0 from by decide] at h1
  rw [IntOp.cmpi_sle, show (999#32 : BitVec 32).toInt = 999 from by decide] at h2
  rw [BitVec.toInt_eq_toNat_cond] at h1 h2
  have := v.isLt
  split at h1 <;> omega

/-- The precondition being 1 says each of its three tests holds at every entry. -/
private theorem split_pre {F : FTy → Type} [FloatOps F] (x y : IVec S1024x50 32) (w : FVec F S1000x1000 .f32)
    (h : Cert.Pre_input_domain.fn (F := F) x y w = fun _ => 1#1) :
    (∀ i, FloatOps.cmpf .olt (FloatOps.hostAbsf (w i)) (FloatOps.ofBits (F := F) .f32 0x7F800000#32) = 1#1)
      ∧ (∀ i, IntOp.andi (IntOp.cmpi .sge (x i) 0#32) (IntOp.cmpi .sle (x i) 999#32) = 1#1)
      ∧ (∀ i, IntOp.andi (IntOp.cmpi .sge (y i) 0#32) (IntOp.cmpi .sle (y i) 999#32) = 1#1) := by
  have e := congrFun h ValueIdx.ix0
  dsimp only [fn, fn_part1] at e
  obtain ⟨e12, e3⟩ := IntOp.andi_eq_one.1 e
  obtain ⟨e1, e2⟩ := IntOp.andi_eq_one.1 e12
  exact ⟨fun i => Host.reduce_andi_all _ _ _ _ _ e1 i, fun i => Host.reduce_andi_all _ _ _ _ _ e2 i,
    fun i => Host.reduce_andi_all _ _ _ _ _ e3 i⟩

/-- Under the precondition every entry of x, read unsigned, is below 1000. -/
theorem x_lt {F : FTy → Type} [FloatOps F] (x y : IVec S1024x50 32) (w : FVec F S1000x1000 .f32)
    (h : Cert.Pre_input_domain.fn (F := F) x y w = fun _ => 1#1) : ∀ i, (x i).toNat < 1000 :=
  fun i => toNat_lt_of_cmp (x i) ((split_pre x y w h).2.1 i)

/-- Under the precondition every entry of y, read unsigned, is below 1000. -/
theorem y_lt {F : FTy → Type} [FloatOps F] (x y : IVec S1024x50 32) (w : FVec F S1000x1000 .f32)
    (h : Cert.Pre_input_domain.fn (F := F) x y w = fun _ => 1#1) : ∀ i, (y i).toNat < 1000 :=
  fun i => toNat_lt_of_cmp (y i) ((split_pre x y w h).2.2 i)

/-- The f32 pattern 0x7F800000 is +∞. -/
private theorem pinf_eq_top : Ideal.ofBits .f32 0x7F800000#32 = (⊤ : EReal) := by
  simp [Ideal.ofBits, Ideal.ieee]

/-- Under the precondition, at the exact instance, every entry of w is a real number. -/
theorem w_finite (x y : IVec S1024x50 32) (w : FVec Ideal S1000x1000 .f32)
    (h : Cert.Pre_input_domain.fn (F := Ideal) x y w = fun _ => 1#1) : ∀ i, ∃ r : ℝ, w i = (r : EReal) := by
  intro i
  have e : Ideal.cmp .olt (max (w i) (-(w i))) (Ideal.ofBits .f32 0x7F800000#32) = 1#1 := (split_pre x y w h).1 i
  rw [pinf_eq_top] at e
  have hlt : max (w i) (-(w i)) < (⊤ : EReal) := of_decide_eq_true (ofBool_eq_one.1 e)
  obtain ⟨h1, h2⟩ := max_lt_iff.1 hlt
  have htop : w i ≠ (⊤ : EReal) := ne_of_lt h1
  have hbot : w i ≠ (⊥ : EReal) := by
    intro hb
    rw [hb, EReal.neg_bot] at h2
    exact lt_irrefl _ h2
  exact ⟨(w i).toReal, (EReal.coe_toReal htop hbot).symm⟩

end Cert.PreFacts

end
-- ==== Proof.Table.lean ====
/-
  The table the first stage leaves, block by block.  Block ct (of eight) holds, at row v and lane l, the row's
  log-sum-exp minus the logit of class 128·ct + l; the last block's lanes past class 999 hold the log-sum-exp minus 0.
-/
import proofs.«203669_g49563922596444_cont_8to1_c_1114_17_alg».proof.Proof.Gen.KernelIdeal.Skeleton

noncomputable section

namespace Cert.KernelIdeal.Table

open Idealize.ShloMosaic Cert.KernelIdeal

/-- The eight blocks of the table, each a function of the whole logit matrix. -/
def tabBlock {F : FTy → Type} [FloatOps F] (w : FVec F S1000x1000 .f32) : Fin 8 → FVec F S1000x128 .f32
  | 0 => Gen.k0_pay4 w
  | 1 => Gen.k0_pay5 w
  | 2 => Gen.k0_pay6 w
  | 3 => Gen.k0_pay7 w
  | 4 => Gen.k0_pay8 w
  | 5 => Gen.k0_pay9 w
  | 6 => Gen.k0_pay10 w
  | 7 => Gen.k0_pay1 (Gen.k0_pay3 w) (Gen.k0_pay11 w) (Scalar.ofBits .f32 0x00000000#32)

end Cert.KernelIdeal.Table

end
-- ==== Proof.KerTerm.lean ====
/-
  The kernel's result as one pure term of its three arguments.

  The first stage writes a table of 8000 × 128 numbers — eight blocks of 1000 rows, block ct row v lane l holding the
  log-sum-exp of logit row v minus logit (v, 128·ct + l) — and a list of 51200 flat indices, entry t·1024 + b being
  (y(b,t) div 128)·128000 + x(b,t)·128 + (y(b,t) mod 128).  The second stage reads the flattened table at each index.
  The result is that list of 51200 numbers cut into 50 rows of 1024 and transposed.
-/
import proofs.«203669_g49563922596444_cont_8to1_c_1114_17_alg».proof.Proof.Table
import Idealize.ShloMosaic.Lib.ValueIdx

noncomputable section

namespace Cert.KernelIdeal.KerTerm

open Idealize.ShloMosaic Cert.KernelIdeal Cert.KernelIdeal.Gen

variable {F : FTy → Type} [FloatOps F]

/-- A flat array read at a list of indices (an index is taken modulo the array's length, which changes nothing for
    indices in range). -/
def outVal (fi : S51200.Idx → BitVec 32) (tb : S1024000.Idx → F .f32) : S51200.Idx → F .f32 :=
  fun j => tb (ValueIdx.ix1 (⟨(fi j).toNat % 1024000, Nat.mod_lt _ (by decide)⟩ : Fin 1024000))

/-- The table: row r = 1000·ct + v, lane l, is block ct at (v, l). -/
def tabArr (w : FVec F S1000x1000 .f32) : S8000x128.Idx → F .f32 :=
  fun j => Cert.KernelIdeal.Table.tabBlock w (⟨(j 0).val / 1000 % 8, Nat.mod_lt _ (by decide)⟩ : Fin 8)
    (ValueIdx.ix2 (⟨(j 0).val % 1000, Nat.mod_lt _ (by decide)⟩ : Fin 1000) (⟨(j 1).val % 128, Nat.mod_lt _ (by decide)⟩ : Fin 128))

/-- The flat index list, from the two integer arguments. -/
def idxArr (x y : IVec S1024x50 32) : S51200.Idx → BitVec 32 :=
  Gen.k0_pay2 (F := F) (transpose S50x1024 [1, 0] x Gen.transposes_S1024x50_S50x1024_1_0)
    (transpose S50x1024 [1, 0] y Gen.transposes_S1024x50_S50x1024_1_0)

/-- The kernel's result. -/
def kerTerm (x y : IVec S1024x50 32) (w : FVec F S1000x1000 .f32) : FVec F S1024x50 .f32 :=
  transpose S1024x50 [1, 0]
    (shapeCast S50x1024 (outVal (idxArr (F := F) x y) (shapeCast S1024000 (tabArr w) Gen.shapeCasts_S8000x128_S1024000)) Gen.shapeCasts_S51200_S50x1024)
    Gen.transposes_S50x1024_S1024x50_1_0

end Cert.KernelIdeal.KerTerm

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.LibMinRead.lean ====
/-
  Minimum reductions at the exact (extended-real) instance, read at an index by their lower bounds, and the index
  lemmas that go with them.  A minimum-reduction over one axis is a fold of `min` from the accumulator's value over that
  axis's coordinates; from the f32 pattern of +∞ (the top of the extended reals) the numbers below the fold are exactly
  the numbers below every folded entry, which is the form in which minima over differently cut index sets are compared.
  Also: the index a single-axis reduction of an `[m, n]` block reads (row or column put back), and a vector `[a]` cast
  to a column `[a, 1]`.  Generic in the extents.
-/
import Idealize.ShloMosaic.Lib.ValueIdx
import Idealize.ShloMosaic.Lib.Pipeline.Value
import Idealize.ShloMosaic.PureOps.Ideal.Laws

noncomputable section

namespace Idealize.ShloMosaic.MinRead

open Idealize.ShloMosaic Idealize.ShloMosaic.ValueIdx
open scoped BigOperators

/-- The f32 pattern of +∞ is the top of the extended reals. -/
theorem pinf_eq_top : Ideal.ofBits .f32 0x7F800000#32 = (⊤ : EReal) := by
  simp [Ideal.ofBits, Ideal.ieee]

/-- A minimum-reduction over ONE axis, at the exact instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Below a fold of `min` over every coordinate from +∞: below every entry. -/
theorem le_fold_min_top {ι : Type} [Fintype ι] (f : ι → EReal) (z : EReal) :
    z ≤ (Finset.univ : Finset ι).fold min (Ideal.ofBits .f32 0x7F800000#32) f ↔ ∀ i, z ≤ f i := by
  rw [Finset.le_fold_min, pinf_eq_top]
  exact ⟨fun h i => h.2 i (Finset.mem_univ i), fun h => ⟨le_top, fun i _ => h i⟩⟩

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A reduced index `r` of an `[m, n]` block summed along its rows, with the column `k` put back, is `(r, k)`. -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A reduced index `q` of an `[m, n]` block summed down its columns, with the row `k` put back, is `(k, q)`. -/
theorem lift0_ix2 {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

end Idealize.ShloMosaic.MinRead

end
-- ==== Proof.LibLogSoftmaxRows.lean ====
/-
  A log-softmax over the rows of an a×b block, as vector operations spell it, read at an entry, at the exact
  (extended-real) instance.

  The operations: the row maximum M (a maximum-reduction along the row from -∞, put back as a column and spread
  across the row), the shifted block v - M, its exponential, the row sum of that (a sum-reduction along the row, put
  back as a column), its logarithm spread across the row, and the difference.  At entry (p, c) this is
  (v (p, c) - M p) - log (∑ k, exp (v (p, k) - M p)) with M p the fold of max from -∞ over row p.  Generic in the
  extents.  The two definitions are plain functions of a row, for a host program's spelling of the same row function to
  be compared against.
-/
import proofs.«203669_g49563922596444_cont_8to1_c_1114_17_alg».proof.Proof.LibMatmul
import proofs.«203669_g49563922596444_cont_8to1_c_1114_17_alg».proof.Proof.LibMinRead

noncomputable section

namespace Idealize.ShloMosaic.LogSoftmaxRows

open Idealize.ShloMosaic Idealize.ShloMosaic.ValueIdx
open scoped BigOperators

/-- The maximum of a row: the fold of max from -∞ (the f32 pattern 0xFF800000) over the row's entries. -/
def rowMax {n : Nat} (v : Fin n → EReal) : EReal :=
  (Finset.univ : Finset (Fin n)).fold max (Ideal.ofBits .f32 0xFF800000#32) v

/-- The log-softmax of a row at one entry: the entry shifted by the row's maximum, minus the log of the sum of the
    exponentials of the shifted row. -/
def rowLogSoftmax {n : Nat} (v : Fin n → EReal) (c : Fin n) : EReal :=
  (v c - rowMax v) - Ideal.log (∑ k : Fin n, Ideal.exp (v k - rowMax v))

variable {a b : Nat}

/-- The row maximum, put back as a column and spread across the row, reads at (p, q) the fold of max from -∞ over
    row p. -/
theorem rowMax_spread_apply (v : FVec Ideal ⟨2, ![a, b]⟩ .f32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hφ : FKind.Formats .f32) (hacc : (0xFF800000#32 : BitVec FTy.f32.bits) = FKind.maximumf.neutral .f32 hφ)
    (p : Fin a) (q : Fin b) :
    broadcastTo ⟨2, ![a, b]⟩ (shapeCast ⟨2, ![a, 1]⟩ (multiReduction .maximumf [1] ⟨1, ![a]⟩ v 0xFF800000#32 hr hφ hacc) hc) hb (ix2 p q)
      = rowMax (fun k : Fin b => v (ix2 p k)) := by
  rw [MatmulRead.broadcastTo_a1_ab_apply, MinRead.shapeCast_a_a1_apply, Ideal.multiReduction_maximumf_single]
  show (Finset.univ : Finset (Fin b)).fold max (Ideal.ofBits .f32 0xFF800000#32) (fun k : Fin b => v (hr.lift (ix1 p) k)) = _
  unfold rowMax
  exact congrArg (fun f : Fin b → EReal => (Finset.univ : Finset (Fin b)).fold max (Ideal.ofBits .f32 0xFF800000#32) f)
    (funext fun k => congrArg v (MinRead.lift1_ix2 hr p k))

/-- The whole chain at an entry: the row log-softmax. -/
theorem logSoftmax_rows_apply (v : FVec Ideal ⟨2, ![a, b]⟩ .f32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hφ₁ : FKind.Formats .f32) (hacc₁ : (0xFF800000#32 : BitVec FTy.f32.bits) = FKind.maximumf.neutral .f32 hφ₁)
    (hφ₂ : FKind.Formats .f32) (hacc₂ : (0x00000000#32 : BitVec FTy.f32.bits) = FKind.add.neutral .f32 hφ₂)
    (p : Fin a) (c : Fin b) :
    subf
        (subf v (broadcastTo ⟨2, ![a, b]⟩ (shapeCast ⟨2, ![a, 1]⟩ (multiReduction .maximumf [1] ⟨1, ![a]⟩ v 0xFF800000#32 hr hφ₁ hacc₁) hc) hb))
        (broadcastTo ⟨2, ![a, b]⟩
          (log (shapeCast ⟨2, ![a, 1]⟩
            (multiReduction .add [1] ⟨1, ![a]⟩
              (exp (subf v (broadcastTo ⟨2, ![a, b]⟩ (shapeCast ⟨2, ![a, 1]⟩ (multiReduction .maximumf [1] ⟨1, ![a]⟩ v 0xFF800000#32 hr hφ₁ hacc₁) hc) hb)))
              0x00000000#32 hr hφ₂ hacc₂) hc)) hb)
        (ix2 p c)
      = rowLogSoftmax (fun k : Fin b => v (ix2 p k)) c := by
  have hM := rowMax_spread_apply v hr hc hb hφ₁ hacc₁ p
  have hS : broadcastTo ⟨2, ![a, b]⟩
          (log (shapeCast ⟨2, ![a, 1]⟩
            (multiReduction .add [1] ⟨1, ![a]⟩
              (exp (subf v (broadcastTo ⟨2, ![a, b]⟩ (shapeCast ⟨2, ![a, 1]⟩ (multiReduction .maximumf [1] ⟨1, ![a]⟩ v 0xFF800000#32 hr hφ₁ hacc₁) hc) hb)))
              0x00000000#32 hr hφ₂ hacc₂) hc)) hb (ix2 p c)
        = Ideal.log (∑ k : Fin b, Ideal.exp (v (ix2 p k) - rowMax (fun k : Fin b => v (ix2 p k)))) := by
    rw [MatmulRead.broadcastTo_a1_ab_apply]
    show Ideal.log (shapeCast ⟨2, ![a, 1]⟩ _ hc (ix2 p (0 : Fin 1))) = _
    rw [MinRead.shapeCast_a_a1_apply, Ideal.multiReduction_add_single]
    show Ideal.log (∑ k : Fin b, Ideal.exp (v (hr.lift (ix1 p) k) - _)) = _
    refine congrArg Ideal.log (Finset.sum_congr rfl fun k _ => ?_)
    rw [MinRead.lift1_ix2 hr p k]
    exact congrArg (fun z => Ideal.exp (v (ix2 p k) - z)) (hM k)
  show (v (ix2 p c) - _) - _ = _
  rw [hM c, hS]
  rfl

end Idealize.ShloMosaic.LogSoftmaxRows

end
-- ==== Proof.Spec.lean ====
/-
  The row functions both programs compute, at the exact (extended-real) instance.

  For a row v of logits, with M the row's maximum (the fold of max from -∞): the log-sum-exp
  lse v = M + log (∑ₖ exp (vₖ - M)), and the cross-entropy of the row against a target class y,
  loss v y = lse v - v_y.  One program spells the loss as lse - v_y read from a table; the other as
  -∑ₖ onehot_y(k) · logsoftmax(v)_k with logsoftmax(v)_k = (vₖ - M) - log (∑ⱼ exp (vⱼ - M)).  For a row of finite
  numbers every logsoftmax entry is a real number, the one-hot sum keeps exactly the entry at y, and
  -((v_y - M) - L) = (M + L) - v_y on the reals.
-/
import proofs.«203669_g49563922596444_cont_8to1_c_1114_17_alg».proof.Proof.LibLogSoftmaxRows

noncomputable section

namespace Cert.Spec

open Idealize.ShloMosaic Idealize.ShloMosaic.LogSoftmaxRows
open scoped BigOperators

/-- The log-sum-exp of a row: its maximum plus the log of the sum of the exponentials of the shifted row. -/
def rowLse {n : Nat} (v : Fin n → EReal) : EReal :=
  rowMax v + Ideal.log (∑ k : Fin n, Ideal.exp (v k - rowMax v))

/-- The cross-entropy of a row of logits against the target class y. -/
def rowLoss {n : Nat} (v : Fin n → EReal) (y : Fin n) : EReal :=
  rowLse v - v y

/-- The f32 pattern 0xFF800000 is -∞. -/
private theorem ninf_eq_bot : Ideal.ofBits .f32 0xFF800000#32 = (⊥ : EReal) := by
  simp [Ideal.ofBits, Ideal.ieee]

/-- The maximum of a nonempty row of real numbers is a real number: it is at least the entry at y, so it is not -∞,
    and it is below +∞ because -∞ and every entry are. -/
private theorem rowMax_real {n : Nat} (v : Fin n → EReal) (hv : ∀ k, ∃ r : ℝ, v k = (r : EReal)) (y : Fin n) :
    ∃ M : ℝ, rowMax v = (M : EReal) := by
  have hbot : rowMax v ≠ ⊥ := by
    obtain ⟨r, hr⟩ := hv y
    have hle : (r : EReal) ≤ rowMax v := by
      unfold rowMax
      rw [Finset.le_fold_max]
      exact Or.inr ⟨y, Finset.mem_univ y, le_of_eq hr.symm⟩
    intro h
    rw [h] at hle
    exact absurd hle (not_le.mpr (EReal.bot_lt_coe r))
  have htop : rowMax v ≠ ⊤ := by
    have hlt : rowMax v < ⊤ := by
      unfold rowMax
      rw [Finset.fold_max_lt, ninf_eq_bot]
      refine ⟨bot_lt_top, fun k _ => ?_⟩
      obtain ⟨r, hr⟩ := hv k
      rw [hr]
      exact EReal.coe_lt_top r
    exact ne_of_lt hlt
  exact ⟨(rowMax v).toReal, (EReal.coe_toReal htop hbot).symm⟩

/-- A finite sum of real numbers, taken in the extended reals, is the real sum. -/
private theorem coe_sum {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, ← EReal.coe_add]

/-- The sum of the exponentials of a nonempty row of reals shifted by a real is a positive real. -/
private theorem sum_exp_pos_real {n : Nat} (r : Fin n → ℝ) (M : ℝ) (y : Fin n) :
    ∃ S : ℝ, 0 < S ∧ ∑ k : Fin n, Ideal.exp ((r k : EReal) - (M : EReal)) = (S : EReal) := by
  refine ⟨∑ k : Fin n, Real.exp (r k - M), ?_, ?_⟩
  · exact Finset.sum_pos (fun k _ => Real.exp_pos _) ⟨y, Finset.mem_univ y⟩
  · rw [← coe_sum]
    refine Finset.sum_congr rfl fun k _ => ?_
    rw [← EReal.coe_sub, Ideal.exp_coe]

/-- For a row of finite numbers, minus the one-hot-weighted sum (from 0) of the row's log-softmax is the row's
    cross-entropy against the hot class. -/
theorem neg_onehot_sum_logSoftmax {n : Nat} (v : Fin n → EReal) (hv : ∀ k, ∃ r : ℝ, v k = (r : EReal)) (y : Fin n)
    (c : Fin n → EReal) (hc : ∀ k, c k = if k = y then 1 else 0) :
    -(0 + ∑ k : Fin n, c k * rowLogSoftmax v k) = rowLoss v y := by
  obtain ⟨M, hM⟩ := rowMax_real v hv y
  choose r hr using hv
  obtain ⟨S, hS0, hS⟩ := sum_exp_pos_real r M y
  have hsum : ∑ k : Fin n, Ideal.exp (v k - rowMax v) = (S : EReal) := by
    rw [← hS, hM]
    exact Finset.sum_congr rfl fun k _ => by rw [hr k]
  have hlog : Ideal.log (∑ k : Fin n, Ideal.exp (v k - rowMax v)) = ((Real.log S : ℝ) : EReal) := by
    rw [hsum, Ideal.log_coe, if_neg (not_le.mpr hS0)]
  have hls : ∀ k, rowLogSoftmax v k = (((r k - M) - Real.log S : ℝ) : EReal) := by
    intro k
    unfold rowLogSoftmax
    rw [hlog, hM, hr k, ← EReal.coe_sub, ← EReal.coe_sub]
  have hone : ∑ k : Fin n, c k * rowLogSoftmax v k = (((r y - M) - Real.log S : ℝ) : EReal) := by
    rw [Finset.sum_eq_single y]
    · rw [hc y, if_pos rfl, one_mul, hls y]
    · intro k _ hk
      rw [hc k, if_neg hk, zero_mul]
    · intro h
      exact absurd (Finset.mem_univ y) h
  unfold rowLoss rowLse
  rw [hone, hlog, hM, hr y, zero_add, ← EReal.coe_neg, ← EReal.coe_add, ← EReal.coe_sub]
  congr 1
  ring

end Cert.Spec

end
-- ==== Proof.IdxValue.lean ====
/-
  The flat table position the first stage writes for every token, read at an index.

  For the token at time t of batch column b with word x (the token) and y (the target class), the stage writes, at
  flat position t·1024 + b, the 32-bit word (y >> 7)·128000 + x·128 + (y & 127).  For x and y below 1000 the arithmetic
  shift is the quotient by 128 (the sign bit is clear), the mask is the remainder, and no product or sum wraps:
  the word's value is (y / 128)·128000 + x·128 + y mod 128, which is below 8·128000.
-/
import proofs.«203669_g49563922596444_cont_8to1_c_1114_17_alg».proof.Proof.Gen.KernelIdeal.Skeleton
import Idealize.ShloMosaic.Lib.ValueIdx
import Idealize.ShloMosaic.Lib.Pipeline.Value

noncomputable section

namespace Cert.KernelIdeal.IdxValue

open Idealize.ShloMosaic Idealize.ShloMosaic.ValueIdx Cert.KernelIdeal

/-- An arithmetic right shift by 7 of a word below 1000 is the quotient by 128: the sign bit is clear. -/
theorem shrsi7_toNat (y : BitVec 32) (hy : y.toNat < 1000) :
    (IntOp.shrsi .vector y 7#32).toNat = y.toNat / 128 := by
  have hmsb : y.msb = false := by
    rw [BitVec.msb_eq_false_iff_two_mul_lt]; omega
  unfold IntOp.shrsi
  rw [if_pos (by decide)]
  show (y.sshiftRight 7).toNat = _
  rw [BitVec.sshiftRight_eq_of_msb_false hmsb, BitVec.toNat_ushiftRight, Nat.shiftRight_eq_div_pow]

/-- Masking a word with 127 = 2⁷ - 1 is the remainder by 128. -/
theorem andi127_toNat (y : BitVec 32) : (IntOp.andi y 127#32).toNat = y.toNat % 128 := by
  unfold IntOp.andi
  rw [BitVec.toNat_and]
  exact Nat.and_two_pow_sub_one_eq_mod y.toNat 7

/-- The flat position on words: for x, y below 1000 nothing wraps. -/
theorem word_fidx (x y : BitVec 32) (hx : x.toNat < 1000) (hy : y.toNat < 1000) :
    (IntOp.addi (IntOp.addi (IntOp.muli (IntOp.shrsi .vector y 7#32) 128000#32) (IntOp.muli x 128#32))
        (IntOp.andi y 127#32)).toNat
      = y.toNat / 128 * 128000 + x.toNat * 128 + y.toNat % 128 := by
  have h1 := shrsi7_toNat y hy
  have h2 := andi127_toNat y
  have hq : y.toNat / 128 < 8 := by omega
  have hr : y.toNat % 128 < 128 := Nat.mod_lt _ (by decide)
  unfold IntOp.addi IntOp.muli
  rw [BitVec.toNat_add, BitVec.toNat_add, BitVec.toNat_mul, BitVec.toNat_mul, h1, h2]
  show ((y.toNat / 128 * 128000 % 2 ^ 32 + x.toNat * 128 % 2 ^ 32) % 2 ^ 32 + y.toNat % 128) % 2 ^ 32 = _
  omega

/-- The word written at flat position t·1024 + b, as a number. -/
theorem fidx_toNat {F : FTy → Type} [FloatOps F] (xT yT : Vec F S50x1024 .i32) (t : Fin 50) (b : Fin 1024)
    (hx : (xT (ix2 t b)).toNat < 1000) (hy : (yT (ix2 t b)).toNat < 1000) :
    (Gen.k0_pay2 (F := F) xT yT (ix1 (⟨t.val * 1024 + b.val, by omega⟩ : Fin 51200))).toNat
      = (yT (ix2 t b)).toNat / 128 * 128000 + (xT (ix2 t b)).toNat * 128 + (yT (ix2 t b)).toNat % 128 := by
  unfold Gen.k0_pay2
  rw [shapeCast_apply _ _ (ix1 (⟨t.val * 1024 + b.val, by omega⟩ : Fin 51200)) (ix2 t b)
    (by rw [Shape.rowMajor_val_two, Shape.rowMajor_val_one]; rfl),
    shapeCast_self, shapeCast_self]
  exact word_fidx (xT (ix2 t b)) (yT (ix2 t b)) hx hy

/-- Every flat position the stage writes is inside the table of 8·128000 entries. -/
theorem fidx_lt {F : FTy → Type} [FloatOps F] (xT yT : Vec F S50x1024 .i32)
    (hx : ∀ i, (xT i).toNat < 1000) (hy : ∀ i, (yT i).toNat < 1000) (j : S51200.Idx) :
    (Gen.k0_pay2 (F := F) xT yT j).toNat < 1024000 := by
  obtain ⟨n, rfl⟩ : ∃ n : Fin 51200, j = ix1 n := ⟨j 0, eq_ix1 j⟩
  have hn := n.isLt
  have ht : n.val / 1024 < 50 := by omega
  have hb : n.val % 1024 < 1024 := Nat.mod_lt _ (by decide)
  have e : n = (⟨(⟨n.val / 1024, ht⟩ : Fin 50).val * 1024 + (⟨n.val % 1024, hb⟩ : Fin 1024).val, by
      show n.val / 1024 * 1024 + n.val % 1024 < 51200; omega⟩ : Fin 51200) :=
    Fin.ext (by show n.val = n.val / 1024 * 1024 + n.val % 1024; omega)
  have h1 := hx (ix2 (⟨n.val / 1024, ht⟩ : Fin 50) (⟨n.val % 1024, hb⟩ : Fin 1024))
  have h2 := hy (ix2 (⟨n.val / 1024, ht⟩ : Fin 50) (⟨n.val % 1024, hb⟩ : Fin 1024))
  rw [e, fidx_toNat xT yT ⟨n.val / 1024, ht⟩ ⟨n.val % 1024, hb⟩ h1 h2]
  omega

end Cert.KernelIdeal.IdxValue

end
-- ==== Proof.TableValue.lean ====
/-
  The table's blocks read at an entry, at the exact (extended-real) instance.

  The first stage computes, for every row p of the logit matrix, the row's log-sum-exp
  lse p = M p + log (∑ₖ exp (w (p, k) - M p)), M p the row's maximum, spreads it over 128 lanes, and writes eight
  blocks: block ct holds at (p, l) the value lse p - w (p, 128·ct + l); the last block's lanes from 104 on hold
  lse p - 0.  A class y below 1000 is lane y mod 128 of block y / 128, and for y / 128 = 7 that lane is below 104,
  so every class reads lse p - w (p, y): the row's cross-entropy against y.
-/
import proofs.«203669_g49563922596444_cont_8to1_c_1114_17_alg».proof.Proof.Table
import proofs.«203669_g49563922596444_cont_8to1_c_1114_17_alg».proof.Proof.Spec
import Idealize.ShloMosaic.Lib.ValueLayout

noncomputable section

namespace Cert.KernelIdeal.TableValue

open Idealize.ShloMosaic Idealize.ShloMosaic.ValueIdx Cert.KernelIdeal
open Idealize.ShloMosaic.LogSoftmaxRows
open scoped BigOperators

/-- A maximum-reduction along the rows of an a×b block from -∞ reads, at p, the fold of max from -∞ over row p. -/
theorem rowMax_read {a b : Nat} (v : FVec Ideal ⟨2, ![a, b]⟩ .f32)
    (hr : (⟨2, ![a, b]⟩ : Shape).Reduces [1] ⟨1, ![a]⟩)
    (hφ : FKind.Formats .f32) (hacc : (0xFF800000#32 : BitVec FTy.f32.bits) = FKind.maximumf.neutral .f32 hφ)
    (p : Fin a) :
    multiReduction .maximumf [1] ⟨1, ![a]⟩ v 0xFF800000#32 hr hφ hacc (ix1 p)
      = rowMax (fun k : Fin b => v (ix2 p k)) := by
  rw [Ideal.multiReduction_maximumf_single]
  show (Finset.univ : Finset (Fin b)).fold max (Ideal.ofBits .f32 0xFF800000#32) (fun k : Fin b => v (hr.lift (ix1 p) k)) = _
  unfold rowMax
  exact congrArg (fun f : Fin b → EReal => (Finset.univ : Finset (Fin b)).fold max (Ideal.ofBits .f32 0xFF800000#32) f)
    (funext fun k => congrArg v (MinRead.lift1_ix2 hr p k))

/-- The row log-sum-exp as vector operations spell it — the row maximum M, the shifted block's exponential summed
    along the row, its logarithm added to M, the result put back as a column and spread over c lanes — reads, at
    (p, q), the log-sum-exp of row p. -/
theorem lse_rows_apply {a b c : Nat} (v : FVec Ideal ⟨2, ![a, b]⟩ .f32)
    (hr : (⟨2, ![a, b]⟩ : Shape).Reduces [1] ⟨1, ![a]⟩)
    (hc : (⟨1, ![a]⟩ : Shape).ShapeCasts ⟨2, ![a, 1]⟩)
    (hb : (⟨2, ![a, 1]⟩ : Shape).Broadcasts ⟨2, ![a, b]⟩)
    (hc' : (⟨2, ![a, 1]⟩ : Shape).ShapeCasts ⟨2, ![a, 1]⟩)
    (hb' : (⟨2, ![a, 1]⟩ : Shape).Broadcasts ⟨2, ![a, c]⟩)
    (hφ₁ : FKind.Formats .f32) (hacc₁ : (0xFF800000#32 : BitVec FTy.f32.bits) = FKind.maximumf.neutral .f32 hφ₁)
    (hφ₂ : FKind.Formats .f32) (hacc₂ : (0x00000000#32 : BitVec FTy.f32.bits) = FKind.add.neutral .f32 hφ₂)
    (p : Fin a) (q : Fin c) :
    broadcastTo ⟨2, ![a, c]⟩
        (shapeCast ⟨2, ![a, 1]⟩
          (shapeCast ⟨2, ![a, 1]⟩
            (addf (multiReduction .maximumf [1] ⟨1, ![a]⟩ v 0xFF800000#32 hr hφ₁ hacc₁)
              (log (multiReduction .add [1] ⟨1, ![a]⟩
                (exp (subf v (broadcastTo ⟨2, ![a, b]⟩ (shapeCast ⟨2, ![a, 1]⟩ (multiReduction .maximumf [1] ⟨1, ![a]⟩ v 0xFF800000#32 hr hφ₁ hacc₁) hc) hb)))
                0x00000000#32 hr hφ₂ hacc₂)))
            hc) hc') hb' (ix2 p q)
      = Cert.Spec.rowLse (fun k : Fin b => v (ix2 p k)) := by
  rw [MatmulRead.broadcastTo_a1_ab_apply, shapeCast_self, MinRead.shapeCast_a_a1_apply, addf_apply, rowMax_read]
  show _ + Ideal.log (multiReduction (F := Ideal) .add [1] ⟨1, ![a]⟩ _ 0x00000000#32 hr hφ₂ hacc₂ (ix1 p)) = _
  rw [Ideal.multiReduction_add_single]
  unfold Cert.Spec.rowLse
  refine congrArg (fun z => rowMax (fun k : Fin b => v (ix2 p k)) + Ideal.log z) ?_
  show (∑ k : Fin b, Ideal.exp (v (hr.lift (ix1 p) k) - _)) = _
  refine Finset.sum_congr rfl fun k _ => ?_
  rw [MinRead.lift1_ix2 hr p k]
  exact congrArg (fun z => Ideal.exp (v (ix2 p k) - z)) (rowMax_spread_apply v hr hc hb hφ₁ hacc₁ p k)

/-- The spread log-sum-exp of the logit matrix reads, at (p, q), the log-sum-exp of row p. -/
theorem lse_apply (w : FVec Ideal S1000x1000 .f32) (p : Fin 1000) (q : Fin 128) :
    Gen.k0_pay3 (F := Ideal) w (ix2 p q) = Cert.Spec.rowLse (fun k : Fin 1000 => w (ix2 p k)) := by
  unfold Gen.k0_pay3
  exact lse_rows_apply w _ _ _ _ _ _ _ _ _ p q

/-- The spread log-sum-exp minus the lane slice of the logits at column offset o reads, at (p, q), the row's
    cross-entropy against the class o + q. -/
theorem block_apply (w : FVec Ideal S1000x1000 .f32) (o : Nat) (h : S1000x1000.Slices ![0, o] S1000x128)
    (p : Fin 1000) (q : Fin 128) (y : Fin 1000) (hy : y.val = o + q.val) :
    subf (Gen.k0_pay3 (F := Ideal) w) (extractStridedSlice S1000x128 ![0, o] w h) (ix2 p q)
      = Cert.Spec.rowLoss (fun k : Fin 1000 => w (ix2 p k)) y := by
  rw [subf_apply, lse_apply, slice2_axis1_apply o w h p q y hy]
  rfl

/-- The last block: the spread log-sum-exp minus the logits' last 104 columns followed by 24 columns of a scalar
    reads, at (p, q) with q below 104, the row's cross-entropy against the class 896 + q. -/
theorem lastBlock_apply (w : FVec Ideal S1000x1000 .f32) (z : Ideal .f32)
    (p : Fin 1000) (q : Fin 128) (hq : q.val < 104) (y : Fin 1000) (hy : y.val = 896 + q.val) :
    Gen.k0_pay1 (F := Ideal) (Gen.k0_pay3 w) (Gen.k0_pay11 w) z (ix2 p q)
      = Cert.Spec.rowLoss (fun k : Fin 1000 => w (ix2 p k)) y := by
  unfold Gen.k0_pay1 Gen.k0_pay11
  rw [subf_apply, lse_apply,
    concatenate_pair_apply_left (t := S1000x128) (s₁ := S1000x104) (s₂ := S1000x24) (1 : Fin 2) _ _ _ (ix2 p q) rfl (ix2 p (⟨q.val, hq⟩ : Fin 104))
      (fun b => match b with | ⟨0, _⟩ => rfl | ⟨1, _⟩ => rfl),
    slice2_axis1_apply 896 w _ p (⟨q.val, hq⟩ : Fin 104) y hy]
  rfl

/-- Block ct of the table reads, at row p and lane l, the row's cross-entropy against the class 128·ct + l,
    whenever that class is below 1000. -/
theorem tabBlock_read (w : FVec Ideal S1000x1000 .f32) (ct : Fin 8) (p : Fin 1000) (l : Fin 128) (y : Fin 1000)
    (hy : y.val = 128 * ct.val + l.val) :
    Cert.KernelIdeal.Table.tabBlock (F := Ideal) w ct (ix2 p l)
      = Cert.Spec.rowLoss (fun k : Fin 1000 => w (ix2 p k)) y := by
  match ct, hy with
  | ⟨0, _⟩, hy =>
    show Gen.k0_pay4 (F := Ideal) w (ix2 p l) = _
    unfold Gen.k0_pay4
    exact block_apply w 0 _ p l y (by have h' : y.val = 128 * 0 + l.val := hy; omega)
  | ⟨1, _⟩, hy =>
    show Gen.k0_pay5 (F := Ideal) w (ix2 p l) = _
    unfold Gen.k0_pay5
    exact block_apply w 128 _ p l y (by have h' : y.val = 128 * 1 + l.val := hy; omega)
  | ⟨2, _⟩, hy =>
    show Gen.k0_pay6 (F := Ideal) w (ix2 p l) = _
    unfold Gen.k0_pay6
    exact block_apply w 256 _ p l y (by have h' : y.val = 128 * 2 + l.val := hy; omega)
  | ⟨3, _⟩, hy =>
    show Gen.k0_pay7 (F := Ideal) w (ix2 p l) = _
    unfold Gen.k0_pay7
    exact block_apply w 384 _ p l y (by have h' : y.val = 128 * 3 + l.val := hy; omega)
  | ⟨4, _⟩, hy =>
    show Gen.k0_pay8 (F := Ideal) w (ix2 p l) = _
    unfold Gen.k0_pay8
    exact block_apply w 512 _ p l y (by have h' : y.val = 128 * 4 + l.val := hy; omega)
  | ⟨5, _⟩, hy =>
    show Gen.k0_pay9 (F := Ideal) w (ix2 p l) = _
    unfold Gen.k0_pay9
    exact block_apply w 640 _ p l y (by have h' : y.val = 128 * 5 + l.val := hy; omega)
  | ⟨6, _⟩, hy =>
    show Gen.k0_pay10 (F := Ideal) w (ix2 p l) = _
    unfold Gen.k0_pay10
    exact block_apply w 768 _ p l y (by have h' : y.val = 128 * 6 + l.val := hy; omega)
  | ⟨7, _⟩, hy =>
    show Gen.k0_pay1 (F := Ideal) (Gen.k0_pay3 w) (Gen.k0_pay11 w) (Scalar.ofBits .f32 0x00000000#32) (ix2 p l) = _
    have hlt := y.isLt
    have h' : y.val = 128 * 7 + l.val := hy
    exact lastBlock_apply w _ p l (by omega) y (by omega)

/-- The table at the block and lane of a class: the row's cross-entropy against that class. -/
theorem tabBlock_apply (w : FVec Ideal S1000x1000 .f32) (xv yv : Fin 1000) :
    Cert.KernelIdeal.Table.tabBlock (F := Ideal) w (⟨yv.val / 128, by omega⟩ : Fin 8) (ix2 xv (⟨yv.val % 128, by omega⟩ : Fin 128))
      = Cert.Spec.rowLoss (fun k : Fin 1000 => w (ix2 xv k)) yv :=
  tabBlock_read w _ xv _ yv (by show yv.val = 128 * (yv.val / 128) + yv.val % 128; omega)

end Cert.KernelIdeal.TableValue

end
-- ==== Proof.IdxLt.lean ====
/-
  Every flat index the kernel computes is below the flattened table's length: the two integer arguments, transposed,
  have entries below 1000, and the index (y div 128)·128000 + x·128 + (y mod 128) of such entries is below 1024000.
-/
import proofs.«203669_g49563922596444_cont_8to1_c_1114_17_alg».proof.Proof.IdxValue
import proofs.«203669_g49563922596444_cont_8to1_c_1114_17_alg».proof.Proof.KerTerm
import Idealize.ShloMosaic.Lib.ValueLayout

noncomputable section

namespace Cert.KernelIdeal.KerValue

open Idealize.ShloMosaic Idealize.ShloMosaic.ValueIdx Cert.KernelIdeal Cert.KernelIdeal.KerTerm

/-- Every flat index is below the flattened table's length. -/
theorem idxArr_lt {F : FTy → Type} [FloatOps F] (x y : IVec S1024x50 32) (hx : ∀ i, (x i).toNat < 1000)
    (hy : ∀ i, (y i).toNat < 1000) (j : S51200.Idx) : (idxArr (F := F) x y j).toNat < 1024000 := by
  refine IdxValue.fidx_lt (F := F) _ _ (fun i => ?_) (fun i => ?_) j
  · obtain ⟨p, q, rfl⟩ : ∃ p q, i = ix2 p q := ⟨_, _, eq_ix2 i⟩
    rw [transpose_ix2_apply]
    exact hx _
  · obtain ⟨p, q, rfl⟩ : ∃ p q, i = ix2 p q := ⟨_, _, eq_ix2 i⟩
    rw [transpose_ix2_apply]
    exact hy _

end Cert.KernelIdeal.KerValue

end
-- ==== Proof.KerValue.lean ====
/-
  The kernel's result term read at an entry.

  The result is a transpose of a 50 × 1024 reshape of a list of 51200 numbers, each the flattened 8000 × 128 table
  read at a flat index.  At (b, t) the transpose reads the reshape at (t, b), which is the list at t·1024 + b.  The
  flat index there is f = (Y div 128)·128000 + X·128 + (Y mod 128) with X = x(b, t) and Y = y(b, t), both below 1000,
  so f < 1024000 and taking f modulo the table's length changes nothing.  The flattened table at f is the table at
  row f div 128 = (Y div 128)·1000 + X and lane f mod 128 = Y mod 128; that row is row X of block Y div 128.  Block
  Y div 128 at (X, Y mod 128) is the cross-entropy of logit row X against class Y.
-/
import proofs.«203669_g49563922596444_cont_8to1_c_1114_17_alg».proof.Proof.KerTerm
import proofs.«203669_g49563922596444_cont_8to1_c_1114_17_alg».proof.Proof.Spec
import proofs.«203669_g49563922596444_cont_8to1_c_1114_17_alg».proof.Proof.IdxValue
import proofs.«203669_g49563922596444_cont_8to1_c_1114_17_alg».proof.Proof.TableValue
import proofs.«203669_g49563922596444_cont_8to1_c_1114_17_alg».proof.Proof.IdxLt
import Idealize.ShloMosaic.Lib.ValueLayout

noncomputable section

namespace Cert.KernelIdeal.KerValue

open Idealize.ShloMosaic Idealize.ShloMosaic.ValueIdx Cert.KernelIdeal Cert.KernelIdeal.KerTerm

/-- The list of 51200 entries cut into 50 rows of 1024 reads, at (t, b), the list at t·1024 + b. -/
theorem reshape_rows_apply {α : Type} (u : S51200.Idx → α) (t : Fin 50) (b : Fin 1024) :
    shapeCast S50x1024 u Gen.shapeCasts_S51200_S50x1024 (ix2 t b)
      = u (ix1 (⟨t.val * 1024 + b.val, by omega⟩ : Fin 51200)) :=
  shapeCast_apply u _ _ _ (by rw [Shape.rowMajor_val_one, Shape.rowMajor_val_two]; rfl)

/-- The 8000 × 128 table flattened reads, at f, the table at row f div 128 and lane f mod 128. -/
theorem flat_table_apply {α : Type} (T : S8000x128.Idx → α) (f : Fin 1024000) :
    shapeCast S1024000 T Gen.shapeCasts_S8000x128_S1024000 (ix1 f)
      = T (ix2 (⟨f.val / 128, by omega⟩ : Fin 8000) (⟨f.val % 128, by omega⟩ : Fin 128)) :=
  shapeCast_apply T _ _ _ (by
    rw [Shape.rowMajor_val_one, Shape.rowMajor_val_two]
    show f.val / 128 * 128 + f.val % 128 = f.val
    omega)

/-- The table at row r, lane l, is block ct at (v, l') whenever r = 1000·ct + v and l = l' (stated through the
    quotients and remainders the table's definition takes). -/
theorem tabArr_apply {F : FTy → Type} [FloatOps F] (w : FVec F S1000x1000 .f32) (r : Fin 8000) (l : Fin 128)
    (ct : Fin 8) (v : Fin 1000) (l' : Fin 128)
    (h1 : r.val / 1000 % 8 = ct.val) (h2 : r.val % 1000 = v.val) (h3 : l.val % 128 = l'.val) :
    tabArr w (ix2 r l) = Cert.KernelIdeal.Table.tabBlock w ct (ix2 v l') := by
  have e1 : (⟨r.val / 1000 % 8, Nat.mod_lt _ (by decide)⟩ : Fin 8) = ct := Fin.ext h1
  have e2 : (⟨r.val % 1000, Nat.mod_lt _ (by decide)⟩ : Fin 1000) = v := Fin.ext h2
  have e3 : (⟨l.val % 128, Nat.mod_lt _ (by decide)⟩ : Fin 128) = l' := Fin.ext h3
  show Cert.KernelIdeal.Table.tabBlock w (⟨r.val / 1000 % 8, _⟩ : Fin 8)
      (ix2 (⟨r.val % 1000, _⟩ : Fin 1000) (⟨l.val % 128, _⟩ : Fin 128)) = _
  rw [e1, e2, e3]

/-- The flat index at t·1024 + b, from the arguments' entries at (b, t). -/
theorem idxArr_toNat {F : FTy → Type} [FloatOps F] (x y : IVec S1024x50 32) (b : Fin 1024) (t : Fin 50)
    (hx : (x (ix2 b t)).toNat < 1000) (hy : (y (ix2 b t)).toNat < 1000) :
    (idxArr (F := F) x y (ix1 (⟨t.val * 1024 + b.val, by omega⟩ : Fin 51200))).toNat
      = (y (ix2 b t)).toNat / 128 * 128000 + (x (ix2 b t)).toNat * 128 + (y (ix2 b t)).toNat % 128 := by
  have hxT : transpose S50x1024 [1, 0] x Gen.transposes_S1024x50_S50x1024_1_0 (ix2 t b) = x (ix2 b t) :=
    transpose_ix2_apply x _ t b
  have hyT : transpose S50x1024 [1, 0] y Gen.transposes_S1024x50_S50x1024_1_0 (ix2 t b) = y (ix2 b t) :=
    transpose_ix2_apply y _ t b
  have e := IdxValue.fidx_toNat (F := F) (transpose S50x1024 [1, 0] x Gen.transposes_S1024x50_S50x1024_1_0)
    (transpose S50x1024 [1, 0] y Gen.transposes_S1024x50_S50x1024_1_0) t b (by rw [hxT]; exact hx) (by rw [hyT]; exact hy)
  rw [hxT, hyT] at e
  exact e

/-- The kernel's result at (b, t): the cross-entropy of logit row x(b, t) against class y(b, t). -/
theorem kerTerm_apply (x y : IVec S1024x50 32) (w : FVec Ideal S1000x1000 .f32) (hx : ∀ i, (x i).toNat < 1000)
    (hy : ∀ i, (y i).toNat < 1000) (b : Fin 1024) (t : Fin 50) :
    kerTerm (F := Ideal) x y w (ix2 b t)
      = Cert.Spec.rowLoss (fun k : Fin 1000 => w (ix2 (⟨(x (ix2 b t)).toNat, hx _⟩ : Fin 1000) k))
          (⟨(y (ix2 b t)).toNat, hy _⟩ : Fin 1000) := by
  have hX := hx (ix2 b t)
  have hY := hy (ix2 b t)
  have hf := idxArr_toNat (F := Ideal) x y b t hX hY
  unfold kerTerm
  rw [transpose_ix2_apply, reshape_rows_apply]
  show shapeCast S1024000 (tabArr w) Gen.shapeCasts_S8000x128_S1024000
      (ix1 (⟨(idxArr (F := Ideal) x y (ix1 (⟨t.val * 1024 + b.val, _⟩ : Fin 51200))).toNat % 1024000, _⟩ : Fin 1024000)) = _
  rw [flat_table_apply]
  rw [tabArr_apply w _ _ (⟨(y (ix2 b t)).toNat / 128, by omega⟩ : Fin 8) (⟨(x (ix2 b t)).toNat, hX⟩ : Fin 1000)
    (⟨(y (ix2 b t)).toNat % 128, Nat.mod_lt _ (by decide)⟩ : Fin 128)
    (by show (idxArr (F := Ideal) x y (ix1 (⟨t.val * 1024 + b.val, _⟩ : Fin 51200))).toNat % 1024000 / 128 / 1000 % 8
          = (y (ix2 b t)).toNat / 128
        rw [hf]; omega)
    (by show (idxArr (F := Ideal) x y (ix1 (⟨t.val * 1024 + b.val, _⟩ : Fin 51200))).toNat % 1024000 / 128 % 1000
          = (x (ix2 b t)).toNat
        rw [hf]; omega)
    (by show (idxArr (F := Ideal) x y (ix1 (⟨t.val * 1024 + b.val, _⟩ : Fin 51200))).toNat % 1024000 % 128 % 128
          = (y (ix2 b t)).toNat % 128
        rw [hf]; omega)]
  exact TableValue.tabBlock_apply w (⟨(x (ix2 b t)).toNat, hX⟩ : Fin 1000) (⟨(y (ix2 b t)).toNat, hY⟩ : Fin 1000)

end Cert.KernelIdeal.KerValue

end
-- ==== Proof.RefDefs.lean ====
import proofs.«203669_g49563922596444_cont_8to1_c_1114_17_alg».proof.Proof.Gen.ReferenceIdeal
import Idealize.ShloMosaic.PureOps.Ideal

/-!
# The reference program's result as a pure term

The reference computes, for token indices `x`, targets `y` and an embedding table `w`,
`loss (b,t) = -(∑ₖ onehot(y (b,t))ₖ · logSoftmax(w[x (b,t), ·])ₖ)`. Its operations composed, as functions of the
argument arrays, in named stages: the index wrap and range mask of the row lookup, the looked-up rows, the one-hot
targets, the row log-softmax, and the negated weighted sum.
-/

noncomputable section

namespace Cert.ReferenceIdeal.RefValue

open Cert.ReferenceIdeal Cert.ReferenceIdeal.Gen Idealize.ShloMosaic Idealize.SL.Sem

variable {F : FTy → Type} [FloatOps F]

/-! ## The operations' composed term, in stages -/

/-- `_take`'s index after the wrap of negative values: `x + 1000` where `x < 0` (signed), else `x`. -/
def wrapIdx (x : IVec S1024x50 32) : IVec S1024x50 32 :=
  select (cmpi .slt x (broadcastInDim S1024x50 ![] bcast_S_S1024x50 (constantI S_ 32 0#32)))
    (addi x (broadcastInDim S1024x50 ![] bcast_S_S1024x50 (constantI S_ 32 1000#32))) x

/-- The wrapped index with a unit axis added: the gather's index table. -/
def idx3 (x : IVec S1024x50 32) : IVec S1024x50x1 32 :=
  broadcastInDim S1024x50x1 ![0, 1] bcast_S1024x50_S1024x50x1_0_1 (wrapIdx x)

/-- `_take`'s in-range mask: `0 ≤ i ∧ i ≤ 999` (signed) at each position, and-reduced over the unit axis. -/
def inRange (x : IVec S1024x50 32) : IVec S1024x50 1 :=
  Host.reduce IntOp.andi
    (andi (cmpi .sge (idx3 x) (broadcastInDim S1024x50x1 ![] bcast_S_S1024x50x1 (constantI S_ 32 0#32)))
      (cmpi .sle (idx3 x) (broadcastInDim S1024x50x1 ![0, 1, 2] bcast_S1x1x1_S1024x50x1_0_1_2
        (broadcastInDim S1x1x1 ![2] bcast_S1_S1x1x1_2 (constantI S1 32 999#32)))))
    (constantI S_ 1 1#1) reducesTo_S1024x50x1_S1024x50_d2 h_S_

/-- `_take`'s result: the gathered rows where the index is in range, the fill constant elsewhere. -/
def logits (x : IVec S1024x50 32) (w : FVec F S1000x1000 .f32) : FVec F S1024x50x1000 .f32 :=
  select (broadcastInDim S1024x50x1000 ![0, 1] bcast_S1024x50_S1024x50x1000_0_1 (inRange x))
    (Host.gather gather_S1000x1000_S1024x50x1_S1024x50x1000_2_0_n_n_0_2_11000 w (idx3 x))
    (broadcastInDim S1024x50x1000 ![] bcast_S_S1024x50x1000 (constant (F := F) S_ .f32 0x7FC00000#32))

/-- `_one_hot`'s result: `1` where the class index equals the target, `0` elsewhere. -/
def onehot (y : IVec S1024x50 32) : FVec F S1024x50x1000 .f32 :=
  uitofp .f32
    (cmpi .eq
      (broadcastInDim S1024x50x1000 ![0, 1, 2] bcast_S1024x50x1_S1024x50x1000_0_1_2
        (broadcastInDim S1024x50x1 ![0, 1] bcast_S1024x50_S1024x50x1_0_1 y))
      (broadcastInDim S1024x50x1000 ![0, 1, 2] bcast_S1x1x1000_S1024x50x1000_0_1_2 (iotaInDim S1x1x1000 32 2)))

/-- `log_softmax`'s row maximum: the maximum over the last axis from `-∞`, then the maximum with `-∞`. -/
def rowMaxT (z : FVec F S1024x50x1000 .f32) : FVec F S1024x50 .f32 :=
  maximumf (broadcastInDim S1024x50 ![] bcast_S_S1024x50 (constant (F := F) S_ .f32 0xFF800000#32))
    (Host.reduce FloatOps.maximumf z (constant (F := F) S_ .f32 0xFF800000#32) reducesTo_S1024x50x1000_S1024x50_d2 h_S_)

/-- `log_softmax`'s shifted input `z - max`. -/
def shifted (z : FVec F S1024x50x1000 .f32) : FVec F S1024x50x1000 .f32 :=
  subf z (broadcastInDim S1024x50x1000 ![0, 1, 2] bcast_S1024x50x1_S1024x50x1000_0_1_2
    (broadcastInDim S1024x50x1 ![0, 1] bcast_S1024x50_S1024x50x1_0_1 (rowMaxT z)))

/-- `log_softmax`'s result: `(z - max) - log ∑ exp (z - max)`. -/
def logsoftmax (z : FVec F S1024x50x1000 .f32) : FVec F S1024x50x1000 .f32 :=
  subf (shifted z) (broadcastInDim S1024x50x1000 ![0, 1, 2] bcast_S1024x50x1_S1024x50x1000_0_1_2
    (Host.log (broadcastInDim S1024x50x1 ![0, 1] bcast_S1024x50_S1024x50x1_0_1
      (Host.reduceAdd (Host.exp (shifted z)) (constant (F := F) S_ .f32 0x00000000#32) reducesTo_S1024x50x1000_S1024x50_d2 h_S_))))

/-- @main's result over any float values: `-(0 + ∑ₖ onehotₖ · logsoftmaxₖ)`. -/
def refTermF (x y : IVec S1024x50 32) (w : FVec F S1000x1000 .f32) : FVec F S1024x50 .f32 :=
  Host.negf (Host.reduceAdd (mulf (onehot (F := F) y) (logsoftmax (logits x w)))
    (constant (F := F) S_ .f32 0x00000000#32) reducesTo_S1024x50x1000_S1024x50_d2 h_S_)

/-- The reference's result as one pure term of its argument arrays (the operations composed). -/
noncomputable def refTerm (x y : IVec S1024x50 32) (w : FVec Ideal S1000x1000 .f32) : FVec Ideal S1024x50 .f32 :=
  refTermF (F := Ideal) x y w

end Cert.ReferenceIdeal.RefValue

end
-- ==== Proof.RefRun.lean ====
import proofs.«203669_g49563922596444_cont_8to1_c_1114_17_alg».proof.Proof.RefDefs
import Idealize.ShloMosaic.Lib.StableHlo.Run

/-!
# The reference program's run

The reference computes, for token indices `x`, targets `y` and an embedding table `w`,
`loss (b,t) = -(∑ₖ onehot(y (b,t))ₖ · logSoftmax(w[x (b,t), ·])ₖ)`. Its module is @main calling three
outlined functions (`_take`, which itself calls `_where`; `_one_hot`; `log_softmax`) and then
four plain operations. Here the module is restated as one straight line of its 48 operations, each
callee's operations in place of its call, and the run of that line is read back: every weakly fair
execution terminates with the result buffer at the operations' composed pure term `refTerm` of the
three argument arrays, the arguments unchanged.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The straight line -/

/-- @main's 48 operations in order, the calls unfolded, as the module spells them: `_take`'s twenty-three over
    `main_call0`'s typed references (the seventh is `_where`'s select, into `main_call0.call0`'s), `_one_hot`'s six
    over `main_call1`'s, `log_softmax`'s fifteen over `main_call2`'s, then @main's own four. -/
abbrev opsT : List (HloOp τ sig (Elt F)) :=
  [ TRef.nullary main_call0.c (constantI S_ 32 0#32),
    TRef.unary main_call0.c main_call0.v0 (broadcastInDim S1024x50 ![] bcast_S_S1024x50),
    TRef.binary (.of main_arg0 : TRef sig ⟨S1024x50, .i32⟩) main_call0.v0 main_call0.v1 (cmpi .slt),
    TRef.nullary main_call0.c_0 (constantI S_ 32 1000#32),
    TRef.unary main_call0.c_0 main_call0.v2 (broadcastInDim S1024x50 ![] bcast_S_S1024x50),
    TRef.binary (.of main_arg0 : TRef sig ⟨S1024x50, .i32⟩) main_call0.v2 main_call0.v3 addi,
    TRef.ternary main_call0.v1 main_call0.v3 (.of main_arg0 : TRef sig ⟨S1024x50, .i32⟩) main_call0.call0.v0 select,
    TRef.unary main_call0.call0.v0 main_call0.v5 (broadcastInDim S1024x50x1 ![0, 1] bcast_S1024x50_S1024x50x1_0_1),
    TRef.nullary main_call0.c_1 (constantI S1 32 999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg2 : TRef sig ⟨S1000x1000, .f32⟩) main_call0.v5 main_call0.v13 (fun x i => Host.gather gather_S1000x1000_S1024x50x1_S1024x50x1000_2_0_n_n_0_2_11000 x i),
    TRef.unary main_call0.v12 main_call0.v14 (broadcastInDim S1024x50x1000 ![0, 1] bcast_S1024x50_S1024x50x1000_0_1),
    TRef.nullary main_call0.cst (constant S_ .f32 0x7FC00000#32),
    TRef.unary main_call0.cst main_call0.v15 (broadcastInDim S1024x50x1000 ![] bcast_S_S1024x50x1000),
    TRef.ternary main_call0.v14 main_call0.v13 main_call0.v15 main_call0.v16 select,
    TRef.unary (.of main_arg1 : TRef sig ⟨S1024x50, .i32⟩) main_call1.v0 (broadcastInDim S1024x50x1 ![0, 1] bcast_S1024x50_S1024x50x1_0_1),
    TRef.nullary main_call1.v1 (iotaInDim S1x1x1000 32 2),
    TRef.unary main_call1.v0 main_call1.v2 (broadcastInDim S1024x50x1000 ![0, 1, 2] bcast_S1024x50x1_S1024x50x1000_0_1_2),
    TRef.unary main_call1.v1 main_call1.v3 (broadcastInDim S1024x50x1000 ![0, 1, 2] bcast_S1x1x1000_S1024x50x1000_0_1_2),
    TRef.binary main_call1.v2 main_call1.v3 main_call1.v4 (cmpi .eq),
    TRef.unary main_call1.v4 main_call1.v5 (uitofp .f32),
    TRef.nullary main_call2.cst (constant S_ .f32 0xFF800000#32),
    TRef.binary (.of main_v0 : TRef sig ⟨S1024x50x1000, .f32⟩) main_call2.cst main_call2.v0 (fun x v => Host.reduce FloatOps.maximumf x v reducesTo_S1024x50x1000_S1024x50_d2 h_S_),
    TRef.nullary main_call2.cst_0 (constant S_ .f32 0xFF800000#32),
    TRef.unary main_call2.cst_0 main_call2.v1 (broadcastInDim S1024x50 ![] bcast_S_S1024x50),
    TRef.binary main_call2.v1 main_call2.v0 main_call2.v2 maximumf,
    TRef.unary main_call2.v2 main_call2.v3 (broadcastInDim S1024x50x1 ![0, 1] bcast_S1024x50_S1024x50x1_0_1),
    TRef.unary main_call2.v3 main_call2.v4 (broadcastInDim S1024x50x1000 ![0, 1, 2] bcast_S1024x50x1_S1024x50x1000_0_1_2),
    TRef.binary (.of main_v0 : TRef sig ⟨S1024x50x1000, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S1024x50x1000_S1024x50_d2 h_S_),
    TRef.unary main_call2.v7 main_call2.v8 (broadcastInDim S1024x50x1 ![0, 1] bcast_S1024x50_S1024x50x1_0_1),
    TRef.unary main_call2.v8 main_call2.v9 Host.log,
    TRef.unary main_call2.v9 main_call2.v10 (broadcastInDim S1024x50x1000 ![0, 1, 2] bcast_S1024x50x1_S1024x50x1000_0_1_2),
    TRef.binary main_call2.v5 main_call2.v10 main_call2.v11 subf,
    binary main_v1 main_v2 main_v3 (mulf : (⟨S1024x50x1000, .f32⟩ : BufTy).Contents (Elt F) → (⟨S1024x50x1000, .f32⟩ : BufTy).Contents (Elt F) → (⟨S1024x50x1000, .f32⟩ : BufTy).Contents (Elt F)),
    nullary main_cst (constant S_ .f32 0x00000000#32),
    binary main_v3 main_cst main_v4 ((fun x v => Host.reduceAdd x v reducesTo_S1024x50x1000_S1024x50_d2 h_S_) : (⟨S1024x50x1000, .f32⟩ : BufTy).Contents (Elt F) → (⟨S_, .f32⟩ : BufTy).Contents (Elt F) → (⟨S1024x50, .f32⟩ : BufTy).Contents (Elt F)),
    unary main_v4 main_v5 (Host.negf : (⟨S1024x50, .f32⟩ : BufTy).Contents (Elt F) → (⟨S1024x50, .f32⟩ : BufTy).Contents (Elt F)) ]

/-- The same 48 operations at the literal buffers: a typed reference built from a literal buffer carries that buffer,
    and moving contents along its type equation is the identity. -/
abbrev ops : List (HloOp τ sig (Elt F)) :=
  [ nullary main_call0_c (constantI S_ 32 0#32),
    unary main_call0_c main_call0_v0 (broadcastInDim S1024x50 ![] bcast_S_S1024x50),
    binary main_arg0 main_call0_v0 main_call0_v1 (cmpi .slt),
    nullary main_call0_c_0 (constantI S_ 32 1000#32),
    unary main_call0_c_0 main_call0_v2 (broadcastInDim S1024x50 ![] bcast_S_S1024x50),
    binary main_arg0 main_call0_v2 main_call0_v3 addi,
    ternary main_call0_v1 main_call0_v3 main_arg0 main_call0_v4 select,
    unary main_call0_v4 main_call0_v5 (broadcastInDim S1024x50x1 ![0, 1] bcast_S1024x50_S1024x50x1_0_1),
    nullary main_call0_c_1 (constantI S1 32 999#32),
    nullary main_call0_c_2 (constantI S_ 32 0#32),
    unary main_call0_c_2 main_call0_v6 (broadcastInDim S1024x50x1 ![] bcast_S_S1024x50x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S1024x50x1 ![0, 1, 2] bcast_S1x1x1_S1024x50x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S1024x50x1_S1024x50_d2 h_S_),
    binary main_arg2 main_call0_v5 main_call0_v13 (fun x i => Host.gather gather_S1000x1000_S1024x50x1_S1024x50x1000_2_0_n_n_0_2_11000 x i),
    unary main_call0_v12 main_call0_v14 (broadcastInDim S1024x50x1000 ![0, 1] bcast_S1024x50_S1024x50x1000_0_1),
    nullary main_call0_cst (constant S_ .f32 0x7FC00000#32),
    unary main_call0_cst main_call0_v15 (broadcastInDim S1024x50x1000 ![] bcast_S_S1024x50x1000),
    ternary main_call0_v14 main_call0_v13 main_call0_v15 main_v0 select,
    unary main_arg1 main_call1_v0 (broadcastInDim S1024x50x1 ![0, 1] bcast_S1024x50_S1024x50x1_0_1),
    nullary main_call1_v1 (iotaInDim S1x1x1000 32 2),
    unary main_call1_v0 main_call1_v2 (broadcastInDim S1024x50x1000 ![0, 1, 2] bcast_S1024x50x1_S1024x50x1000_0_1_2),
    unary main_call1_v1 main_call1_v3 (broadcastInDim S1024x50x1000 ![0, 1, 2] bcast_S1x1x1000_S1024x50x1000_0_1_2),
    binary main_call1_v2 main_call1_v3 main_call1_v4 (cmpi .eq),
    unary main_call1_v4 main_v1 (uitofp .f32),
    nullary main_call2_cst (constant S_ .f32 0xFF800000#32),
    binary main_v0 main_call2_cst main_call2_v0 (fun x v => Host.reduce FloatOps.maximumf x v reducesTo_S1024x50x1000_S1024x50_d2 h_S_),
    nullary main_call2_cst_0 (constant S_ .f32 0xFF800000#32),
    unary main_call2_cst_0 main_call2_v1 (broadcastInDim S1024x50 ![] bcast_S_S1024x50),
    binary main_call2_v1 main_call2_v0 main_call2_v2 maximumf,
    unary main_call2_v2 main_call2_v3 (broadcastInDim S1024x50x1 ![0, 1] bcast_S1024x50_S1024x50x1_0_1),
    unary main_call2_v3 main_call2_v4 (broadcastInDim S1024x50x1000 ![0, 1, 2] bcast_S1024x50x1_S1024x50x1000_0_1_2),
    binary main_v0 main_call2_v4 main_call2_v5 subf,
    unary main_call2_v5 main_call2_v6 Host.exp,
    nullary main_call2_cst_1 (constant S_ .f32 0x00000000#32),
    binary main_call2_v6 main_call2_cst_1 main_call2_v7 (fun x v => Host.reduceAdd x v reducesTo_S1024x50x1000_S1024x50_d2 h_S_),
    unary main_call2_v7 main_call2_v8 (broadcastInDim S1024x50x1 ![0, 1] bcast_S1024x50_S1024x50x1_0_1),
    unary main_call2_v8 main_call2_v9 Host.log,
    unary main_call2_v9 main_call2_v10 (broadcastInDim S1024x50x1000 ![0, 1, 2] bcast_S1024x50x1_S1024x50x1000_0_1_2),
    binary main_call2_v5 main_call2_v10 main_v2 subf,
    binary main_v1 main_v2 main_v3 (mulf : (⟨S1024x50x1000, .f32⟩ : BufTy).Contents (Elt F) → (⟨S1024x50x1000, .f32⟩ : BufTy).Contents (Elt F) → (⟨S1024x50x1000, .f32⟩ : BufTy).Contents (Elt F)),
    nullary main_cst (constant S_ .f32 0x00000000#32),
    binary main_v3 main_cst main_v4 ((fun x v => Host.reduceAdd x v reducesTo_S1024x50x1000_S1024x50_d2 h_S_) : (⟨S1024x50x1000, .f32⟩ : BufTy).Contents (Elt F) → (⟨S_, .f32⟩ : BufTy).Contents (Elt F) → (⟨S1024x50, .f32⟩ : BufTy).Contents (Elt F)),
    unary main_v4 main_v5 (Host.negf : (⟨S1024x50, .f32⟩ : BufTy).Contents (Elt F) → (⟨S1024x50, .f32⟩ : BufTy).Contents (Elt F)) ]

-- forty-eight binds re-associated: the rewrite under the chain recurses once per statement
set_option maxRecDepth 2048 in
/-- @main is the straight line over the typed references: the functions' definitions unfolded at their calls and the
    records at their fields, both sides are one chain of `hlo` steps once sequencing is reassociated. -/
theorem mainT_eq (c : Dev nD) : main (F := F) c = seq opsT := by
  simp only [main, fn_take.body, fn_where.body, fn_one_hot.body, fn_log_softmax.body, seq, bind_assoc, pure_bind]

attribute [local irreducible] Host.reduce Host.reduceAdd Host.gather in
/-- The two spellings agree operation by operation (the reductions and the gather kept folded: only their arguments
    are compared). -/
theorem opsT_eq : (opsT : List (HloOp τ sig (Elt F))) = ops := by
  simp only [List.cons.injEq, and_true]
  repeat' apply And.intro
  all_goals rfl

/-- @main is the straight line at the literal buffers. -/
theorem main_eq (c : Dev nD) : main (F := F) c = seq ops := (mainT_eq c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., nullary_bufs_sub .., unary_bufs_sub .., unary_bufs_sub .., binary_bufs_sub .., unary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..,
    binary_bufs_sub .., nullary_bufs_sub .., binary_bufs_sub .., unary_bufs_sub ..⟩

/-! ## The line in four segments

Read as one term the 48 operations' fold repeats its shared operands (the gathered rows feed the maximum, the shift
and, through it, both the exponentials and the final difference), so the fold is read segment by segment instead:
each callee's operations as a function of the contents they start from, and the four composed. -/

/-- `_take`'s twenty-three operations (the seventh is `_where`'s select). -/
abbrev opsTake : List (HloOp τ sig (Elt F)) :=
  [ nullary main_call0_c (constantI S_ 32 0#32),
    unary main_call0_c main_call0_v0 (broadcastInDim S1024x50 ![] bcast_S_S1024x50),
    binary main_arg0 main_call0_v0 main_call0_v1 (cmpi .slt),
    nullary main_call0_c_0 (constantI S_ 32 1000#32),
    unary main_call0_c_0 main_call0_v2 (broadcastInDim S1024x50 ![] bcast_S_S1024x50),
    binary main_arg0 main_call0_v2 main_call0_v3 addi,
    ternary main_call0_v1 main_call0_v3 main_arg0 main_call0_v4 select,
    unary main_call0_v4 main_call0_v5 (broadcastInDim S1024x50x1 ![0, 1] bcast_S1024x50_S1024x50x1_0_1),
    nullary main_call0_c_1 (constantI S1 32 999#32),
    nullary main_call0_c_2 (constantI S_ 32 0#32),
    unary main_call0_c_2 main_call0_v6 (broadcastInDim S1024x50x1 ![] bcast_S_S1024x50x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S1024x50x1 ![0, 1, 2] bcast_S1x1x1_S1024x50x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S1024x50x1_S1024x50_d2 h_S_),
    binary main_arg2 main_call0_v5 main_call0_v13 (fun x i => Host.gather gather_S1000x1000_S1024x50x1_S1024x50x1000_2_0_n_n_0_2_11000 x i),
    unary main_call0_v12 main_call0_v14 (broadcastInDim S1024x50x1000 ![0, 1] bcast_S1024x50_S1024x50x1000_0_1),
    nullary main_call0_cst (constant S_ .f32 0x7FC00000#32),
    unary main_call0_cst main_call0_v15 (broadcastInDim S1024x50x1000 ![] bcast_S_S1024x50x1000),
    ternary main_call0_v14 main_call0_v13 main_call0_v15 main_v0 select ]

/-- `_one_hot`'s six operations. -/
abbrev opsOneHot : List (HloOp τ sig (Elt F)) :=
  [ unary main_arg1 main_call1_v0 (broadcastInDim S1024x50x1 ![0, 1] bcast_S1024x50_S1024x50x1_0_1),
    nullary main_call1_v1 (iotaInDim S1x1x1000 32 2),
    unary main_call1_v0 main_call1_v2 (broadcastInDim S1024x50x1000 ![0, 1, 2] bcast_S1024x50x1_S1024x50x1000_0_1_2),
    unary main_call1_v1 main_call1_v3 (broadcastInDim S1024x50x1000 ![0, 1, 2] bcast_S1x1x1000_S1024x50x1000_0_1_2),
    binary main_call1_v2 main_call1_v3 main_call1_v4 (cmpi .eq),
    unary main_call1_v4 main_v1 (uitofp .f32) ]

/-- `log_softmax`'s fifteen operations. -/
abbrev opsLsm : List (HloOp τ sig (Elt F)) :=
  [ nullary main_call2_cst (constant S_ .f32 0xFF800000#32),
    binary main_v0 main_call2_cst main_call2_v0 (fun x v => Host.reduce FloatOps.maximumf x v reducesTo_S1024x50x1000_S1024x50_d2 h_S_),
    nullary main_call2_cst_0 (constant S_ .f32 0xFF800000#32),
    unary main_call2_cst_0 main_call2_v1 (broadcastInDim S1024x50 ![] bcast_S_S1024x50),
    binary main_call2_v1 main_call2_v0 main_call2_v2 maximumf,
    unary main_call2_v2 main_call2_v3 (broadcastInDim S1024x50x1 ![0, 1] bcast_S1024x50_S1024x50x1_0_1),
    unary main_call2_v3 main_call2_v4 (broadcastInDim S1024x50x1000 ![0, 1, 2] bcast_S1024x50x1_S1024x50x1000_0_1_2),
    binary main_v0 main_call2_v4 main_call2_v5 subf,
    unary main_call2_v5 main_call2_v6 Host.exp,
    nullary main_call2_cst_1 (constant S_ .f32 0x00000000#32),
    binary main_call2_v6 main_call2_cst_1 main_call2_v7 (fun x v => Host.reduceAdd x v reducesTo_S1024x50x1000_S1024x50_d2 h_S_),
    unary main_call2_v7 main_call2_v8 (broadcastInDim S1024x50x1 ![0, 1] bcast_S1024x50_S1024x50x1_0_1),
    unary main_call2_v8 main_call2_v9 Host.log,
    unary main_call2_v9 main_call2_v10 (broadcastInDim S1024x50x1000 ![0, 1, 2] bcast_S1024x50x1_S1024x50x1000_0_1_2),
    binary main_call2_v5 main_call2_v10 main_v2 subf ]

/-- @main's own four operations. -/
abbrev opsMain : List (HloOp τ sig (Elt F)) :=
  [ binary main_v1 main_v2 main_v3 (mulf : (⟨S1024x50x1000, .f32⟩ : BufTy).Contents (Elt F) → (⟨S1024x50x1000, .f32⟩ : BufTy).Contents (Elt F) → (⟨S1024x50x1000, .f32⟩ : BufTy).Contents (Elt F)),
    nullary main_cst (constant S_ .f32 0x00000000#32),
    binary main_v3 main_cst main_v4 ((fun x v => Host.reduceAdd x v reducesTo_S1024x50x1000_S1024x50_d2 h_S_) : (⟨S1024x50x1000, .f32⟩ : BufTy).Contents (Elt F) → (⟨S_, .f32⟩ : BufTy).Contents (Elt F) → (⟨S1024x50, .f32⟩ : BufTy).Contents (Elt F)),
    unary main_v4 main_v5 (Host.negf : (⟨S1024x50, .f32⟩ : BufTy).Contents (Elt F) → (⟨S1024x50, .f32⟩ : BufTy).Contents (Elt F)) ]

/-- The line is its four segments in order. -/
theorem ops_split : (ops : List (HloOp τ sig (Elt F))) = opsTake ++ (opsOneHot ++ (opsLsm ++ opsMain)) := rfl

/-- Two lines folded one after the other are their concatenation folded as one. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

attribute [local irreducible] Host.reduce Host.reduceAdd Host.gather in
/-- `_take`'s segment leaves its result buffer at `logits` of the index and table buffers' contents. -/
theorem take_v0 (V : Valuation τ sig (Elt F)) :
    after opsTake V (main_v0 : DevRef τ sig) = logits (F := F) (V (main_arg0 : DevRef τ sig)) (V (main_arg2 : DevRef τ sig)) := by
  after_results_simp
  rfl

theorem take_arg1 (V : Valuation τ sig (Elt F)) : after opsTake V (main_arg1 : DevRef τ sig) = V (main_arg1 : DevRef τ sig) := by
  after_results_simp

/-- `_one_hot`'s segment leaves its result buffer at `onehot` of the target buffer's contents. -/
theorem oneHot_v1 (V : Valuation τ sig (Elt F)) :
    after opsOneHot V (main_v1 : DevRef τ sig) = onehot (F := F) (V (main_arg1 : DevRef τ sig)) := by
  after_results_simp
  rfl

theorem oneHot_v0 (V : Valuation τ sig (Elt F)) : after opsOneHot V (main_v0 : DevRef τ sig) = V (main_v0 : DevRef τ sig) := by
  after_results_simp

attribute [local irreducible] Host.reduce Host.reduceAdd Host.gather in
/-- `log_softmax`'s segment leaves its result buffer at `logsoftmax` of its argument buffer's contents. -/
theorem lsm_v2 (V : Valuation τ sig (Elt F)) :
    after opsLsm V (main_v2 : DevRef τ sig) = logsoftmax (F := F) (V (main_v0 : DevRef τ sig)) := by
  after_results_simp
  rfl

theorem lsm_v1 (V : Valuation τ sig (Elt F)) : after opsLsm V (main_v1 : DevRef τ sig) = V (main_v1 : DevRef τ sig) := by
  after_results_simp

attribute [local irreducible] Host.reduce Host.reduceAdd Host.gather in
/-- @main's own segment leaves the result buffer at minus the sum over the last axis, from zero, of the product of
    the two buffers it reads. -/
theorem main_v5_eq (V : Valuation τ sig (Elt F)) :
    after opsMain V (main_v5 : DevRef τ sig)
      = Host.negf (Host.reduceAdd (mulf (V (main_v1 : DevRef τ sig)) (V (main_v2 : DevRef τ sig)))
          (constant (F := F) S_ .f32 0x00000000#32) reducesTo_S1024x50x1000_S1024x50_d2 h_S_) := by
  after_results_simp

/-- The fold of the 48 operations read at the result buffer is the composed term: the four segments' results, each
    over the contents the segments before it leave. -/
theorem out_eq (V : Valuation τ sig (Elt F)) :
    after ops V (main_v5 : DevRef τ sig)
      = refTermF (F := F) (V (main_arg0 : DevRef τ sig)) (V (main_arg1 : DevRef τ sig)) (V (main_arg2 : DevRef τ sig)) := by
  rw [ops_split, after_append', after_append', after_append', main_v5_eq, lsm_v2, lsm_v1, oneHot_v1, oneHot_v0, take_v0,
    take_arg1]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, from any memory with zero counters: every weakly fair execution of @main terminates with the
    result at the operations' composed term of the arguments and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v5)
            = refTerm (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨(h c main_v5).trans (out_eq (F := Ideal) _),
      (h c main_arg0).trans (arg0_eq (F := Ideal) _),
      (h c main_arg1).trans (arg1_eq (F := Ideal) _),
      (h c main_arg2).trans (arg2_eq (F := Ideal) _)⟩)
    (run_seq scopedRefs_eq scopedSems_eq defs main (fun _ => ops) main_eq (fun _ => ops_sub) m ρ)

end Cert.ReferenceIdeal.RefValue

end
-- ==== Proof.RefValue.lean ====
import proofs.«203669_g49563922596444_cont_8to1_c_1114_17_alg».proof.Proof.RefRun
import proofs.«203669_g49563922596444_cont_8to1_c_1114_17_alg».proof.Proof.Spec
import Idealize.ShloMosaic.Lib.IdealHost
import Idealize.ShloMosaic.Lib.Affine
import Idealize.ShloMosaic.Lib.Pipeline.Value
import Idealize.ShloMosaic.PureOps.Ideal.Laws

/-!
# The reference program's result read at an index

For token indices and targets in `[0, 999]` and a table of finite numbers, the reference's composed term
`refTerm x y w` at `(b, t)` is the cross-entropy of the table's row `x (b, t)` against the class `y (b, t)`.

Each operation is read at an index, one outlined function at a time. The row lookup: an index whose unsigned
value is below 1000 is nonnegative read signed, so the wrap of negative indices keeps it, both range comparisons
hold, the mask reduced over its unit axis is set, the gather's clamp into `[0, 999]` keeps it, and the select keeps
the gathered entry: `logits (b, t, k) = w (x (b, t), k)`. The one-hot targets: the class coordinate compared with
the target, as one or zero. The log-softmax: the host's maximum reduction is a fold of `max` from `-∞`, order-free,
and the further maximum with `-∞` changes nothing; the sums from zero are sums over the row. The last three
operations are `-(0 + ∑ₖ onehotₖ · logsoftmaxₖ)`, the row cross-entropy.
-/

noncomputable section

namespace Cert.ReferenceIdeal.RefValue

open Cert.ReferenceIdeal Cert.ReferenceIdeal.Gen Idealize.ShloMosaic Idealize.ShloMosaic.ValueIdx Idealize.SL.Sem
open Idealize.ShloMosaic.LogSoftmaxRows
open scoped BigOperators

/-! ## Broadcasts read at an index -/

section Bcast
variable {α : Type}

theorem bc_bt_bt1 (x : S1024x50.Idx → α) (b : Fin 1024) (t : Fin 50) (u : Fin 1) :
    broadcastInDim S1024x50x1 ![0, 1] bcast_S1024x50_S1024x50x1_0_1 x (ix3 b t u) = x (ix2 b t) :=
  broadcastInDim_apply _ _ x _ (ix2 b t) (by intro a; fin_cases a <;> rfl)

theorem bc_bt1_btk (x : S1024x50x1.Idx → α) (b : Fin 1024) (t : Fin 50) (k : Fin 1000) :
    broadcastInDim S1024x50x1000 ![0, 1, 2] bcast_S1024x50x1_S1024x50x1000_0_1_2 x (ix3 b t k) = x (ix3 b t (0 : Fin 1)) :=
  broadcastInDim_apply _ _ x _ (ix3 b t (0 : Fin 1)) (by intro a; fin_cases a <;> rfl)

theorem bc_bt_btk (x : S1024x50.Idx → α) (b : Fin 1024) (t : Fin 50) (k : Fin 1000) :
    broadcastInDim S1024x50x1000 ![0, 1] bcast_S1024x50_S1024x50x1000_0_1 x (ix3 b t k) = x (ix2 b t) :=
  broadcastInDim_apply _ _ x _ (ix2 b t) (by intro a; fin_cases a <;> rfl)

theorem bc_11k_btk (x : S1x1x1000.Idx → α) (b : Fin 1024) (t : Fin 50) (k : Fin 1000) :
    broadcastInDim S1024x50x1000 ![0, 1, 2] bcast_S1x1x1000_S1024x50x1000_0_1_2 x (ix3 b t k) = x (ix3 (0 : Fin 1) (0 : Fin 1) k) :=
  broadcastInDim_apply _ _ x _ (ix3 (0 : Fin 1) (0 : Fin 1) k) (by intro a; fin_cases a <;> rfl)

theorem bc_111_bt1 (x : S1x1x1.Idx → α) (b : Fin 1024) (t : Fin 50) (u : Fin 1) :
    broadcastInDim S1024x50x1 ![0, 1, 2] bcast_S1x1x1_S1024x50x1_0_1_2 x (ix3 b t u) = x (ix3 (0 : Fin 1) (0 : Fin 1) (0 : Fin 1)) :=
  broadcastInDim_apply _ _ x _ (ix3 (0 : Fin 1) (0 : Fin 1) (0 : Fin 1)) (by intro a; fin_cases a <;> rfl)

theorem bc_1_111 (x : S1.Idx → α) (j : S1x1x1.Idx) :
    broadcastInDim S1x1x1 ![2] bcast_S1_S1x1x1_2 x j = x (ix1 (0 : Fin 1)) :=
  broadcastInDim_apply _ _ x _ (ix1 (0 : Fin 1)) (by intro a; fin_cases a; rfl)

end Bcast

/-- The reduced index `(b, t)` of a `[1024, 50, 1000]` block reduced over its last axis, with the coordinate `k` put
    back, is `(b, t, k)`. -/
theorem lift_btk (h : S1024x50x1000.Reduces [2] S1024x50) (b : Fin 1024) (t : Fin 50) (k : Fin (S1024x50x1000.size 2)) :
    h.lift (ix2 b t) k = ix3 b t (⟨k.val, k.isLt⟩ : Fin 1000) := by
  funext c; apply Fin.ext
  fin_cases c <;> rfl

/-- The same over the unit last axis of a `[1024, 50, 1]` block. -/
theorem lift_bt1 (h : S1024x50x1.Reduces [2] S1024x50) (b : Fin 1024) (t : Fin 50) (k : Fin (S1024x50x1.size 2)) :
    h.lift (ix2 b t) k = ix3 b t (⟨k.val, k.isLt⟩ : Fin 1) := by
  funext c; apply Fin.ext
  fin_cases c <;> rfl

/-! ## The row lookup -/

/-- A word whose unsigned value is below 1000 is the same number read signed. -/
theorem toInt_of_lt {v : BitVec 32} (h : v.toNat < 1000) : v.toInt = (v.toNat : Int) :=
  BitVec.toInt_eq_toNat_of_lt (by omega)

/-- An index in range is not wrapped: the signed comparison with zero fails and the select keeps it. -/
theorem wrapIdx_apply (x : IVec S1024x50 32) (hx : ∀ i, (x i).toNat < 1000) (i : S1024x50.Idx) : wrapIdx x i = x i := by
  unfold wrapIdx
  rw [select_apply]
  have hc : cmpi .slt x (broadcastInDim S1024x50 ![] bcast_S_S1024x50 (constantI S_ 32 0#32)) i = 0#1 := by
    apply eq_zero_of_ne_one
    show ¬ IntOp.cmpi .slt (x i) (broadcastInDim S1024x50 ![] bcast_S_S1024x50 (constantI S_ 32 0#32) i) = 1#1
    rw [broadcastInDim_scalar_apply, IntOp.cmpi_slt, toInt_of_lt (hx i)]
    show ¬ ((x i).toNat : Int) < (0#32 : BitVec 32).toInt
    simp
  rw [hc, select_zero]

/-- The index table read at `(b, t, 0)` is the index at `(b, t)`. -/
theorem idx3_apply (x : IVec S1024x50 32) (hx : ∀ i, (x i).toNat < 1000) (b : Fin 1024) (t : Fin 50) (u : Fin 1) :
    idx3 x (ix3 b t u) = x (ix2 b t) := by
  unfold idx3
  rw [bc_bt_bt1, wrapIdx_apply x hx]

/-- The in-range mask is set wherever the index is in range: both signed comparisons hold at `(b, t, 0)`, and the
    `and`-reduction over the unit axis from `true` is the `and` of `true` with that one bit. -/
theorem inRange_apply (x : IVec S1024x50 32) (hx : ∀ i, (x i).toNat < 1000) (b : Fin 1024) (t : Fin 50) :
    inRange x (ix2 b t) = 1#1 := by
  have hR : S1024x50x1.Reduces [2] S1024x50 := by decide
  unfold inRange
  rw [Host.reduce_eq_fold_single IntOp.andi _ _ reducesTo_S1024x50x1_S1024x50_d2 hR h_S_]
  have hf : ((andi (cmpi .sge (idx3 x) (broadcastInDim S1024x50x1 ![] bcast_S_S1024x50x1 (constantI S_ 32 0#32)))
        (cmpi .sle (idx3 x) (broadcastInDim S1024x50x1 ![0, 1, 2] bcast_S1x1x1_S1024x50x1_0_1_2
          (broadcastInDim S1x1x1 ![2] bcast_S1_S1x1x1_2 (constantI S1 32 999#32))))) ∘ hR.lift (ix2 b t))
      = fun _ => 1#1 := by
    funext k
    show andi _ _ (hR.lift (ix2 b t) k) = 1#1
    rw [lift_bt1]
    show IntOp.andi (IntOp.cmpi .sge (idx3 x (ix3 b t _)) (broadcastInDim S1024x50x1 ![] bcast_S_S1024x50x1 (constantI S_ 32 0#32) (ix3 b t _)))
      (IntOp.cmpi .sle (idx3 x (ix3 b t _)) (broadcastInDim S1024x50x1 ![0, 1, 2] bcast_S1x1x1_S1024x50x1_0_1_2
          (broadcastInDim S1x1x1 ![2] bcast_S1_S1x1x1_2 (constantI S1 32 999#32)) (ix3 b t _))) = 1#1
    rw [IntOp.andi_eq_one, idx3_apply x hx, broadcastInDim_scalar_apply, bc_111_bt1, bc_1_111, IntOp.cmpi_sge, IntOp.cmpi_sle,
      toInt_of_lt (hx _)]
    have := hx (ix2 b t)
    constructor
    · show (0#32 : BitVec 32).toInt ≤ _
      simp
    · show _ ≤ (999#32 : BitVec 32).toInt
      have h999 : (999#32 : BitVec 32).toInt = 999 := by decide
      rw [h999]; omega
  rw [hf]
  show (Finset.univ : Finset (Fin 1)).fold IntOp.andi 1#1 (fun _ => 1#1) = 1#1
  decide

/-! ## The gather of whole rows, read at an index -/

/-- The row gather read at `(b, t, k)`: the table at the row the index table names at `(b, t, 0)` — read signed and
    clamped into `[0, 999]` — and column `k`. The start index has one component, for table axis 0, which is
    collapsed; the slice is one whole row, whose column is the result's last coordinate. -/
theorem gather_apply {α : Type} (w : S1000x1000.Idx → α) (idx : IVec S1024x50x1 32) (b : Fin 1024) (t : Fin 50) (k : Fin 1000) :
    Host.gather gather_S1000x1000_S1024x50x1_S1024x50x1000_2_0_n_n_0_2_11000 w idx (ix3 b t k)
      = w (ix2 (⟨min (idx (ix3 b t (0 : Fin 1))).toInt.toNat 999, by omega⟩ : Fin 1000) k) := by
  unfold Host.gather
  congr 1
  funext a
  refine Fin.ext ?_
  match a with
  | ⟨0, _⟩ =>
    show gather_S1000x1000_S1024x50x1_S1024x50x1000_2_0_n_n_0_2_11000.start (ix3 b t k) idx 0
      + gather_S1000x1000_S1024x50x1_S1024x50x1000_2_0_n_n_0_2_11000.batchCoord (ix3 b t k) 0
      + gather_S1000x1000_S1024x50x1_S1024x50x1000_2_0_n_n_0_2_11000.offCoord (ix3 b t k) 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x1000_S1024x50x1_S1024x50x1000_2_0_n_n_0_2_11000.startIndexMap from List.mem_singleton.mpr rfl)]
    have hsi : gather_S1000x1000_S1024x50x1_S1024x50x1000_2_0_n_n_0_2_11000.siIdx (ix3 b t k)
        ⟨List.idxOf (0 : Fin 2) gather_S1000x1000_S1024x50x1_S1024x50x1000_2_0_n_n_0_2_11000.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S1000x1000_S1024x50x1_S1024x50x1000_2_0_n_n_0_2_11000.start (ix3 b t k) idx 1
      + gather_S1000x1000_S1024x50x1_S1024x50x1000_2_0_n_n_0_2_11000.batchCoord (ix3 b t k) 1
      + gather_S1000x1000_S1024x50x1_S1024x50x1000_2_0_n_n_0_2_11000.offCoord (ix3 b t k) 1 = k.val
    rw [GatherDims.batchCoord_eq_zero _ _ _ List.not_mem_nil]
    have hs : gather_S1000x1000_S1024x50x1_S1024x50x1000_2_0_n_n_0_2_11000.start (ix3 b t k) idx 1 = 0 := by
      unfold GatherDims.start
      rw [dif_neg (show (1 : Fin 2) ∉ gather_S1000x1000_S1024x50x1_S1024x50x1000_2_0_n_n_0_2_11000.startIndexMap from
        (by decide : (1 : Fin 2) ∉ [(0 : Fin 2)]))]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The looked-up rows at `(b, t, k)`, for indices in range: the table at row `x (b, t)`, column `k`. The mask is
    set, so the select keeps the gathered value; the index read signed is its unsigned value, which the clamp keeps. -/
theorem logits_apply (x : IVec S1024x50 32) (w : FVec Ideal S1000x1000 .f32) (hx : ∀ i, (x i).toNat < 1000)
    (b : Fin 1024) (t : Fin 50) (k : Fin 1000) :
    logits (F := Ideal) x w (ix3 b t k) = w (ix2 (⟨(x (ix2 b t)).toNat, hx _⟩ : Fin 1000) k) := by
  unfold logits
  rw [select_apply, bc_bt_btk, inRange_apply x hx, select_one, gather_apply]
  congr 2
  apply Fin.ext
  show min (idx3 x (ix3 b t (0 : Fin 1))).toInt.toNat 999 = (x (ix2 b t)).toNat
  rw [idx3_apply x hx, toInt_of_lt (hx _)]
  have := hx (ix2 b t)
  omega

/-! ## The one-hot targets -/

/-- The bit of an equality test, converted unsigned to a float at the exact instance, is one or zero. -/
theorem uitofp_cmpi_eq (u v : BitVec 32) :
    (FloatOps.uitofp (F := Ideal) .f32 (IntOp.cmpi .eq u v) : EReal) = if u = v then 1 else 0 := by
  by_cases h : u = v
  · rw [if_pos h, IntOp.cmpi_eq.mpr h]
    show (((1#1 : BitVec 1).toNat : ℝ) : EReal) = 1
    simp
  · rw [if_neg h]
    have h0 : IntOp.cmpi .eq u v = 0#1 := eq_zero_of_ne_one fun e => h (IntOp.cmpi_eq.mp e)
    rw [h0]
    show (((0#1 : BitVec 1).toNat : ℝ) : EReal) = 0
    simp

/-- The one-hot targets at `(b, t, k)`, for targets in range: one where `k` is the target class, zero elsewhere. -/
theorem onehot_apply (y : IVec S1024x50 32) (hy : ∀ i, (y i).toNat < 1000) (b : Fin 1024) (t : Fin 50) (k : Fin 1000) :
    onehot (F := Ideal) y (ix3 b t k) = if k = (⟨(y (ix2 b t)).toNat, hy _⟩ : Fin 1000) then 1 else 0 := by
  unfold onehot
  show FloatOps.uitofp (F := Ideal) .f32 (IntOp.cmpi .eq
      (broadcastInDim S1024x50x1000 ![0, 1, 2] bcast_S1024x50x1_S1024x50x1000_0_1_2
        (broadcastInDim S1024x50x1 ![0, 1] bcast_S1024x50_S1024x50x1_0_1 y) (ix3 b t k))
      (broadcastInDim S1024x50x1000 ![0, 1, 2] bcast_S1x1x1000_S1024x50x1000_0_1_2 (iotaInDim S1x1x1000 32 2) (ix3 b t k))) = _
  rw [bc_bt1_btk, bc_bt_bt1, bc_11k_btk, uitofp_cmpi_eq]
  show (if y (ix2 b t) = BitVec.ofNat 32 k.val then (1 : EReal) else 0) = _
  have hk := k.isLt
  have hyb := hy (ix2 b t)
  by_cases h : k = (⟨(y (ix2 b t)).toNat, hy _⟩ : Fin 1000)
  · rw [if_pos h, if_pos]
    have hv : k.val = (y (ix2 b t)).toNat := congrArg Fin.val h
    rw [hv, BitVec.ofNat_toNat, BitVec.setWidth_eq]
  · rw [if_neg h, if_neg]
    intro e
    apply h
    apply Fin.ext
    show k.val = (y (ix2 b t)).toNat
    rw [e, BitVec.toNat_ofNat]
    omega

/-! ## The row log-softmax -/

/-- The row maximum at `(b, t)`: the host's reduction is a fold of `max` from `-∞` over the row in some order, which
    for `max` is the fold over the row's coordinates; the further maximum with `-∞` changes nothing, the fold being
    at least its starting value. -/
theorem rowMaxT_apply (z : FVec Ideal S1024x50x1000 .f32) (b : Fin 1024) (t : Fin 50) :
    rowMaxT (F := Ideal) z (ix2 b t) = rowMax (fun k : Fin 1000 => z (ix3 b t k)) := by
  have hR : S1024x50x1000.Reduces [2] S1024x50 := by decide
  unfold rowMaxT
  rw [maximumf_apply, broadcastInDim_scalar_apply, constant_apply,
    Host.reduce_eq_fold_single FloatOps.maximumf z _ reducesTo_S1024x50x1000_S1024x50_d2 hR h_S_]
  have hf : (z ∘ hR.lift (ix2 b t)) = fun k : Fin 1000 => z (ix3 b t k) :=
    funext fun k => congrArg z (lift_btk hR b t k)
  show max (Ideal.ofBits .f32 0xFF800000#32)
      ((Finset.univ : Finset (Fin 1000)).fold max (Ideal.ofBits .f32 0xFF800000#32) (z ∘ hR.lift (ix2 b t))) = _
  rw [hf]
  unfold rowMax
  exact max_eq_right ((Finset.le_fold_max _).mpr (Or.inl le_rfl))

/-- The shifted input at `(b, t, k)`: the entry less its row's maximum. -/
theorem shifted_apply (z : FVec Ideal S1024x50x1000 .f32) (b : Fin 1024) (t : Fin 50) (k : Fin 1000) :
    shifted (F := Ideal) z (ix3 b t k) = z (ix3 b t k) - rowMax (fun k : Fin 1000 => z (ix3 b t k)) := by
  unfold shifted
  rw [subf_apply, bc_bt1_btk, bc_bt_bt1, rowMaxT_apply]

/-- The log-softmax at `(b, t, k)`: the row function `rowLogSoftmax` of row `(b, t)` at `k`. The sum from zero of the
    exponentials of the shifted row is the sum over the row's coordinates. -/
theorem logsoftmax_apply (z : FVec Ideal S1024x50x1000 .f32) (b : Fin 1024) (t : Fin 50) (k : Fin 1000) :
    logsoftmax (F := Ideal) z (ix3 b t k) = rowLogSoftmax (fun k : Fin 1000 => z (ix3 b t k)) k := by
  have hR : S1024x50x1000.Reduces [2] S1024x50 := by decide
  unfold logsoftmax
  rw [subf_apply, shifted_apply, bc_bt1_btk]
  show _ - Ideal.log (broadcastInDim S1024x50x1 ![0, 1] bcast_S1024x50_S1024x50x1_0_1
      (Host.reduceAdd (Host.exp (shifted (F := Ideal) z)) (constant (F := Ideal) S_ .f32 0x00000000#32)
        reducesTo_S1024x50x1000_S1024x50_d2 h_S_) (ix3 b t (0 : Fin 1))) = _
  rw [bc_bt_bt1, hostReduceAdd_apply, Ideal.hostReduceAdd_single reducesTo_S1024x50x1000_S1024x50_d2 hR, constant_apply,
    Ideal.ofBits_zero_f32, zero_add]
  unfold rowLogSoftmax
  congr 2
  show ∑ j : Fin 1000, Host.exp (shifted (F := Ideal) z) (hR.lift (ix2 b t) j) = _
  refine Finset.sum_congr rfl fun j _ => ?_
  rw [lift_btk hR b t j]
  show Ideal.exp (shifted (F := Ideal) z (ix3 b t j)) = _
  rw [shifted_apply]

/-! ## The result at an index -/

/-- The reference's result at `(b, t)`, for indices and targets in range and a table of finite numbers: the
    cross-entropy of the table's row `x (b, t)` against the class `y (b, t)`. -/
theorem refTerm_apply (x y : IVec S1024x50 32) (w : FVec Ideal S1000x1000 .f32)
    (hx : ∀ i, (x i).toNat < 1000) (hy : ∀ i, (y i).toNat < 1000) (hw : ∀ i, ∃ r : ℝ, w i = (r : EReal))
    (b : Fin 1024) (t : Fin 50) :
    refTerm x y w (ix2 b t)
      = Cert.Spec.rowLoss (fun k : Fin 1000 => w (ix2 (⟨(x (ix2 b t)).toNat, hx _⟩ : Fin 1000) k)) (⟨(y (ix2 b t)).toNat, hy _⟩ : Fin 1000) := by
  have hR : S1024x50x1000.Reduces [2] S1024x50 := by decide
  have hrow : (fun k : Fin 1000 => logits (F := Ideal) x w (ix3 b t k))
      = fun k : Fin 1000 => w (ix2 (⟨(x (ix2 b t)).toNat, hx _⟩ : Fin 1000) k) :=
    funext fun k => logits_apply x w hx b t k
  unfold refTerm refTermF
  show -(Host.reduceAdd (mulf (onehot (F := Ideal) y) (logsoftmax (logits (F := Ideal) x w)))
      (constant (F := Ideal) S_ .f32 0x00000000#32) reducesTo_S1024x50x1000_S1024x50_d2 h_S_ (ix2 b t)) = _
  rw [hostReduceAdd_apply, Ideal.hostReduceAdd_single reducesTo_S1024x50x1000_S1024x50_d2 hR, constant_apply,
    Ideal.ofBits_zero_f32]
  have hsum : ∑ j : Fin (S1024x50x1000.size 2),
        mulf (onehot (F := Ideal) y) (logsoftmax (logits (F := Ideal) x w)) (hR.lift (ix2 b t) j)
      = ∑ k : Fin 1000, (if k = (⟨(y (ix2 b t)).toNat, hy _⟩ : Fin 1000) then (1 : EReal) else 0)
          * rowLogSoftmax (fun k : Fin 1000 => w (ix2 (⟨(x (ix2 b t)).toNat, hx _⟩ : Fin 1000) k)) k := by
    show ∑ j : Fin 1000, mulf (onehot (F := Ideal) y) (logsoftmax (logits (F := Ideal) x w)) (hR.lift (ix2 b t) j) = _
    refine Finset.sum_congr rfl fun j _ => ?_
    rw [lift_btk hR b t j, mulf_apply]
    show onehot (F := Ideal) y (ix3 b t j) * logsoftmax (logits (F := Ideal) x w) (ix3 b t j) = _
    rw [onehot_apply y hy, logsoftmax_apply, hrow]
  rw [hsum]
  exact Cert.Spec.neg_onehot_sum_logSoftmax _ (fun k => hw _) _ _ (fun k => rfl)

end Cert.ReferenceIdeal.RefValue

end
-- ==== Proof.Base.lean ====
/-
  The kernel's program as the SparseCore launch theorem sees it, the resource algebra of its proof, and the arrays its
  second stage moves: the flat index list (51200 words), the flat table (1,024,000 numbers) and the output (51200
  numbers).  Worker wid = 2·s + c (subcore s of SparseCore c) owns rows [1600·wid, 1600·(wid+1)) of the index list
  and of the output; every worker reads the whole table.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Writes
import Idealize.ShloMosaic.Lib.Tactic
import proofs.«203669_g49563922596444_cont_8to1_c_1114_17_alg».proof.Proof.Gen.KernelIdeal
import proofs.«203669_g49563922596444_cont_8to1_c_1114_17_alg».proof.Proof.Gen.KernelIdeal.Skeleton
import proofs.«203669_g49563922596444_cont_8to1_c_1114_17_alg».proof.Proof.Gen.KernelIdeal.Launch
import proofs.«203669_g49563922596444_cont_8to1_c_1114_17_alg».proof.Proof.Gen.KernelIdeal.Points
import proofs.«203669_g49563922596444_cont_8to1_c_1114_17_alg».proof.Proof.KerTerm

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the first stage's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The arrays of the second stage -/

abbrev fLoc (d : Dev nD) : Loc nD τ sig := (SparseCore.T d).loc main_v2_1
abbrev tLoc (d : Dev nD) : Loc nD τ sig := (SparseCore.T d).loc main_v3
abbrev oLoc (d : Dev nD) : Loc nD τ sig := (SparseCore.T d).loc main_v4

theorem div32 : 32 ∣ S51200.size 0 := ⟨1600, rfl⟩
/-- Worker wid's rows of a 51200-long array. -/
abbrev wrow (i : Fin 32) : Rect S51200 := Rect.part (s := S51200) (a₀ := 0) div32 i
abbrev wSet (i : Fin 32) : Finset S51200.Idx := (wrow i).set

theorem wrows_disjoint : ∀ i ∈ (Finset.univ : Finset (Fin 32)), ∀ j ∈ (Finset.univ : Finset (Fin 32)), i ≠ j → Disjoint (wSet i) (wSet j) :=
  fun _ _ _ _ h => Rect.part_disjoint div32 h
theorem wrows_cover : (Finset.univ : Finset (Fin 32)).biUnion wSet = Finset.univ := Rect.biUnion_part div32

/-- The worker number of subcore s of SparseCore c. -/
def wid (c : Fin 2) (s : Fin 16) : Fin 32 := ⟨2 * s.val + c.val, by omega⟩

/-- (c, s) ↦ 2·s + c is a bijection of the 2 × 16 workers with the 32 row blocks. -/
def widEquiv : Fin 2 × Fin 16 ≃ Fin 32 where
  toFun p := wid p.1 p.2
  invFun i := (⟨i.val % 2, by omega⟩, ⟨i.val / 2, by omega⟩)
  left_inv p := by
    obtain ⟨c, s⟩ := p
    simp only [wid]
    refine Prod.ext (Fin.ext ?_) (Fin.ext ?_)
    · show (2 * s.val + c.val) % 2 = c.val; omega
    · show (2 * s.val + c.val) / 2 = s.val; omega
  right_inv i := by
    simp only [wid]
    exact Fin.ext (by show 2 * (i.val / 2) + i.val % 2 = i.val; omega)

end Cert.KernelIdeal.Run

end
-- ==== Proof.Geom.lean ====
/-
  Where a worker of the second stage sits and which rows it owns, as the program addresses them: subcore L 1 of
  SparseCore L 0 is worker 2·(L 1) + (L 0) and its slice of a 51200-long array starts at 3200·(L 1) + 1600·(L 0).
-/
import proofs.«203669_g49563922596444_cont_8to1_c_1114_17_alg».proof.Proof.Base

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v2_1_scv : Memref Cert.KernelIdeal.sig Kind.scVector Space.hbm Cert.KernelIdeal.S51200 EltTy.i32)
local notation "tV" => (Memref.whole Cert.KernelIdeal.main_v3_scv : Memref Cert.KernelIdeal.sig Kind.scVector Space.hbm Cert.KernelIdeal.S1024000 EltTy.f32)
local notation "oV" => (Memref.whole Cert.KernelIdeal.main_v4_scv : Memref Cert.KernelIdeal.sig Kind.scVector Space.hbm Cert.KernelIdeal.S51200 EltTy.f32)
local notation "sV" => (Memref.whole Cert.KernelIdeal.cc1_scratch0 : Memref Cert.KernelIdeal.sig Kind.scVector Space.vmem Cert.KernelIdeal.S1600 EltTy.i32)
local notation "rV" => (Memref.whole Cert.KernelIdeal.cc1_scratch1 : Memref Cert.KernelIdeal.sig Kind.scVector Space.vmem Cert.KernelIdeal.S1600 EltTy.f32)

/-! ## A worker's place and its rows -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-- The worker's rows, as the program slices them. -/
abbrev wrowK (L : grid1.Coords) : Rect S51200 := Rect.unit (s := S51200) (k1_off1 L) S1600.size (k1_off1_inb L)
abbrev fSl (L : grid1.Coords) : Memref sig .scVector .hbm S1600 .i32 := (fV).slice (wrowK L) (fun _ => rfl)
abbrev oSl (L : grid1.Coords) : Memref sig .scVector .hbm S1600 .f32 := (oV).slice (wrowK L) (fun _ => rfl)
/-- All of the table and of the two scratch buffers, as the program slices them. -/
abbrev tAll : Memref sig .scVector .hbm S1024000 .f32 := (tV).slice (Rect.unit (s := S1024000) ![0] S1024000.size inb_S1024000_S1024000_0) (fun _ => rfl)
abbrev sAll : Memref sig .scVector .vmem S1600 .i32 := (sV).slice (Rect.unit (s := S1600) ![0] S1600.size inb_S1600_S1600_0) (fun _ => rfl)
abbrev rAll : Memref sig .scVector .vmem S1600 .f32 := (rV).slice (Rect.unit (s := S1600) ![0] S1600.size inb_S1600_S1600_0) (fun _ => rfl)

/-- The program's slice is the worker's block of rows: offset 3200·s + 1600·c = 1600·(2s + c). -/
theorem wrowK_eq (L : grid1.Coords) : wrowK L = wrow (wid (cL L) (jL L)) := by
  unfold wrowK wrow Rect.part Rect.block
  congr 1 <;> funext a
  · rw [k1_off1_eq]
    match a with
    | 0 => simp [Shape.partIx, Shape.partSize, wid]; omega
  · match a with
    | 0 => simp [Shape.partSize]

theorem set_fSl (L : grid1.Coords) : (fSl L).view.set = wSet (wid (cL L) (jL L)) := by
  show ((View.whole (main_v2_1_scv : Ref sig .scVector)).slice (wrowK L)).set = _
  rw [View.set_slice, wrowK_eq]; exact Finset.map_refl
theorem set_oSl (L : grid1.Coords) : (oSl L).view.set = wSet (wid (cL L) (jL L)) := by
  show ((View.whole (main_v4_scv : Ref sig .scVector)).slice (wrowK L)).set = _
  rw [View.set_slice, wrowK_eq]; exact Finset.map_refl

end Cert.KernelIdeal.Run

end
-- ==== Proof.TileValue.lean ====
/-
  What a worker's rows of the output hold after its task, as a pure fact about reads and writes of arrays.

  The worker's index scratch holds its 1600 rows of the index list; its value scratch holds, at position k, the flat
  table at the index the scratch names at k; its rows of the output are overwritten with the value scratch.  So output
  row 1600·wid + k holds the table at index list entry 1600·wid + k — the table read at the index list, which is in range.
-/
import proofs.«203669_g49563922596444_cont_8to1_c_1114_17_alg».proof.Proof.Geom

noncomputable section

namespace Cert.KernelIdeal.Run

open Cert.KernelIdeal Cert.KernelIdeal.Gen

open Idealize.ShloMosaic
open Idealize.ShloMosaic.SparseCore (S V T)

variable {F : FTy → Type} [FloatOps F]

local notation "fV" => (Memref.whole Cert.KernelIdeal.main_v2_1_scv : Memref Cert.KernelIdeal.sig Kind.scVector Space.hbm Cert.KernelIdeal.S51200 EltTy.i32)
local notation "tV" => (Memref.whole Cert.KernelIdeal.main_v3_scv : Memref Cert.KernelIdeal.sig Kind.scVector Space.hbm Cert.KernelIdeal.S1024000 EltTy.f32)
local notation "oV" => (Memref.whole Cert.KernelIdeal.main_v4_scv : Memref Cert.KernelIdeal.sig Kind.scVector Space.hbm Cert.KernelIdeal.S51200 EltTy.f32)
local notation "sV" => (Memref.whole Cert.KernelIdeal.cc1_scratch0 : Memref Cert.KernelIdeal.sig Kind.scVector Space.vmem Cert.KernelIdeal.S1600 EltTy.i32)
local notation "rV" => (Memref.whole Cert.KernelIdeal.cc1_scratch1 : Memref Cert.KernelIdeal.sig Kind.scVector Space.vmem Cert.KernelIdeal.S1600 EltTy.f32)

/-- The one-coordinate offset list ![0] is the zero function. -/
private theorem zero1 : (![0] : Fin 1 → ℕ) = fun _ => 0 := by funext a; match a with | ⟨0, _⟩ => rfl

/-- A read through the slice of the index scratch at its whole rectangle is the contents. -/
private theorem read_sAll (g : S1600.Idx → Elt F .i32) : View.read (Elt F) (sAll).view g = g :=
  Memref.read_access_unit_zero (Elt F) cc1_scratch0 zero1 inb_S1600_S1600_0 g

/-- A read through the slice of the table at its whole rectangle is the contents. -/
private theorem read_tAll (g : S1024000.Idx → Elt F .f32) : View.read (Elt F) (tAll).view g = g :=
  Memref.read_access_unit_zero (Elt F) main_v3_scv zero1 inb_S1024000_S1024000_0 g

/-- An unmasked write through the slice of the value scratch at its whole rectangle leaves the payload. -/
private theorem write_rAll (f g : S1600.Idx → Elt F .f32) : View.write (Elt F) (rAll).view f g Finset.univ = g :=
  Memref.write_access_unit_zero_univ (Elt F) cc1_scratch1 zero1 inb_S1600_S1600_0 f g

/-- A read through the worker's slice of the index list is the list at the slice's element. -/
private theorem read_fSl (L : grid1.Coords) (g : S51200.Idx → Elt F .i32) (x : S1600.Idx) :
    View.read (Elt F) (fSl L).view g x = g ((fSl L).view.emb x) :=
  (View.read_apply _ _).trans (cast_eq _ _)

/-- One write through the whole rectangle of the worker's slice of the output puts the payload at y on the slice's
    element for y. -/
private theorem writes_whole_emb (L : grid1.Coords) (oD : S51200.Idx → Elt F .f32) (P : S1600.Idx → Elt F .f32) (y : S1600.Idx) :
    (oSl L).view.writes (Elt F) oD [⟨Rect.whole S1600, P⟩] ((oSl L).view.emb y) = P y := by
  have h := View.read_writes_cons_emb (oSl L).view (Val := Elt F) oD (Rect.whole S1600) P [] y
  rw [Rect.emb_whole_apply] at h
  exact ((View.read_apply _ _).trans (cast_eq _ _)).symm.trans h

/-- The gather's payload at y is the flat table at the index the offset list names at y: a rank-one gather along its
    only axis, whose row for position y is the list's word at y. -/
private theorem gather_apply (tb : S1024000.Idx → Elt F .f32) (idx : S1600.Idx → Elt F .i32)
    (h : ∀ x, (idx x).toNat < S1024000.size gathers_S1024000_S1600.axis) (y : S1600.Idx) :
    SparseCore.gatherPayload gathers_S1024000_S1600 tb (SparseCore.rows idx rfl h) y
      = tb (ValueIdx.ix1 (⟨(idx y).toNat, h y⟩ : Fin 1024000)) := by
  unfold SparseCore.gatherPayload
  refine congrArg tb (funext fun a => ?_)
  match a with
  | ⟨0, _⟩ =>
    refine Fin.ext ?_
    show (gathers_S1024000_S1600.idx (SparseCore.rows idx rfl h) y gathers_S1024000_S1600.axis).val = (idx y).toNat
    rw [Shape.Gathers.idx_axis]
    unfold SparseCore.rows
    show (idx (S1600.rowMajor.symm _)).toNat = (idx y).toNat
    refine congrArg (fun z => (idx z).toNat) ((Equiv.symm_apply_eq _).2 (Fin.ext ?_))
    rw [Shape.rowMajor_val_one]
    rfl

/-- Every word of the index scratch, once the worker's rows of the index list have landed in it, is an index of the
    table. -/
theorem tile_hin (d : Dev nD) (L : grid1.Coords) (fiD : Buf (Elt F) (fLoc d)) (hfi : ∀ j : S51200.Idx, (fiD j).toNat < 1024000)
    (fs : Buf (Elt F) ((V d (cV L) (jV L)).loc cc1_scratch0)) :
    ∀ x, ((sAll).view.read (Elt F) (View.write (Elt F) (sV).view fs (ReadAs.same.apply (View.read (Elt F) (fSl L).view fiD)) Finset.univ) x).toNat
      < S1024000.size gathers_S1024000_S1600.axis := by
  intro x
  rw [View.write_whole_univ, read_sAll]
  show (View.read (Elt F) (fSl L).view fiD x).toNat < 1024000
  rw [read_fSl]
  exact hfi _

/-- The worker's rows of the output, overwritten with the value scratch after the gather, hold the table read at the
    index list. -/
theorem tile_val (d : Dev nD) (L : grid1.Coords) (fiD : Buf (Elt F) (fLoc d)) (tbD : Buf (Elt F) (tLoc d)) (oD : Buf (Elt F) (oLoc d))
    (fs : Buf (Elt F) ((V d (cV L) (jV L)).loc cc1_scratch0)) (fr : Buf (Elt F) ((V d (cV L) (jV L)).loc cc1_scratch1))
    (hin : ∀ x, ((sAll).view.read (Elt F) (View.write (Elt F) (sV).view fs (ReadAs.same.apply (View.read (Elt F) (fSl L).view fiD)) Finset.univ) x).toNat
      < S1024000.size gathers_S1024000_S1600.axis) :
    ∀ i ∈ (oSl L).view.set,
      ((oSl L).view.writes (Elt F) oD [⟨Rect.whole S1600,
          ReadAs.same.apply (View.read (Elt F) (rV).view
            (View.write (Elt F) (rAll).view fr
              (SparseCore.gatherPayload gathers_S1024000_S1600 (View.read (Elt F) (tAll).view tbD)
                (SparseCore.rows (View.read (Elt F) (sAll).view
                  (View.write (Elt F) (sV).view fs (ReadAs.same.apply (View.read (Elt F) (fSl L).view fiD)) Finset.univ)) rfl hin))
              Finset.univ))⟩]) i
        = Cert.KernelIdeal.KerTerm.outVal fiD tbD i := by
  intro i hi
  obtain ⟨y, rfl⟩ := View.exists_emb_of_mem_set (oSl L).view hi
  rw [writes_whole_emb, write_rAll]
  show SparseCore.gatherPayload gathers_S1024000_S1600 (View.read (Elt F) (tAll).view tbD) (SparseCore.rows _ rfl hin) y = _
  rw [gather_apply, read_tAll]
  have hidx : View.read (Elt F) (sAll).view
      (View.write (Elt F) (sV).view fs (ReadAs.same.apply (View.read (Elt F) (fSl L).view fiD)) Finset.univ) y
        = fiD ((oSl L).view.emb y) := by
    rw [View.write_whole_univ, read_sAll]
    exact read_fSl L fiD y
  have hlt : (fiD ((oSl L).view.emb y)).toNat < 1024000 := by
    have := hin y
    rw [hidx] at this
    exact this
  unfold KerTerm.outVal
  refine congrArg tbD (funext fun a => ?_)
  match a with
  | ⟨0, _⟩ =>
    refine Fin.ext ?_
    show (View.read (Elt F) (sAll).view
      (View.write (Elt F) (sV).view fs (ReadAs.same.apply (View.read (Elt F) (fSl L).view fiD)) Finset.univ) y).toNat
        = (fiD ((oSl L).view.emb y)).toNat % 1024000
    rw [hidx, Nat.mod_eq_of_lt hlt]

end Cert.KernelIdeal.Run

end
-- ==== Proof.Tile.lean ====
/-
  One worker's task of the second stage, at a symbolic place (SparseCore L 0, subcore L 1): it copies its 1600 rows of
  the index list into its index scratch, gathers the table's entries at those indices into its value scratch, and
  copies the value scratch out to its 1600 rows of the output.  Every index is below the table's length, so the gather
  is defined; what the worker leaves in its rows of the output is the table read at its rows of the index list.
-/
import proofs.«203669_g49563922596444_cont_8to1_c_1114_17_alg».proof.Proof.TileValue

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v2_1_scv : Memref Cert.KernelIdeal.sig Kind.scVector Space.hbm Cert.KernelIdeal.S51200 EltTy.i32)
local notation "tV" => (Memref.whole Cert.KernelIdeal.main_v3_scv : Memref Cert.KernelIdeal.sig Kind.scVector Space.hbm Cert.KernelIdeal.S1024000 EltTy.f32)
local notation "oV" => (Memref.whole Cert.KernelIdeal.main_v4_scv : Memref Cert.KernelIdeal.sig Kind.scVector Space.hbm Cert.KernelIdeal.S51200 EltTy.f32)
local notation "sV" => (Memref.whole Cert.KernelIdeal.cc1_scratch0 : Memref Cert.KernelIdeal.sig Kind.scVector Space.vmem Cert.KernelIdeal.S1600 EltTy.i32)
local notation "rV" => (Memref.whole Cert.KernelIdeal.cc1_scratch1 : Memref Cert.KernelIdeal.sig Kind.scVector Space.vmem Cert.KernelIdeal.S1600 EltTy.f32)

variable [FloatOps F]

/-! ## What the handshakes carry -/

variable (fi : (d : Dev nD) → Buf (Elt F) (fLoc d)) (tb : (d : Dev nD) → Buf (Elt F) (tLoc d)) (o0 o1 : (d : Dev nD) → Buf (Elt F) (oLoc d))

/-- The read shares of the table: one per SparseCore, and of that one per subcore. -/
abbrev tqC (c : Fin 2) : PosShare TreeShare := Transfers.shareTok fullShare 2 c
abbrev tq (c : Fin 2) (i : Fin 16) : PosShare TreeShare := Transfers.shareTok (tqC c) 16 i

abbrev fRowPts (d : Dev nD) (w : Fin 32) : sProp 𝕄 := fLoc d ↦[wSet w]{fullShare} fi d
abbrev tShPts (d : Dev nD) (c : Fin 2) (i : Fin 16) : sProp 𝕄 := tLoc d ↦{tq c i} tb d
abbrev oRowPts (d : Dev nD) (w : Fin 32) (f : Buf (Elt F) (oLoc d)) : sProp 𝕄 := oLoc d ↦[wSet w]{fullShare} f

/-! ## The worker's cells and buffers among its subcore's own -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V (d : Dev nD) (L : grid1.Coords) :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The buffers as the program addresses them -/

omit [FloatOps F] in
theorem pts_fSl (d : Dev nD) (L : grid1.Coords) (f : Buf (Elt F) (fLoc d)) :
    ((fSl L).view.loc (V d (cV L) (jV L)) ↦[(fSl L).view.set]{fullShare} f : sProp 𝕄) = fLoc d ↦[wSet (wid (cL L) (jL L))]{fullShare} f := by
  rw [set_fSl]
omit [FloatOps F] in
theorem pts_oSl (d : Dev nD) (L : grid1.Coords) (f : Buf (Elt F) (oLoc d)) :
    ((oSl L).view.loc (V d (cV L) (jV L)) ↦[(oSl L).view.set]{fullShare} f : sProp 𝕄) = oLoc d ↦[wSet (wid (cL L) (jL L))]{fullShare} f := by
  rw [set_oSl]
omit [FloatOps F] in
theorem pts_tV (d : Dev nD) (L : grid1.Coords) (q : PosShare TreeShare) (f : Buf (Elt F) (tLoc d)) :
    ((tV).view.loc (V d (cV L) (jV L)) ↦{q} f : sProp 𝕄) = tLoc d ↦{q} f := rfl
omit [FloatOps F] in
theorem pts_sV (d : Dev nD) (L : grid1.Coords) (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (d : Dev nD) (L : grid1.Coords) (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-! ## The task -/

set_option maxHeartbeats 4000000 in
theorem tile_body (d : Dev nD) (L : grid1.Coords) (hF : (K (F := F)).Facts) (hfi : ∀ j : S51200.Idx, (fi d j).toNat < 1024000)
    (O : CellTallies nD τ sig (HIx 1)) (W : Waits sig (HIx 1)) (hO : ∀ g, O g none = 0) :
    iprop(levAts (K (F := F)).L (K (F := F)).lev ∗ emp
        ∗ (fRowPts fi d (wid (cL L) (jL L)) ∗ tShPts tb d (cL L) (jL L) ∗ oRowPts d (wid (cL L) (jL L)) (o0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L fV (Memref.isWhole_whole _) tV (Memref.isWhole_whole _) oV (Memref.isWhole_whole _)
            sV (Memref.isWhole_whole _) rV (Memref.isWhole_whole _) cc1_scratch2 cc1_scoped0 cc1_scoped1)
          fun _ => iprop(oRowPts d (wid (cL L) (jL L)) (Cert.KernelIdeal.KerTerm.outVal (fi d) (tb d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_sc_kernel_eq_skeleton]; unfold cc1_sc_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_fSl (F := F) d L _).symm) $$ Hi
  ihave Ho' := (Entails.of_eq (pts_oSl (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  -- the gather: the worker hands in its share of the table, its value scratch, its index scratch and the cell at zero
  have h0 : (![0] : Fin 1 → ℕ) = fun _ => 0 := by funext a; match a with | ⟨0, _⟩ => rfl
  have htS : (tAll).view.set = Finset.univ := by
    show ((View.whole (main_v3_scv : Ref sig .scVector)).slice (Rect.unit (s := S1024000) ![0] S1024000.size inb_S1024000_S1024000_0)).set = _
    rw [View.set_slice_whole]; exact Finset.eq_univ_of_forall (View.mem_set_unit_zero h0 _)
  have hsS : (sAll).view.set = Finset.univ := by
    show ((View.whole (cc1_scratch0 : Ref sig .scVector)).slice (Rect.unit (s := S1600) ![0] S1600.size inb_S1600_S1600_0)).set = _
    rw [View.set_slice_whole]; exact Finset.eq_univ_of_forall (View.mem_set_unit_zero h0 _)
  have hrS : (rAll).view.set = Finset.univ := by
    show ((View.whole (cc1_scratch1 : Ref sig .scVector)).slice (Rect.unit (s := S1600) ![0] S1600.size inb_S1600_S1600_0)).set = _
    rw [View.set_slice_whole]; exact Finset.eq_univ_of_forall (View.mem_set_unit_zero h0 _)
  ihave Hx'' := (Entails.of_eq (show ((tV).view.loc (V d (cV L) (jV L)) ↦{tq (cL L) (jL L)} tb d : sProp 𝕄)
      = (tAll).view.loc (V d (cV L) (jV L)) ↦[(tAll).view.set]{tq (cL L) (jL L)} tb d by rw [htS])) $$ Hx'
  ihave Hr'' := (Entails.of_eq (show ((rV).view.loc (V d (cV L) (jV L)) ↦{fullShare} fr : sProp 𝕄)
      = (rAll).view.loc (V d (cV L) (jV L)) ↦[(rAll).view.set]{fullShare} fr by rw [hrS])) $$ Hr'
  ihave Hs'' := (Entails.of_eq (show ((sV).view.loc (V d (cV L) (jV L)) ↦{fullShare} View.write (Elt F) (sV).view fs (tile_body.sl.dma0 fi d L) Finset.univ : sProp 𝕄)
      = (sAll).view.loc (V d (cV L) (jV L)) ↦[(sAll).view.set]{fullShare} View.write (Elt F) (sV).view fs (tile_body.sl.dma0 fi d L) Finset.univ
      by rw [hsS])) $$ Hs'
  have hin : ∀ x, ((sAll).view.read (Elt F) (View.write (Elt F) (sV).view fs (tile_body.sl.dma0 fi d L) Finset.univ) x).toNat
      < S1024000.size gathers_S1024000_S1600.axis := by
    exact tile_hin d L (fi d) hfi fs
  have hN : ∀ h : S1024000.Gathers 0 S1600, ∑ j, ((rAll).slice (S1600.rowRect h.axis' j) (S1600.stride_rowRect h.axis' j)).view.dmaCredit
      = (rAll).view.dmaCredit := fun h => SparseCore.sum_rowCredit_eq_dmaCredit (rAll) h.axis' (fun _ => rfl)
  iapply (SparseCore.wp_indirectGatherLocal countersEmb 𝒱₀ (V d (cV L) (jV L)) none (hg := gathers_S1024000_S1600) (default : HIx 1)
      (rAll).view.dmaCredit (hN _) (by decide) hin) $$ [Hx'' Hr'' Hs'' HsemB]
  · isplitl [Hx'']; · iexact Hx''
    isplitl [Hr'']; · iexact Hr''
    isplitl [Hs'']; · iexact Hs''
    iexact HsemB
  iintro Hfl
  sl_exec
  -- its wait: the value scratch written with the gathered entries; the table's share and the index scratch back
  iapply (Transfers.wp_waitLocalO countersEmb 𝒱₀ (V d (cV L) (jV L)) none (default : HIx 1) (rfl : (rAll).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hr3 := (Entails.of_eq (show ((rAll).view.loc (V d (cV L) (jV L)) ↦[(rAll).view.set]{fullShare} _ : sProp 𝕄)
      = (rV).view.loc (V d (cV L) (jV L)) ↦{fullShare} _ by rw [hrS])) $$ Hr'
  ihave Hs3 := (Entails.of_eq (show ((sAll).view.loc (V d (cV L) (jV L)) ↦[(sAll).view.set]{fullShare} _ : sProp 𝕄)
      = (sV).view.loc (V d (cV L) (jV L)) ↦{fullShare} _ by rw [hsS])) $$ Hs'
  sl_exec
  sl_step
  -- what the worker's rows of the output now hold is the table read at its rows of the index list
  have hval : ∀ i ∈ (oSl L).view.set,
      ((oSl L).view.writes (Elt F) (o0 d) [⟨Rect.whole S1600, tile_body.sl.dma0_1 fi tb d L fs fr hin⟩]) i
        = Cert.KernelIdeal.KerTerm.outVal (fi d) (tb d) i :=
    tile_val d L (fi d) (tb d) (o0 d) fs fr hin
  ihave Ho3 := (Entails.of_eq (pointsTo_congr (q := fullShare) hval)) $$ Ho'
  isplitl [Ho3]
  · iapply (Entails.of_eq (pts_oSl (F := F) d L _)); iexact Ho3
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Run

end
-- ==== Proof.Launch1.lean ====
/-
  The second stage under the launch theorem, first half: what each handshake carries, the task's obligation, and how a
  SparseCore's operands split among its sixteen workers.  A SparseCore is handed its workers' rows of the index list and
  of the output and a read share of the table; each worker gets its rows and a read share of that share; what comes
  back is the workers' rows of the output, holding the table read at the index list.
-/
import proofs.«203669_g49563922596444_cont_8to1_c_1114_17_alg».proof.Proof.Tile

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.KernelIdeal.main_v2_1_scv : Memref Cert.KernelIdeal.sig Kind.scVector Space.hbm Cert.KernelIdeal.S51200 EltTy.i32)
local notation "tV" => (Memref.whole Cert.KernelIdeal.main_v3_scv : Memref Cert.KernelIdeal.sig Kind.scVector Space.hbm Cert.KernelIdeal.S1024000 EltTy.f32)
local notation "oV" => (Memref.whole Cert.KernelIdeal.main_v4_scv : Memref Cert.KernelIdeal.sig Kind.scVector Space.hbm Cert.KernelIdeal.S51200 EltTy.f32)
local notation "sV" => (Memref.whole Cert.KernelIdeal.cc1_scratch0 : Memref Cert.KernelIdeal.sig Kind.scVector Space.vmem Cert.KernelIdeal.S1600 EltTy.i32)
local notation "rV" => (Memref.whole Cert.KernelIdeal.cc1_scratch1 : Memref Cert.KernelIdeal.sig Kind.scVector Space.vmem Cert.KernelIdeal.S1600 EltTy.f32)

variable [FloatOps F]
variable (fi : (d : Dev nD) → Buf (Elt F) (fLoc d)) (tb : (d : Dev nD) → Buf (Elt F) (tLoc d)) (o0 : (d : Dev nD) → Buf (Elt F) (oLoc d))

/-- What the second stage leaves in the output. -/
abbrev outA (d : Dev nD) : Buf (Elt F) (oLoc d) := Cert.KernelIdeal.KerTerm.outVal (fi d) (tb d)

/-! ## What the handshakes carry -/

def P : (K (F := F)).Pay (nD := nD) (Val := Elt F) (Name := ℕ) (U := UU) where
  st := fun q d c => match q with
    | 0 => iprop((bigSep Finset.univ fun i : Fin 16 => fRowPts fi d (wid (Fin.cast nCore_zero c) i))
        ∗ (tLoc d ↦{tqC (Fin.cast nCore_zero c)} tb d)
        ∗ bigSep Finset.univ fun i : Fin 16 => oRowPts d (wid (Fin.cast nCore_zero c) i) (o0 d))
  dn := fun q d c => match q with
    | 0 => bigSep Finset.univ fun i : Fin 16 => oRowPts d (wid (Fin.cast nCore_zero c) i) (outA fi tb d)
  go := fun q d c i => match q with
    | 0 => iprop(fRowPts fi d (wid (Fin.cast nCore_zero c) (Fin.cast nSub_zero i)) ∗ tShPts tb d (Fin.cast nCore_zero c) (Fin.cast nSub_zero i)
        ∗ oRowPts d (wid (Fin.cast nCore_zero c) (Fin.cast nSub_zero i)) (o0 d))
  td := fun q d c i => match q with
    | 0 => oRowPts d (wid (Fin.cast nCore_zero c) (Fin.cast nSub_zero i)) (outA fi tb d)
  x := fun _ _ => iprop(emp)

instance P_storable : (P (F := F) fi tb o0).IsStorable where
  st q d c := match q with
    | 0 => (inferInstance : BI.Storable (upEmb : UEmb _ 𝕄) iprop((bigSep Finset.univ fun i : Fin 16 => fRowPts fi d (wid (Fin.cast nCore_zero c) i))
        ∗ (tLoc d ↦{tqC (Fin.cast nCore_zero c)} tb d)
        ∗ bigSep Finset.univ fun i : Fin 16 => oRowPts d (wid (Fin.cast nCore_zero c) i) (o0 d)))
  dn q d c := match q with
    | 0 => (inferInstance : BI.Storable (upEmb : UEmb _ 𝕄) (bigSep Finset.univ fun i : Fin 16 => oRowPts d (wid (Fin.cast nCore_zero c) i) (outA fi tb d)))
  go q d c i := match q with
    | 0 => (inferInstance : BI.Storable (upEmb : UEmb _ 𝕄)
      iprop(fRowPts fi d (wid (Fin.cast nCore_zero c) (Fin.cast nSub_zero i)) ∗ tShPts tb d (Fin.cast nCore_zero c) (Fin.cast nSub_zero i)
        ∗ oRowPts d (wid (Fin.cast nCore_zero c) (Fin.cast nSub_zero i)) (o0 d)))
  td q d c i := match q with
    | 0 => (inferInstance : BI.Storable (upEmb : UEmb _ 𝕄) (oRowPts d (wid (Fin.cast nCore_zero c) (Fin.cast nSub_zero i)) (outA fi tb d)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_kernel (coordsV c s)
          fV (Memref.isWhole_whole _) tV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfi : ∀ d (j : S51200.Idx), (fi d j).toNat < 1024000) :
    (K (F := F)).TileObl (D (F := F)) 𝒱 (P fi tb o0) v₀ 0 := by
  intro d c i O W hO _ _
  simp only [show (P fi tb o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi tb o0 d (coordsV ⟨_, hci.1⟩ ⟨_, hci.2⟩) hF (hfi d) O W hO).trans (wp_mono frame _ _ fun _ => obl_post)

/-! ## A SparseCore's operands split among its workers -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P fi tb o0) 0 := by
  intro d c
  show iprop((bigSep Finset.univ fun i : Fin 16 => fRowPts fi d (wid (Fin.cast nCore_zero c) i))
        ∗ (tLoc d ↦{tqC (Fin.cast nCore_zero c)} tb d)
        ∗ bigSep Finset.univ fun i : Fin 16 => oRowPts d (wid (Fin.cast nCore_zero c) i) (o0 d)) ⊢ |={Set.univ}=> iprop(
      (bigSep Finset.univ fun i : Fin ((K (F := F)).nSub 0) =>
        iprop(fRowPts fi d (wid (Fin.cast nCore_zero c) (Fin.cast nSub_zero i)) ∗ tShPts tb d (Fin.cast nCore_zero c) (Fin.cast nSub_zero i)
          ∗ oRowPts d (wid (Fin.cast nCore_zero c) (Fin.cast nSub_zero i)) (o0 d)))
      ∗ ((bigSep Finset.univ fun i : Fin ((K (F := F)).nSub 0) => oRowPts d (wid (Fin.cast nCore_zero c) (Fin.cast nSub_zero i)) (outA fi tb d))
          -∗ bigSep Finset.univ fun i : Fin 16 => oRowPts d (wid (Fin.cast nCore_zero c) i) (outA fi tb d)))
  rw [bigSep_tasks (F := F) (fun i => iprop(fRowPts fi d (wid (Fin.cast nCore_zero c) i) ∗ tShPts tb d (Fin.cast nCore_zero c) i
      ∗ oRowPts d (wid (Fin.cast nCore_zero c) i) (o0 d))),
    bigSep_tasks (F := F) (fun i => oRowPts d (wid (Fin.cast nCore_zero c) i) (outA fi tb d)), bigSep_sep', bigSep_sep']
  iintro ⟨Hf, Ht, Ho⟩
  ihave Hts := (Transfers.pointsTo_toks_split (tqC (Fin.cast nCore_zero c)) 16) $$ Ht
  icases Hts with ⟨-, Hts⟩
  imodintro
  isplitl [Hf Hts Ho]
  · isplitl [Hf]; · iexact Hf
    isplitl [Hts]; · iexact Hts
    iexact Ho
  iintro H; iexact H

end Cert.KernelIdeal.Run

end
-- ==== Proof.TableCanon.lean ====
/-
  The table the first stage leaves in its 8000 × 128 buffer, as one function of the buffer's index.

  The stage stores eight blocks of 1000 rows, block ct through the rectangle of rows [1000·ct, 1000·ct + 1000) and all
  128 lanes.  The rectangles tile the buffer, so every index (r, l) lies in exactly the rectangle ct = r / 1000, at the
  local index (r - 1000·ct, l) = (r mod 1000, l); there the stored block's entry is the table's entry: r / 1000 mod 8
  = r / 1000 for r below 8000, and l mod 128 = l.  So the contents the eight stores leave, whatever their order, are
  the table.
-/
import proofs.«203669_g49563922596444_cont_8to1_c_1114_17_alg».proof.Proof.KerTerm
import Idealize.ShloMosaic.Lib.Pipeline.Value
import Idealize.ShloMosaic.Lib.Pipeline.FrameBody
import Idealize.ShloMosaic.Lib.Tactic
import Idealize.ShloMosaic.Lib.Ring

noncomputable section

namespace Cert.KernelIdeal.TableCanon

open Idealize.ShloMosaic Cert.KernelIdeal Cert.KernelIdeal.Gen

/-! The eight rectangles: rows [1000·ct, 1000·ct + 1000), all 128 lanes. -/

abbrev rT0 : Rect S8000x128 := Rect.unit (s := S8000x128) ![0, 0] S1000x128.size Gen.inb_S8000x128_S1000x128_0_0
abbrev rT1 : Rect S8000x128 := Rect.unit (s := S8000x128) ![1000, 0] S1000x128.size Gen.inb_S8000x128_S1000x128_1000_0
abbrev rT2 : Rect S8000x128 := Rect.unit (s := S8000x128) ![2000, 0] S1000x128.size Gen.inb_S8000x128_S1000x128_2000_0
abbrev rT3 : Rect S8000x128 := Rect.unit (s := S8000x128) ![3000, 0] S1000x128.size Gen.inb_S8000x128_S1000x128_3000_0
abbrev rT4 : Rect S8000x128 := Rect.unit (s := S8000x128) ![4000, 0] S1000x128.size Gen.inb_S8000x128_S1000x128_4000_0
abbrev rT5 : Rect S8000x128 := Rect.unit (s := S8000x128) ![5000, 0] S1000x128.size Gen.inb_S8000x128_S1000x128_5000_0
abbrev rT6 : Rect S8000x128 := Rect.unit (s := S8000x128) ![6000, 0] S1000x128.size Gen.inb_S8000x128_S1000x128_6000_0
abbrev rT7 : Rect S8000x128 := Rect.unit (s := S8000x128) ![7000, 0] S1000x128.size Gen.inb_S8000x128_S1000x128_7000_0

/-- The eight stores as pieces, last store first. -/
def tabPieces {F : FTy → Type} [FloatOps F] (b : Fin 8 → Vec F S1000x128 .f32) : List (View.Piece (Elt F) S8000x128 .f32) :=
  [⟨rT7, b 7⟩, ⟨rT6, b 6⟩, ⟨rT5, b 5⟩, ⟨rT4, b 4⟩, ⟨rT3, b 3⟩, ⟨rT2, b 2⟩, ⟨rT1, b 1⟩, ⟨rT0, b 0⟩]

/-- The eight rectangles cover the buffer. -/
theorem cover_tabPieces {F : FTy → Type} [FloatOps F] (b : Fin 8 → Vec F S1000x128 .f32) (y : S8000x128.Idx) :
    ∃ pc ∈ tabPieces b, y ∈ pc.1.set :=
  View.cover_of_tiledL (tabPieces b) S1000x128.size (by sl_kernel_rfl) y

/-- The table at the buffer index that is row x₀ of block ct, lane x₁: the block's entry there. -/
theorem tabArr_at {F : FTy → Type} [FloatOps F] (w : FVec F S1000x1000 .f32) (ct : Fin 8) (j : S8000x128.Idx)
    (x : S1000x128.Idx) (h0 : (j 0).val = 1000 * ct.val + (x 0).val) (h1 : (j 1).val = (x 1).val) :
    Cert.KernelIdeal.KerTerm.tabArr w j = Cert.KernelIdeal.Table.tabBlock w ct x := by
  have hx0 : (x 0).val < 1000 := (x 0).isLt
  have hx1 : (x 1).val < 128 := (x 1).isLt
  have hct := ct.isLt
  have e1 : (⟨(j 0).val / 1000 % 8, Nat.mod_lt _ (by decide)⟩ : Fin 8) = ct :=
    Fin.ext (by show (j 0).val / 1000 % 8 = ct.val; omega)
  have e2 : ValueIdx.ix2 (⟨(j 0).val % 1000, Nat.mod_lt _ (by decide)⟩ : Fin 1000)
      (⟨(j 1).val % 128, Nat.mod_lt _ (by decide)⟩ : Fin 128) = x := by
    funext a; apply Fin.ext
    match a with
    | ⟨0, _⟩ => show (j 0).val % 1000 = (x 0).val; omega
    | ⟨1, _⟩ => show (j 1).val % 128 = (x 1).val; omega
  unfold Cert.KernelIdeal.KerTerm.tabArr
  rw [e1, e2]

/-- What the eight stores of the table's blocks leave in the buffer is the table. -/
theorem canon_tabPieces {F : FTy → Type} [FloatOps F] [∀ e, Nonempty (Elt F e)] (w : FVec F S1000x1000 .f32) :
    View.canon (tabPieces (Cert.KernelIdeal.Table.tabBlock w)) = Cert.KernelIdeal.KerTerm.tabArr w := by
  funext y
  refine View.canon_apply_of_pieces (Cert.KernelIdeal.KerTerm.tabArr w) _ ?_ y (cover_tabPieces _ y)
  intro p hp x
  unfold tabPieces at hp
  simp only [List.mem_cons, List.not_mem_nil, or_false] at hp
  rcases hp with rfl | rfl | rfl | rfl | rfl | rfl | rfl | rfl
  · exact (tabArr_at w 7 _ x (by show 7000 + 1 * (x 0).val = 1000 * 7 + (x 0).val; omega)
      (by show 0 + 1 * (x 1).val = (x 1).val; omega)).symm
  · exact (tabArr_at w 6 _ x (by show 6000 + 1 * (x 0).val = 1000 * 6 + (x 0).val; omega)
      (by show 0 + 1 * (x 1).val = (x 1).val; omega)).symm
  · exact (tabArr_at w 5 _ x (by show 5000 + 1 * (x 0).val = 1000 * 5 + (x 0).val; omega)
      (by show 0 + 1 * (x 1).val = (x 1).val; omega)).symm
  · exact (tabArr_at w 4 _ x (by show 4000 + 1 * (x 0).val = 1000 * 4 + (x 0).val; omega)
      (by show 0 + 1 * (x 1).val = (x 1).val; omega)).symm
  · exact (tabArr_at w 3 _ x (by show 3000 + 1 * (x 0).val = 1000 * 3 + (x 0).val; omega)
      (by show 0 + 1 * (x 1).val = (x 1).val; omega)).symm
  · exact (tabArr_at w 2 _ x (by show 2000 + 1 * (x 0).val = 1000 * 2 + (x 0).val; omega)
      (by show 0 + 1 * (x 1).val = (x 1).val; omega)).symm
  · exact (tabArr_at w 1 _ x (by show 1000 + 1 * (x 0).val = 1000 * 1 + (x 0).val; omega)
      (by show 0 + 1 * (x 1).val = (x 1).val; omega)).symm
  · exact (tabArr_at w 0 _ x (by show 0 + 1 * (x 0).val = 1000 * 0 + (x 0).val; omega)
      (by show 0 + 1 * (x 1).val = (x 1).val; omega)).symm

end Cert.KernelIdeal.TableCanon

end
-- ==== Proof.TcBody.lean ====
/-
  The first stage's body as a triple.

  On whole staging buffers — the logit matrix and the two integer matrices at given contents, the table's and the
  index list's buffers at anything — the body runs to its continuation holding the three inputs as they were, the
  table's buffer at the table (eight blocks of 1000 rows: block ct at row v, lane l holds the log-sum-exp of logit row
  v minus logit (v, 128·ct + l)) and the index list's buffer at the flat indices.  The body stores the table by eight
  stores through the rectangles of rows [1000·ct, 1000·ct + 1000), which tile the buffer, and the index list by one
  store through the whole buffer; what the stores leave is read as one function of the buffer's index.
-/
import proofs.«203669_g49563922596444_cont_8to1_c_1114_17_alg».proof.Proof.Base
import proofs.«203669_g49563922596444_cont_8to1_c_1114_17_alg».proof.Proof.TableCanon

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

/-- A load through the whole buffer reads the buffer's contents. -/
theorem readAt_unit_zero {sg : RefSig} {κ : Kind} {sp : Space} {s : Shape} {e : EltTy} {Val : EltTy → Type}
    (v : View sg κ sp s e) (f : v.ty.Contents Val) {off : Fin s.rank → Nat} (h : off = fun _ => 0)
    (inb : ∀ a, off a + s.size a ≤ s.size a) :
    v.readAt Val (Rect.unit off s.size inb).toLoadRect f = v.read Val f :=
  View.ld_unit_zero h inb (v.read Val f)

/-- What the eight stores of the table's blocks, computed from the loaded logit matrix, leave in the table's buffer,
    over any prior contents: the table of the logit matrix. -/
theorem table_read [FloatOps F] [∀ e, Nonempty (Elt F e)] {κ κ' : Kind} {sp sp' : Space}
    (v0 : View sig κ' sp' S1000x1000 .f32) (f0 : v0.ty.Contents (Elt F))
    (v : View sig κ sp S8000x128 .f32) (f : v.ty.Contents (Elt F)) :
    v.read (Elt F) (v.writes (Elt F) f (TableCanon.tabPieces (Cert.KernelIdeal.Table.tabBlock
        (View.readAt (Elt F) v0 (Rect.unit (s := S1000x1000) ![0, 0] S1000x1000.size inb_S1000x1000_S1000x1000_0_0).toLoadRect f0))))
      = Cert.KernelIdeal.KerTerm.tabArr (v0.read (Elt F) f0) := by
  rw [readAt_unit_zero v0 f0 (by funext a; fin_cases a <;> rfl),
    View.read_writes_eq_canon _ _ _ (TableCanon.cover_tabPieces _), TableCanon.canon_tabPieces]

/-- What the one store of the flat indices, computed from the two loaded integer matrices, leaves in the index
    list's buffer, over any prior contents: the flat indices of the two matrices. -/
theorem idx_read [FloatOps F] [∀ e, Nonempty (Elt F e)] {κ κ₁ κ₂ : Kind} {sp sp₁ sp₂ : Space}
    (v1 : View sig κ₁ sp₁ S50x1024 .i32) (f1 : v1.ty.Contents (Elt F))
    (v2 : View sig κ₂ sp₂ S50x1024 .i32) (f2 : v2.ty.Contents (Elt F))
    (v : View sig κ sp S51200 .i32) (f : v.ty.Contents (Elt F)) :
    v.read (Elt F) (v.writes (Elt F) f
        [⟨Rect.unit (s := S51200) ![0] S51200.size inb_S51200_S51200_0,
          Gen.k0_pay2 (F := F)
            (View.readAt (Elt F) v1 (Rect.unit (s := S50x1024) ![0, 0] S50x1024.size inb_S50x1024_S50x1024_0_0).toLoadRect f1)
            (View.readAt (Elt F) v2 (Rect.unit (s := S50x1024) ![0, 0] S50x1024.size inb_S50x1024_S50x1024_0_0).toLoadRect f2)⟩])
      = Gen.k0_pay2 (F := F) (v1.read (Elt F) f1) (v2.read (Elt F) f2) := by
  rw [readAt_unit_zero v1 f1 (by funext a; fin_cases a <;> rfl), readAt_unit_zero v2 f2 (by funext a; fin_cases a <;> rfl),
    View.read_writes_eq_canon _ _ _ (fun y => ⟨_, List.mem_singleton_self _,
      View.mem_set_unit_zero (by funext a; fin_cases a; rfl) inb_S51200_S51200_0 y⟩),
    View.canon_unit_zero (by funext a; fin_cases a; rfl)]

set_option maxHeartbeats 1000000 in
/-- The first stage's body on whole staging buffers: the inputs are kept, the table's buffer ends at the table and
    the index list's at the flat indices. -/
theorem sound_table [FloatOps F] [∀ e, Nonempty (Elt F e)] (c : Dev nD) (E : Set ℕ)
    (arg0 : Memref sig .tc .vmem S1000x1000 .f32) (harg0 : arg0.IsWhole) (arg1 : Memref sig .tc .vmem S50x1024 .i32) (harg1 : arg1.IsWhole)
    (arg2 : Memref sig .tc .vmem S50x1024 .i32) (harg2 : arg2.IsWhole) (arg3 : Memref sig .tc .vmem S8000x128 .f32) (harg3 : arg3.IsWhole)
    (arg4 : Memref sig .tc .vmem S51200 .i32) (harg4 : arg4.IsWhole)
    (x0 : Vec F S1000x1000 .f32) (x1 x2 : Vec F S50x1024 .i32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (Cert.KernelIdeal.KerTerm.tabArr x0) ∗ owns (c : Thread nD τ) arg4 fullShare (Gen.k0_pay2 (F := F) x1 x2)) -∗ Kk ⟨⟩))
      ⊢ wp frame (wpE (defs₀ (F := F)) Variants.none c none) E (cc0__table_body arg0 harg0 arg1 harg1 arg2 harg2 arg3 harg3 arg4 harg4) Kk := by
  simp only [cc0__table_body_eq_skeleton]; unfold cc0__table_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact table_read arg0.view f0 arg3.view f3
  iexists _; isplitr
  swap; · iexact H4
  ipureintro
  exact idx_read arg1.view f1 arg2.view f2 arg4.view f4

end Cert.KernelIdeal.Run

end
-- ==== Proof.Region.lean ====
/-
  The first stage (the TensorCore call) as a region of @main: its proof data and its entry and exit.  The call has no
  grid: one point, five windows each the whole array — the logit matrix and the two transposed index arrays fetched, the
  table and the flat index list written back.  After the body the table's window holds the table of the fetched logits
  and the index window the flat indices of the fetched index arrays.  The TensorCore owes its start signals to the
  SparseCores throughout; the region's own waits sit at the lowest level, below them.
-/
import proofs.«203669_g49563922596444_cont_8to1_c_1114_17_alg».proof.Proof.Base
import proofs.«203669_g49563922596444_cont_8to1_c_1114_17_alg».proof.Proof.TableCanon
import proofs.«203669_g49563922596444_cont_8to1_c_1114_17_alg».proof.Proof.TcBody

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The proof data -/

-- the five windows' arrays when the region is entered
variable (A0 : (c : Dev nD) → (w : Fin cfg0.W) → Buf (Elt F) ((cfg0.win w).arr.view.loc (c : Thread nD τ)))

/-- A window's (whole) block read off its array. -/
def xblk (c : Dev nD) (w : Fin cfg0.W) : ((cfg0.win w).xblock (cfg0.grid.coords t0_0)).Idx → Elt F (cfg0.win w).elt :=
  ((cfg0.win w).blk t0_0).view.read (Elt F) (A0 c w)

/-- What the TensorCore owes through the region: its start signals. -/
abbrev Otc0 (c : Dev nD) : CellTallies nD τ sig (HIx 1) := (K (F := F)).Otc c 0

theorem Otc0_none (c : Dev nD) (g : GSem nD τ sig) : Otc0 (F := F) c g none = 0 := by
  by_contra h
  have := SparseCore.Cfg.lev_of_Otc_pos (K := K (F := F)) (Nat.pos_of_ne_zero h)
  rw [SparseCore.Cfg.lev_none] at this; omega

def dat0 (c : Dev nD) : Pipeline.Dat τ (Elt F) (HIx 1) ℕ UU ℕ cfg0 c where
  A w := A0 c w
  after w _ := match w with
    | ⟨0, _⟩ => xblk A0 c 0
    | ⟨1, _⟩ => xblk A0 c 1
    | ⟨2, _⟩ => xblk A0 c 2
    | ⟨3, _⟩ => Cert.KernelIdeal.KerTerm.tabArr (xblk A0 c 0)
    | ⟨4, _⟩ => Gen.k0_pay2 (F := F) (xblk A0 c 1) (xblk A0 c 2)
  Φ _ := iprop(emp)
  q _ := fullShare
  owed _ := Otc0 (F := F) c
  recorded _ := {p | p.2 = none}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat0 A0

theorem before_in0 (c : Dev nD) (d) : (dat0 (F := F) A0 c).before 0 t0_0 d = xblk A0 c 0 := by
  unfold Pipeline.Dat.before; rw [if_pos (by decide)]; rfl
theorem before_in1 (c : Dev nD) (d) : (dat0 (F := F) A0 c).before 1 t0_0 d = xblk A0 c 1 := by
  unfold Pipeline.Dat.before; rw [if_pos (by decide)]; rfl
theorem before_in2 (c : Dev nD) (d) : (dat0 (F := F) A0 c).before 2 t0_0 d = xblk A0 c 2 := by
  unfold Pipeline.Dat.before; rw [if_pos (by decide)]; rfl

/-! ## The body obligation -/

theorem body_obligation (c : Dev nD) : BodyObligation (dat0 (F := F) A0 c) (defs₀ (F := F)) 𝒱₀ none Set.univ := fun t => by
  obtain rfl := fin_N0 t
  rw [bigSep_W0, bigSep_W0]
  rw [show (dat0 A0 c).Φ t0_0.castSucc = iprop(emp) from rfl, show (dat0 A0 c).Φ t0_0.succ = iprop(emp) from rfl,
    show (dat0 A0 c).owesAt none t0_0.succ = (dat0 A0 c).owesAt none t0_0.castSucc from rfl]
  iintro ⟨-, HO, ⟨%d0, H0⟩, ⟨%d1, H1⟩, ⟨%d2, H2⟩, ⟨%d3, H3⟩, ⟨%d4, H4⟩⟩
  rw [before_in0, before_in1, before_in2]
  iapply (sound_table c Set.univ _ _ _ _ _ _ _ _ _ _ (xblk A0 c 0) (xblk A0 c 1) (xblk A0 c 2) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitr; · iempintro
  isplitl [HO]; · iexact HO
  isplitl [H0]; · iexact H0
  isplitl [H1]; · iexact H1
  isplitl [H2]; · iexact H2
  isplitl [H3]; · iexact H3
  iexact H4

/-! ## The region -/

/-- A buffer of core c at the full share. -/
abbrev pl (c : Dev nD) (b : Ref sig .tc) (f : b.ty.Contents (Elt F)) : sProp 𝕄 := ((c : Thread nD τ).loc b) ↦{fullShare} f

/-- What the TensorCore owes, its recorded waits all at the lowest level. -/
abbrev tcOwes (c : Dev nD) : sProp 𝕄 :=
  iprop(∃ W, ⌜(K (F := F)).WBelow (SparseCore.T c) W 0⌝ ∗ owes (SparseCore.T c) (Otc0 (F := F) c) W)

omit [∀ e, Nonempty (Elt F e)] in
theorem lev_le_zero_iff (g : GSem nD τ sig) (ι : HIx 1) : (K (F := F)).lev g ι ≤ 0 ↔ ι = none := by
  cases ι with
  | none => simp
  | some q => constructor
              · intro h; have := (K (F := F)).lev_some_pos g q; omega
              · intro h; cases h

def reg0 : Pipeline.RegionSeg (pcfgs (F := F)) adm (pdats A0) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation A0 c).loose
  hwaits c := Pipeline.cellsWaits_intro _ (pdats A0) none 0 c fun w s t =>
    (K (F := F)).mayWait_none (thr := (c : Thread nD τ)) _ (Otc0_none c)
  pre c := iprop((pdats A0 0 c).arrays (A0 c) ∗ tcOwes (F := F) c)
  post c := iprop((pdats A0 0 c).arrays ((pdats A0 0 c).arrAt · (Pipeline.pin (pcfgs (F := F)) adm 0).N) ∗ tcOwes (F := F) c)
  X _ := iprop(emp)
  Y _ := iprop(emp)
  Z _ := iprop(emp)
  hentry c := by
    rw [Pipeline.ownSems0_none]
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; intro p hp; exact Or.inl ((lev_le_zero_iff (F := F) _ _).mp (hW p hp))
      iexact HO
    isplitr <;> iempintro
  hin c := by iintro -; iempintro
  hout c := by
    rw [Pipeline.ownSems0_none, scopedRest0_eq]
    iintro -; isplitr; · iempintro
    isplitr <;> iempintro
  hexit c := by
    iintro ⟨Ha, HO, -, -⟩
    imodintro
    isplitl [Ha]; · iexact Ha
    unfold Pipeline.Dat.owesAt Pipeline.owesWithin
    icases HO with ⟨%W, %hW, HO⟩
    iexists W; isplitr
    swap; · iexact HO
    ipureintro; intro p hp
    refine (lev_le_zero_iff (F := F) _ _).mpr ?_
    rcases hW hp with h | ⟨w, s, h⟩
    · exact h
    · rw [h]

end Cert.KernelIdeal.Run

end
-- ==== Proof.RegionFinal.lean ====
/-
  What the first stage leaves in its five arrays.

  The call has no grid: one point, every window the whole array.  The three input windows' arrays are never written
  back, so they end as they were.  The two output windows' arrays are written back once, whole: the table's array
  ends at the table of the logit matrix the region found, the index list's at the flat indices of the two integer
  matrices it found.  A window's block read off its array through the whole view is the array.
-/
import proofs.«203669_g49563922596444_cont_8to1_c_1114_17_alg».proof.Proof.Region

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (A0 : (c : Dev nD) → (w : Fin cfg0.W) → Buf (Elt F) ((cfg0.win w).arr.view.loc (c : Thread nD τ)))

/-! ## The input windows -/

theorem isOut0 : (cfg0.win 0).isOut = false := rfl
theorem isOut1 : (cfg0.win 1).isOut = false := rfl
theorem isOut2 : (cfg0.win 2).isOut = false := rfl

/-- The logit matrix's array is never written back. -/
theorem arrAt_w0 (c : Dev nD) : (dat0 (F := F) A0 c).arrAt 0 cfg0.N = A0 c 0 :=
  (dat0 (F := F) A0 c).arrAt_in 0 isOut0 _
/-- The first integer matrix's array is never written back. -/
theorem arrAt_w1 (c : Dev nD) : (dat0 (F := F) A0 c).arrAt 1 cfg0.N = A0 c 1 :=
  (dat0 (F := F) A0 c).arrAt_in 1 isOut1 _
/-- The second integer matrix's array is never written back. -/
theorem arrAt_w2 (c : Dev nD) : (dat0 (F := F) A0 c).arrAt 2 cfg0.N = A0 c 2 :=
  (dat0 (F := F) A0 c).arrAt_in 2 isOut2 _

/-! ## A whole window's block is its array

The block's rectangle starts at 0 on every axis with unit strides: local index j sits at 0·size + 1·j = j. -/

theorem emb_blk0 (j : S1000x1000.Idx) : ((cfg0.win 0).blk t0_0).view.emb j = j := by
  funext a; apply Fin.ext
  match a with
  | ⟨0, _⟩ => show 0 * 1000 + 1 * (j 0).val = (j 0).val; omega
  | ⟨1, _⟩ => show 0 * 1000 + 1 * (j 1).val = (j 1).val; omega
theorem emb_blk1 (j : S50x1024.Idx) : ((cfg0.win 1).blk t0_0).view.emb j = j := by
  funext a; apply Fin.ext
  match a with
  | ⟨0, _⟩ => show 0 * 50 + 1 * (j 0).val = (j 0).val; omega
  | ⟨1, _⟩ => show 0 * 1024 + 1 * (j 1).val = (j 1).val; omega
theorem emb_blk2 (j : S50x1024.Idx) : ((cfg0.win 2).blk t0_0).view.emb j = j := by
  funext a; apply Fin.ext
  match a with
  | ⟨0, _⟩ => show 0 * 50 + 1 * (j 0).val = (j 0).val; omega
  | ⟨1, _⟩ => show 0 * 1024 + 1 * (j 1).val = (j 1).val; omega
theorem emb_blk3 (j : S8000x128.Idx) : ((cfg0.win 3).blk t0_0).view.emb j = j := by
  funext a; apply Fin.ext
  match a with
  | ⟨0, _⟩ => show 0 * 8000 + 1 * (j 0).val = (j 0).val; omega
  | ⟨1, _⟩ => show 0 * 128 + 1 * (j 1).val = (j 1).val; omega
theorem emb_blk4 (j : S51200.Idx) : ((cfg0.win 4).blk t0_0).view.emb j = j := by
  funext a; apply Fin.ext
  match a with
  | ⟨0, _⟩ => show 0 * 51200 + 1 * (j 0).val = (j 0).val; omega

/-- The logit matrix's block, read off its array, is the array. -/
theorem xblk_eq0 (c : Dev nD) : xblk A0 c 0 = A0 c 0 := by
  funext j
  show A0 c 0 (((cfg0.win 0).blk t0_0).view.emb j) = A0 c 0 j
  rw [emb_blk0]
theorem xblk_eq1 (c : Dev nD) : xblk A0 c 1 = A0 c 1 := by
  funext j
  show A0 c 1 (((cfg0.win 1).blk t0_0).view.emb j) = A0 c 1 j
  rw [emb_blk1]
theorem xblk_eq2 (c : Dev nD) : xblk A0 c 2 = A0 c 2 := by
  funext j
  show A0 c 2 (((cfg0.win 2).blk t0_0).view.emb j) = A0 c 2 j
  rw [emb_blk2]

/-! ## The table's window -/

/-- What the one point writes back into the table's array is the table of the logit matrix, read through the block. -/
theorem flushed3_eq (c : Dev nD) (t : Fin cfg0.N) :
    (dat0 (F := F) A0 c).flushed 3 t = ((cfg0.win 3).blk t).view.read (Elt F) (Cert.KernelIdeal.KerTerm.tabArr (A0 c 0)) := by
  obtain rfl := fin_N0 t
  show (cfg0.win 3).cut (grid0.coords t0_0) ((dat0 (F := F) A0 c).after 3 t0_0) = _
  funext j
  show Cert.KernelIdeal.KerTerm.tabArr (xblk A0 c 0) j
    = Cert.KernelIdeal.KerTerm.tabArr (A0 c 0) (((cfg0.win 3).blk t0_0).view.emb j)
  rw [xblk_eq0, emb_blk3]

/-- Every index of the table's array is in the one point's block. -/
theorem mem_blk3 (i : S8000x128.Idx) : i ∈ ((cfg0.win 3).blk t0_0).view.set := by
  have h := ((cfg0.win 3).blk t0_0).view.emb_mem_set i
  rw [emb_blk3] at h
  exact h

/-- The table's array after the region: the table of the logit matrix the region found. -/
theorem arrAt_w3 (c : Dev nD) : (dat0 (F := F) A0 c).arrAt 3 cfg0.N = Cert.KernelIdeal.KerTerm.tabArr (A0 c 0) :=
  (dat0 (F := F) A0 c).arrAt_eq_of_cover 3 _ (fun t _ => flushed3_eq A0 c t)
    (fun i => ⟨t0_0, flush0_3 t0_0, mem_blk3 i⟩)

/-! ## The index list's window -/

/-- What the one point writes back into the index list's array is the flat indices of the two integer matrices,
    read through the block. -/
theorem flushed4_eq (c : Dev nD) (t : Fin cfg0.N) :
    (dat0 (F := F) A0 c).flushed 4 t = ((cfg0.win 4).blk t).view.read (Elt F) (Gen.k0_pay2 (F := F) (A0 c 1) (A0 c 2)) := by
  obtain rfl := fin_N0 t
  show (cfg0.win 4).cut (grid0.coords t0_0) ((dat0 (F := F) A0 c).after 4 t0_0) = _
  funext j
  show Gen.k0_pay2 (F := F) (xblk A0 c 1) (xblk A0 c 2) j
    = Gen.k0_pay2 (F := F) (A0 c 1) (A0 c 2) (((cfg0.win 4).blk t0_0).view.emb j)
  rw [xblk_eq1, xblk_eq2, emb_blk4]

/-- Every index of the index list's array is in the one point's block. -/
theorem mem_blk4 (i : S51200.Idx) : i ∈ ((cfg0.win 4).blk t0_0).view.set := by
  have h := ((cfg0.win 4).blk t0_0).view.emb_mem_set i
  rw [emb_blk4] at h
  exact h

/-- The index list's array after the region: the flat indices of the two integer matrices the region found. -/
theorem arrAt_w4 (c : Dev nD) : (dat0 (F := F) A0 c).arrAt 4 cfg0.N = Gen.k0_pay2 (F := F) (A0 c 1) (A0 c 2) :=
  (dat0 (F := F) A0 c).arrAt_eq_of_cover 4 _ (fun t _ => flushed4_eq A0 c t)
    (fun i => ⟨t0_0, flush0_4 t0_0, mem_blk4 i⟩)

end Cert.KernelIdeal.Run

end
-- ==== Proof.HostSteps.lean ====
/-
  @main's host operations on the TensorCore, each as a rule over its own two arrays.

  A one-operand host operation y = f(a) run on a device's TensorCore, holding the region boundary, the operand's array
  whole at contents X and the result's array whole at any contents: the continuation runs with the boundary back, the
  operand's array as it was and the result's array at f X.  A reshape is the same with f the row-major recast of X to
  the result's shape.  Both follow from the rule for a host operation over a set of whole arrays, at the two-element set
  of the operation's own arrays and a valuation that gives the two arrays the stated contents.
-/
import proofs.«203669_g49563922596444_cont_8to1_c_1114_17_alg».proof.Proof.Base

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-- The two arrays of a one-operand operation, held whole at a valuation: the two points-to facts. -/
theorem held_pair (d : Dev nD) (a y : Ref sig .tc) (hay : (Proc.devRef .tc a : DevRef τ sig) ≠ Proc.devRef .tc y)
    (W : Valuation τ sig (Elt F)) :
    (held (T d) ({Proc.devRef .tc a, Proc.devRef .tc y} : Finset (DevRef τ sig)) W : sProp 𝕄)
      = iprop(((SparseCore.T d).loc a ↦{fullShare} W (Proc.devRef .tc a)) ∗ ((SparseCore.T d).loc y ↦{fullShare} W (Proc.devRef .tc y))) := by
  unfold held
  rw [SparseCore.bigSep_insert' (by simpa using hay), bigSep_singleton]

/-- A host operation that touches two distinct arrays a and y, writes y alone, determines what it writes, and leaves
    in y a function g of a's contents: holding the boundary and the two arrays whole, a at X, the continuation runs
    with the boundary back, a as it was and y at g X.  The valuation B names contents for every other array; the
    rule does not read it. -/
theorem wp_two_T {Λ : Labels} {defs : Defs nD τ sig (Elt F) Λ} (𝒱 : Variants) (bd : Option 𝒱.V) (E : Set ℕ)
    (B : Valuation τ sig (Elt F)) (d : Dev nD) (a y : Ref sig .tc)
    (hay : (Proc.devRef .tc a : DevRef τ sig) ≠ Proc.devRef .tc y)
    (op : HloOp τ sig (Elt F))
    (hbufs : op.bufs = {Proc.devRef .tc a, Proc.devRef .tc y}) (hwrites : op.writes = {Proc.devRef .tc y})
    (hfresh : op.fresh = ∅)
    (g : a.ty.Contents (Elt F) → y.ty.Contents (Elt F))
    (hres : ∀ W : Valuation τ sig (Elt F), op.result W (Proc.devRef .tc y) = g (W (Proc.devRef .tc a)))
    (X : a.ty.Contents (Elt F)) (Y0 : y.ty.Contents (Elt F)) {α : Type}
    (k : ((b : op.writes) → b.1.ty.Contents (Elt F)) → Prog (TpuEff nD τ sig (Elt F) Λ .tc) α)
    (Q : α → sProp 𝕄) :
    iprop(boundary (SparseCore.T d) ∗ ((SparseCore.T d).loc a ↦{fullShare} X) ∗ ((SparseCore.T d).loc y ↦{fullShare} Y0)
        ∗ (∀ r, (iprop(boundary (SparseCore.T d) ∗ ((SparseCore.T d).loc a ↦{fullShare} X) ∗ ((SparseCore.T d).loc y ↦{fullShare} g X))
            -∗ wp frame (wpE defs 𝒱 (SparseCore.T d) bd) E (k r) Q)))
      ⊢ wp frame (wpE defs 𝒱 (SparseCore.T d) bd) E (hlo rfl op k) Q := by
  have hVa : (Function.update (Function.update B (Proc.devRef .tc a) X) (Proc.devRef .tc y) Y0 : Valuation τ sig (Elt F))
      (Proc.devRef .tc a) = X := by
    rw [Function.update_of_ne hay, Function.update_self]
  have hVy : (Function.update (Function.update B (Proc.devRef .tc a) X) (Proc.devRef .tc y) Y0 : Valuation τ sig (Elt F))
      (Proc.devRef .tc y) = Y0 := Function.update_self _ _ _
  have hRa : op.result (Function.update (Function.update B (Proc.devRef .tc a) X) (Proc.devRef .tc y) Y0) (Proc.devRef .tc a) = X := by
    rw [HloOp.result_of_not_mem _ _ (by rw [hwrites]; simpa using hay), hVa]
  have hRy : op.result (Function.update (Function.update B (Proc.devRef .tc a) X) (Proc.devRef .tc y) Y0) (Proc.devRef .tc y) = g X := by
    rw [hres, hVa]
  have hafter : (held (T d) ({Proc.devRef .tc a, Proc.devRef .tc y} : Finset (DevRef τ sig))
      (op.result (Function.update (Function.update B (Proc.devRef .tc a) X) (Proc.devRef .tc y) Y0)) : sProp 𝕄)
      = iprop(((SparseCore.T d).loc a ↦{fullShare} X) ∗ ((SparseCore.T d).loc y ↦{fullShare} g X)) := by
    rw [held_pair d a y hay, hRa, hRy]
  iintro ⟨Hb, Ha, Hy, Hk⟩
  iapply (wp_hlo_within 𝒱 (SparseCore.T d) bd E (op := op)
    (S := {Proc.devRef .tc a, Proc.devRef .tc y}) (le_of_eq hbufs)
    (V := Function.update (Function.update B (Proc.devRef .tc a) X) (Proc.devRef .tc y) Y0) hfresh) $$ [Hb Ha Hy]
  · isplitl [Hb]; · iexact Hb
    rw [held_pair d a y hay, hVa, hVy]
    isplitl [Ha]; · iexact Ha
    iexact Hy
  iintro ⟨Hb, Hheld⟩
  ihave Hh := (Entails.of_eq hafter) $$ Hheld
  icases Hh with ⟨Ha, Hy⟩
  iapply Hk
  isplitl [Hb]; · iexact Hb
  isplitl [Ha]; · iexact Ha
  iexact Hy

/-- A one-operand host operation y = f(a) on a device's TensorCore, over its own two arrays. -/
theorem wp_unary_T {Λ : Labels} {defs : Defs nD τ sig (Elt F) Λ} (𝒱 : Variants) (bd : Option 𝒱.V) (E : Set ℕ)
    (B : Valuation τ sig (Elt F)) (d : Dev nD) (a y : Ref sig .tc)
    (hay : (Proc.devRef .tc a : DevRef τ sig) ≠ Proc.devRef .tc y)
    (f : a.ty.Contents (Elt F) → y.ty.Contents (Elt F))
    (hx : a.space ≠ .host ∧ (Proc.devRef .tc a : DevRef τ sig).isScoped = false)
    (hy : y.space ≠ .host ∧ (Proc.devRef .tc y : DevRef τ sig).isScoped = false)
    (X : a.ty.Contents (Elt F)) (Y0 : y.ty.Contents (Elt F)) {α : Type}
    (k : ((b : (StableHlo.unary (τ := τ) (Val := Elt F) a y f hx hy).writes) → b.1.ty.Contents (Elt F)) → Prog (TpuEff nD τ sig (Elt F) Λ .tc) α)
    (Q : α → sProp 𝕄) :
    iprop(boundary (SparseCore.T d) ∗ ((SparseCore.T d).loc a ↦{fullShare} X) ∗ ((SparseCore.T d).loc y ↦{fullShare} Y0)
        ∗ (∀ r, (iprop(boundary (SparseCore.T d) ∗ ((SparseCore.T d).loc a ↦{fullShare} X) ∗ ((SparseCore.T d).loc y ↦{fullShare} f X))
            -∗ wp frame (wpE defs 𝒱 (SparseCore.T d) bd) E (k r) Q)))
      ⊢ wp frame (wpE defs 𝒱 (SparseCore.T d) bd) E (hlo rfl (StableHlo.unary a y f hx hy) k) Q :=
  wp_two_T 𝒱 bd E B d a y hay (StableHlo.unary a y f hx hy) rfl rfl rfl f
    (fun W => StableHlo.unary_result a y f hx hy W) X Y0 k Q

/-- A host reshape y = reshape(a) on a device's TensorCore, over its own two arrays: y ends at a's contents recast,
    in row-major order, to y's shape. -/
theorem wp_reshape_T {Λ : Labels} {defs : Defs nD τ sig (Elt F) Λ} (𝒱 : Variants) (bd : Option 𝒱.V) (E : Set ℕ)
    (B : Valuation τ sig (Elt F)) (d : Dev nD) (a y : Ref sig .tc)
    (hay : (Proc.devRef .tc a : DevRef τ sig) ≠ Proc.devRef .tc y)
    (he : a.ty.elt = y.ty.elt) (hs : a.ty.shape.ShapeCasts y.ty.shape)
    (hx : a.space ≠ .host ∧ (Proc.devRef .tc a : DevRef τ sig).isScoped = false)
    (hy : y.space ≠ .host ∧ (Proc.devRef .tc y : DevRef τ sig).isScoped = false)
    (X : a.ty.Contents (Elt F)) (Y0 : y.ty.Contents (Elt F)) {α : Type}
    (k : ((b : (StableHlo.reshape (τ := τ) (Val := Elt F) a y he hs hx hy).writes) → b.1.ty.Contents (Elt F)) → Prog (TpuEff nD τ sig (Elt F) Λ .tc) α)
    (Q : α → sProp 𝕄) :
    iprop(boundary (SparseCore.T d) ∗ ((SparseCore.T d).loc a ↦{fullShare} X) ∗ ((SparseCore.T d).loc y ↦{fullShare} Y0)
        ∗ (∀ r, (iprop(boundary (SparseCore.T d) ∗ ((SparseCore.T d).loc a ↦{fullShare} X)
              ∗ ((SparseCore.T d).loc y ↦{fullShare} (fun i => he ▸ shapeCast y.ty.shape X hs i : y.ty.Contents (Elt F))))
            -∗ wp frame (wpE defs 𝒱 (SparseCore.T d) bd) E (k r) Q)))
      ⊢ wp frame (wpE defs 𝒱 (SparseCore.T d) bd) E (hlo rfl (StableHlo.reshape a y he hs hx hy) k) Q :=
  wp_two_T 𝒱 bd E B d a y hay (StableHlo.reshape a y he hs hx hy) rfl rfl rfl
    (fun X' => (fun i => he ▸ shapeCast y.ty.shape X' hs i : y.ty.Contents (Elt F)))
    (fun W => StableHlo.reshape_result a y he hs hx hy W) X Y0 k Q

/-! ## @main's five host operations -/

/-- @main's transpose of its first integer argument: 1024×50 to 50×1024. -/
theorem wp_transpose_arg0 {Λ : Labels} {defs : Defs nD τ sig (Elt F) Λ} (𝒱 : Variants) (bd : Option 𝒱.V) (E : Set ℕ)
    (B : Valuation τ sig (Elt F)) (d : Dev nD)
    (X : (main_arg0 : Ref sig .tc).ty.Contents (Elt F)) (Y0 : (main_v0 : Ref sig .tc).ty.Contents (Elt F)) {α : Type}
    (k : ((b : (StableHlo.unary (τ := τ) (Val := Elt F) main_arg0 main_v0 ((transpose S50x1024 [1, 0] · Gen.transposes_S1024x50_S50x1024_1_0) : (⟨S1024x50, .i32⟩ : BufTy).Contents (Elt F) → (⟨S50x1024, .i32⟩ : BufTy).Contents (Elt F))).writes) → b.1.ty.Contents (Elt F))
      → Prog (TpuEff nD τ sig (Elt F) Λ .tc) α)
    (Q : α → sProp 𝕄) :
    iprop(boundary (SparseCore.T d) ∗ ((SparseCore.T d).loc main_arg0 ↦{fullShare} X) ∗ ((SparseCore.T d).loc main_v0 ↦{fullShare} Y0)
        ∗ (∀ r, (iprop(boundary (SparseCore.T d) ∗ ((SparseCore.T d).loc main_arg0 ↦{fullShare} X)
              ∗ ((SparseCore.T d).loc main_v0 ↦{fullShare} (transpose S50x1024 [1, 0] X Gen.transposes_S1024x50_S50x1024_1_0 : (main_v0 : Ref sig .tc).ty.Contents (Elt F))))
            -∗ wp frame (wpE defs 𝒱 (SparseCore.T d) bd) E (k r) Q)))
      ⊢ wp frame (wpE defs 𝒱 (SparseCore.T d) bd) E (hlo rfl (StableHlo.unary main_arg0 main_v0 ((transpose S50x1024 [1, 0] · Gen.transposes_S1024x50_S50x1024_1_0) : (⟨S1024x50, .i32⟩ : BufTy).Contents (Elt F) → (⟨S50x1024, .i32⟩ : BufTy).Contents (Elt F))) k) Q :=
  wp_unary_T 𝒱 bd E B d main_arg0 main_v0 (by decide) _ _ _ X Y0 k Q

/-- @main's transpose of its second integer argument: 1024×50 to 50×1024. -/
theorem wp_transpose_arg1 {Λ : Labels} {defs : Defs nD τ sig (Elt F) Λ} (𝒱 : Variants) (bd : Option 𝒱.V) (E : Set ℕ)
    (B : Valuation τ sig (Elt F)) (d : Dev nD)
    (X : (main_arg1 : Ref sig .tc).ty.Contents (Elt F)) (Y0 : (main_v1 : Ref sig .tc).ty.Contents (Elt F)) {α : Type}
    (k : ((b : (StableHlo.unary (τ := τ) (Val := Elt F) main_arg1 main_v1 ((transpose S50x1024 [1, 0] · Gen.transposes_S1024x50_S50x1024_1_0) : (⟨S1024x50, .i32⟩ : BufTy).Contents (Elt F) → (⟨S50x1024, .i32⟩ : BufTy).Contents (Elt F))).writes) → b.1.ty.Contents (Elt F))
      → Prog (TpuEff nD τ sig (Elt F) Λ .tc) α)
    (Q : α → sProp 𝕄) :
    iprop(boundary (SparseCore.T d) ∗ ((SparseCore.T d).loc main_arg1 ↦{fullShare} X) ∗ ((SparseCore.T d).loc main_v1 ↦{fullShare} Y0)
        ∗ (∀ r, (iprop(boundary (SparseCore.T d) ∗ ((SparseCore.T d).loc main_arg1 ↦{fullShare} X)
              ∗ ((SparseCore.T d).loc main_v1 ↦{fullShare} (transpose S50x1024 [1, 0] X Gen.transposes_S1024x50_S50x1024_1_0 : (main_v1 : Ref sig .tc).ty.Contents (Elt F))))
            -∗ wp frame (wpE defs 𝒱 (SparseCore.T d) bd) E (k r) Q)))
      ⊢ wp frame (wpE defs 𝒱 (SparseCore.T d) bd) E (hlo rfl (StableHlo.unary main_arg1 main_v1 ((transpose S50x1024 [1, 0] · Gen.transposes_S1024x50_S50x1024_1_0) : (⟨S1024x50, .i32⟩ : BufTy).Contents (Elt F) → (⟨S50x1024, .i32⟩ : BufTy).Contents (Elt F))) k) Q :=
  wp_unary_T 𝒱 bd E B d main_arg1 main_v1 (by decide) _ _ _ X Y0 k Q

/-- @main's reshape of the first stage's table: 8000×128 to 1024000. -/
theorem wp_reshape_table {Λ : Labels} {defs : Defs nD τ sig (Elt F) Λ} (𝒱 : Variants) (bd : Option 𝒱.V) (E : Set ℕ)
    (B : Valuation τ sig (Elt F)) (d : Dev nD)
    (X : (main_v2_0 : Ref sig .tc).ty.Contents (Elt F)) (Y0 : (main_v3 : Ref sig .tc).ty.Contents (Elt F)) {α : Type}
    (k : ((b : (StableHlo.reshape (τ := τ) (Val := Elt F) main_v2_0 main_v3 rfl Gen.shapeCasts_S8000x128_S1024000).writes) → b.1.ty.Contents (Elt F))
      → Prog (TpuEff nD τ sig (Elt F) Λ .tc) α)
    (Q : α → sProp 𝕄) :
    iprop(boundary (SparseCore.T d) ∗ ((SparseCore.T d).loc main_v2_0 ↦{fullShare} X) ∗ ((SparseCore.T d).loc main_v3 ↦{fullShare} Y0)
        ∗ (∀ r, (iprop(boundary (SparseCore.T d) ∗ ((SparseCore.T d).loc main_v2_0 ↦{fullShare} X)
              ∗ ((SparseCore.T d).loc main_v3 ↦{fullShare} (shapeCast S1024000 X Gen.shapeCasts_S8000x128_S1024000 : (main_v3 : Ref sig .tc).ty.Contents (Elt F))))
            -∗ wp frame (wpE defs 𝒱 (SparseCore.T d) bd) E (k r) Q)))
      ⊢ wp frame (wpE defs 𝒱 (SparseCore.T d) bd) E (hlo rfl (StableHlo.reshape main_v2_0 main_v3 rfl Gen.shapeCasts_S8000x128_S1024000) k) Q :=
  wp_reshape_T 𝒱 bd E B d main_v2_0 main_v3 (by decide) rfl Gen.shapeCasts_S8000x128_S1024000 _ _ X Y0 k Q

/-- @main's reshape of the second stage's result: 51200 to 50×1024. -/
theorem wp_reshape_out {Λ : Labels} {defs : Defs nD τ sig (Elt F) Λ} (𝒱 : Variants) (bd : Option 𝒱.V) (E : Set ℕ)
    (B : Valuation τ sig (Elt F)) (d : Dev nD)
    (X : (main_v4 : Ref sig .tc).ty.Contents (Elt F)) (Y0 : (main_v5 : Ref sig .tc).ty.Contents (Elt F)) {α : Type}
    (k : ((b : (StableHlo.reshape (τ := τ) (Val := Elt F) main_v4 main_v5 rfl Gen.shapeCasts_S51200_S50x1024).writes) → b.1.ty.Contents (Elt F))
      → Prog (TpuEff nD τ sig (Elt F) Λ .tc) α)
    (Q : α → sProp 𝕄) :
    iprop(boundary (SparseCore.T d) ∗ ((SparseCore.T d).loc main_v4 ↦{fullShare} X) ∗ ((SparseCore.T d).loc main_v5 ↦{fullShare} Y0)
        ∗ (∀ r, (iprop(boundary (SparseCore.T d) ∗ ((SparseCore.T d).loc main_v4 ↦{fullShare} X)
              ∗ ((SparseCore.T d).loc main_v5 ↦{fullShare} (shapeCast S50x1024 X Gen.shapeCasts_S51200_S50x1024 : (main_v5 : Ref sig .tc).ty.Contents (Elt F))))
            -∗ wp frame (wpE defs 𝒱 (SparseCore.T d) bd) E (k r) Q)))
      ⊢ wp frame (wpE defs 𝒱 (SparseCore.T d) bd) E (hlo rfl (StableHlo.reshape main_v4 main_v5 rfl Gen.shapeCasts_S51200_S50x1024) k) Q :=
  wp_reshape_T 𝒱 bd E B d main_v4 main_v5 (by decide) rfl Gen.shapeCasts_S51200_S50x1024 _ _ X Y0 k Q

/-- @main's final transpose: 50×1024 to 1024×50. -/
theorem wp_transpose_out {Λ : Labels} {defs : Defs nD τ sig (Elt F) Λ} (𝒱 : Variants) (bd : Option 𝒱.V) (E : Set ℕ)
    (B : Valuation τ sig (Elt F)) (d : Dev nD)
    (X : (main_v5 : Ref sig .tc).ty.Contents (Elt F)) (Y0 : (main_v6 : Ref sig .tc).ty.Contents (Elt F)) {α : Type}
    (k : ((b : (StableHlo.unary (τ := τ) (Val := Elt F) main_v5 main_v6 ((transpose S1024x50 [1, 0] · Gen.transposes_S50x1024_S1024x50_1_0) : (⟨S50x1024, .f32⟩ : BufTy).Contents (Elt F) → (⟨S1024x50, .f32⟩ : BufTy).Contents (Elt F))).writes) → b.1.ty.Contents (Elt F))
      → Prog (TpuEff nD τ sig (Elt F) Λ .tc) α)
    (Q : α → sProp 𝕄) :
    iprop(boundary (SparseCore.T d) ∗ ((SparseCore.T d).loc main_v5 ↦{fullShare} X) ∗ ((SparseCore.T d).loc main_v6 ↦{fullShare} Y0)
        ∗ (∀ r, (iprop(boundary (SparseCore.T d) ∗ ((SparseCore.T d).loc main_v5 ↦{fullShare} X)
              ∗ ((SparseCore.T d).loc main_v6 ↦{fullShare} (transpose S1024x50 [1, 0] X Gen.transposes_S50x1024_S1024x50_1_0 : (main_v6 : Ref sig .tc).ty.Contents (Elt F))))
            -∗ wp frame (wpE defs 𝒱 (SparseCore.T d) bd) E (k r) Q)))
      ⊢ wp frame (wpE defs 𝒱 (SparseCore.T d) bd) E (hlo rfl (StableHlo.unary main_v5 main_v6 ((transpose S1024x50 [1, 0] · Gen.transposes_S50x1024_S1024x50_1_0) : (⟨S50x1024, .f32⟩ : BufTy).Contents (Elt F) → (⟨S1024x50, .f32⟩ : BufTy).Contents (Elt F))) k) Q :=
  wp_unary_T 𝒱 bd E B d main_v5 main_v6 (by decide) _ _ _ X Y0 k Q

end Cert.KernelIdeal.Run

end
-- ==== Proof.Launch2.lean ====
/-
  The whole program under the launch theorem, second half: the launch element of the ghost state, @main on the
  TensorCore — two transposes, the first stage as a region, a reshape, the second stage as a SparseCore call, a reshape
  and a transpose — and what the final memory says.  Through @main the arrays hold: xT, yT the transposed index
  arguments; the table of the logit argument and the flat index list of xT, yT; the table flattened; the output the
  flattened table read at the index list; and last the output cut into 50 rows of 1024 and transposed, which is the
  kernel's result term.
-/
import proofs.«203669_g49563922596444_cont_8to1_c_1114_17_alg».proof.Proof.Launch1
import proofs.«203669_g49563922596444_cont_8to1_c_1114_17_alg».proof.Proof.Region
import proofs.«203669_g49563922596444_cont_8to1_c_1114_17_alg».proof.Proof.RegionFinal
import proofs.«203669_g49563922596444_cont_8to1_c_1114_17_alg».proof.Proof.HostSteps
import proofs.«203669_g49563922596444_cont_8to1_c_1114_17_alg».proof.Proof.IdxLt

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The contents the arrays take through @main -/

def xT (d : Dev nD) : Vec F S50x1024 .i32 := transpose S50x1024 [1, 0] (m ((SparseCore.T d).loc main_arg0)) Gen.transposes_S1024x50_S50x1024_1_0
def yT (d : Dev nD) : Vec F S50x1024 .i32 := transpose S50x1024 [1, 0] (m ((SparseCore.T d).loc main_arg1)) Gen.transposes_S1024x50_S50x1024_1_0
def fiM (d : Dev nD) : Buf (Elt F) (fLoc d) := Gen.k0_pay2 (F := F) (xT m d) (yT m d)
def tblM (d : Dev nD) : Vec F S8000x128 .f32 := Cert.KernelIdeal.KerTerm.tabArr (m ((SparseCore.T d).loc main_arg2))
def tbM (d : Dev nD) : Buf (Elt F) (tLoc d) := shapeCast S1024000 (tblM m d) Gen.shapeCasts_S8000x128_S1024000
def o0M (d : Dev nD) : Buf (Elt F) (oLoc d) := m (oLoc d)

/-- The first stage's five arrays when it is entered. -/
def A0M (d : Dev nD) : (w : Fin cfg0.W) → Buf (Elt F) ((cfg0.win w).arr.view.loc (d : Thread nD τ))
  | ⟨0, _⟩ => m ((SparseCore.T d).loc main_arg2)
  | ⟨1, _⟩ => xT m d
  | ⟨2, _⟩ => yT m d
  | ⟨3, _⟩ => m ((SparseCore.T d).loc main_v2_0)
  | ⟨4, _⟩ => m ((SparseCore.T d).loc main_v2_1)

/-! ## The launch element of the ghost state -/

abbrev cfgsP : Fin 1 → Pipeline.Cfg sig Λ₀ := Pipeline.pin (pcfgs (F := F)) adm
theorem phinj : Function.Injective (Pipeline.cellOf (nD := nD) (τ := τ) (cfgsP (F := F))) := cellOf_inj

def u₀ : UU :=
  (initOf (K (F := F)).hsCells (K (F := F)).hsToks,
    (initOf (Pipeline.cells (cfgsP (F := F)) phinj) (Pipeline.launchToks (cfgsP (F := F)) phinj), 1))

/-- What @main's proof starts from beside what the launch deals it: the first stage's staging cells' ghost state. -/
abbrev G (d : Dev nD) : sProp 𝕄 := iprop(Pipeline.cellsGhost (cfgsP (F := F)) EP 0 d ∗ Pipeline.toksInit (cfgsP (F := F)) EP 0 d)

omit [FloatOps F] [∀ e, Nonempty (Elt F e)] in
theorem bigSep_emp' {I : Type} (s : Finset I) : (bigSep s fun _ => iprop(emp)) = (iprop(emp) : sProp 𝕄) := bigSep_emp_const s

/-- The first stage's staging cells funded, per device. -/
theorem fundG : (BI.own ((EP (F := F)) (initOf (Pipeline.cells (cfgsP (F := F)) phinj) (Pipeline.launchToks (cfgsP (F := F)) phinj))) : sProp 𝕄)
    ⊢ iprop(|==> bigSep Finset.univ fun d : Dev nD => G (F := F) d) := by
  have ec : (bigSep Finset.univ fun c : Dev nD => bigSep Finset.univ fun p : Fin 1 => (Pipeline.cellsGhost (cfgsP (F := F)) (EP (F := F)) p c : sProp 𝕄))
      = bigSep Finset.univ fun c : Dev nD => Pipeline.cellsGhost (cfgsP (F := F)) (EP (F := F)) 0 c :=
    bigSep_congr fun c _ => bigSep_univ_of_subsingleton (0 : Fin 1)
  have et : (bigSep Finset.univ fun c : Dev nD => bigSep Finset.univ fun p : Fin 1 => (Pipeline.toksInit (cfgsP (F := F)) (EP (F := F)) p c : sProp 𝕄))
      = bigSep Finset.univ fun c : Dev nD => Pipeline.toksInit (cfgsP (F := F)) (EP (F := F)) 0 c :=
    bigSep_congr fun c _ => bigSep_univ_of_subsingleton (0 : Fin 1)
  refine (Pipeline.fund_ghost (cfgsP (F := F)) (EP (F := F)) phinj).trans ?_
  rw [ec, et, ← bigSep_sep']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (fiM m) (tbM m) (o0M m)).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (show (BI.own (((Emb.inl : Emb UP (UP × Counters)).trans (embR : Emb (UP × Counters) 𝕄))
      (initOf (Pipeline.cells (cfgsP (F := F)) phinj) (Pipeline.launchToks (cfgsP (F := F)) phinj))) : sProp 𝕄)
      ⊢ BI.own ((EP (F := F)) (initOf (Pipeline.cells (cfgsP (F := F)) phinj) (Pipeline.launchToks (cfgsP (F := F)) phinj))) from .rfl) $$ HP
  imod (fundG (F := F)) $$ HP' with HG
  imodintro
  isplitl [HH]; · iexact HH
  isplitl [HG]; · iexact HG
  rw [show (bigSep Finset.univ fun thr : Thread nD τ => bigSep Finset.univ fun q : Fin 1 => (P (F := F) (fiM m) (tbM m) (o0M m)).x q thr) = bigSep Finset.univ fun _ => iprop(emp) from
    bigSep_congr fun _ _ => bigSep_univ_of_subsingleton (0 : Fin 1), bigSep_emp']
  iempintro

/-! ## The first stage inside @main -/

/-- The TensorCore's state before the SparseCore call is what it owes beside the rest. -/
theorem tcSt_open (d : Dev nD) : ∃ R : sProp 𝕄,
    ((K (F := F)).tcSt (EH (F := F)) d 0 ⊢ iprop(tcOwes (F := F) d ∗ R)) ∧ (iprop(tcOwes (F := F) d ∗ R) ⊢ (K (F := F)).tcSt (EH (F := F)) d 0) := by
  unfold SparseCore.Cfg.tcSt tcOwes
  exact ⟨_, .rfl, .rfl⟩

theorem arrays_eq (c : Dev nD) (Fa) : ((pdats (F := F) (A0M m) 0 c).arrays Fa : sProp 𝕄)
    = iprop(pl c main_arg2 (Fa 0) ∗ pl c main_v0 (Fa 1) ∗ pl c main_v1 (Fa 2) ∗ pl c main_v2_0 (Fa 3) ∗ pl c main_v2_1 (Fa 4)) := by
  rw [Pipeline.arrays_eq (Pipeline.pin (pcfgs (F := F)) adm) (pdats (A0M m)) 0 c launch0.arr_whole ((pdats (A0M m) 0 c).share_full fun _ => rfl) Fa, bigSep_W0]

/-- The program's line for the first stage is the pipeline-level custom call, lifted. -/
theorem lift_entry : (SparseCore.liftProg (nD := nD) (τ := τ) (sig := sig) (Val := Elt F) (Λ := ΛP (F := F)) (Q := 1) (pr := Proc.tc)
    (Prog.op (TpuEff.customCall (Pipeline.entry (0 : Fin 1)) ()) fun _ => Prog.ret PUnit.unit))
    = Prog.lift (TpuEff.customCall (SparseCore.inner (Pipeline.entry (0 : Fin 1))) ()) := rfl

set_option maxHeartbeats 400000 in
/-- The first stage: from its five arrays as entered to the arrays as it leaves them. -/
theorem step_region (d : Dev nD) (Φ : PUnit → sProp 𝕄) :
    iprop((iprop(boundary (SparseCore.T d)
            ∗ (pdats (F := F) (A0M m) 0 d).arrays ((pdats (A0M m) 0 d).arrAt · (Pipeline.pin (pcfgs (F := F)) adm 0).N) ∗ tcOwes (F := F) d) -∗ Φ ⟨⟩)
        ∗ boundary (SparseCore.T d) ∗ (pdats (F := F) (A0M m) 0 d).arrays (A0M m d) ∗ tcOwes (F := F) d
        ∗ levAts (K (F := F)).L (K (F := F)).lev ∗ G (F := F) d)
      ⊢ wp frame (wpE ((K (F := F)).defs (D (F := F))) 𝒱 (SparseCore.T d) none) Set.univ
          (Prog.lift (TpuEff.customCall (SparseCore.inner (Pipeline.entry 0)) ())) Φ := by
  rw [← lift_entry (F := F)]
  iintro ⟨Hk, Hb, Ha, HO, Hlv, Hcg, Htk⟩
  iapply ((K (F := F)).wp_liftProg (D (F := F)) 𝒱 (SparseCore.T d) Set.univ none _ Φ)
  iapply (Pipeline.RegionSeg.wp (pcfgs (F := F)) adm (pdats (A0M m)) (none : HIx 1) phinj (EP (F := F)) defs₀ 𝒱₀
    (K (F := F)).L (K (F := F)).lev (reg0 (A0M m)) d none (by simp) (fun _ => Prog.ret PUnit.unit) Φ) $$ [Hk Hb Ha HO Hlv Hcg Htk]
  dsimp only [reg0]
  isplitl [Hk]
  · iintro ⟨Hb, Ha, HO⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hlv]; · iexact Hlv
  isplitl [Hcg]; · iexact Hcg
  iexact Htk

/-! ## The second stage inside @main -/

omit [FloatOps F] [∀ e, Nonempty (Elt F e)] in
theorem fPts_rows (d : Dev nD) (f : Buf (Elt F) (fLoc d)) :
    (fLoc d ↦{fullShare} f : sProp 𝕄) = bigSep Finset.univ fun w : Fin 32 => fLoc d ↦[wSet w]{fullShare} f := by
  rw [← pointsTo_biUnion Finset.univ (ℓ := fLoc d) wSet wrows_disjoint, wrows_cover]; try rfl
omit [FloatOps F] [∀ e, Nonempty (Elt F e)] in
theorem oPts_rows (d : Dev nD) (f : Buf (Elt F) (oLoc d)) :
    (oLoc d ↦{fullShare} f : sProp 𝕄) = bigSep Finset.univ fun w : Fin 32 => oLoc d ↦[wSet w]{fullShare} f := by
  rw [← pointsTo_biUnion Finset.univ (ℓ := oLoc d) wSet wrows_disjoint, wrows_cover]; try rfl
omit [FloatOps F] [∀ e, Nonempty (Elt F e)] in
/-- The 32 row blocks, grouped by SparseCore and subcore. -/
theorem regroup (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl
omit [∀ e, Nonempty (Elt F e)] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands the two SparseCores, regrouped by worker. -/
theorem st0_eq (d : Dev nD) : (bigSep Finset.univ fun c : Fin ((K (F := F)).nCore 0) => (P (fiM m) (tbM m) (o0M m)).st 0 d c)
    = iprop((bigSep Finset.univ fun w : Fin 32 => fRowPts (fiM m) d w) ∗ (bigSep Finset.univ fun c : Fin 2 => tLoc d ↦{tqC c} tbM m d)
        ∗ bigSep Finset.univ fun w : Fin 32 => oRowPts d w (o0M m d)) := by
  rw [show (bigSep Finset.univ fun c : Fin ((K (F := F)).nCore 0) => (P (fiM m) (tbM m) (o0M m)).st 0 d c)
        = bigSep Finset.univ fun c : Fin 2 => iprop((bigSep Finset.univ fun i : Fin 16 => fRowPts (fiM m) d (wid c i))
            ∗ (tLoc d ↦{tqC c} tbM m d) ∗ bigSep Finset.univ fun i : Fin 16 => oRowPts d (wid c i) (o0M m d)) from
      bigSep_cores (F := F) (fun c => iprop((bigSep Finset.univ fun i : Fin 16 => fRowPts (fiM m) d (wid c i))
            ∗ (tLoc d ↦{tqC c} tbM m d) ∗ bigSep Finset.univ fun i : Fin 16 => oRowPts d (wid c i) (o0M m d))),
      bigSep_sep', bigSep_sep', ← regroup (fun w => fRowPts (fiM m) d w), ← regroup (fun w => oRowPts d w (o0M m d))]

/-- What comes back, regrouped by worker. -/
theorem dn0_eq (d : Dev nD) : (bigSep Finset.univ fun c : Fin ((K (F := F)).nCore 0) => (P (fiM m) (tbM m) (o0M m)).dn 0 d c)
    = bigSep Finset.univ fun w : Fin 32 => oRowPts d w (outA (fiM m) (tbM m) d) := by
  rw [show (bigSep Finset.univ fun c : Fin ((K (F := F)).nCore 0) => (P (fiM m) (tbM m) (o0M m)).dn 0 d c)
      = bigSep Finset.univ fun c : Fin 2 => bigSep Finset.univ fun i : Fin 16 => oRowPts d (wid c i) (outA (fiM m) (tbM m) d) from
    bigSep_cores (F := F) (fun c => bigSep Finset.univ fun i : Fin 16 => oRowPts d (wid c i) (outA (fiM m) (tbM m) d)),
    ← regroup (fun w => oRowPts d w (outA (fiM m) (tbM m) d))]

set_option maxHeartbeats 2000000 in
/-- The second stage: from the index list, the flattened table and the output held whole to the output at the table
    read at the index list. -/
theorem step_call (κ : GSem nD τ sig → ℕ) (d : Dev nD) (Φ : PUnit → sProp 𝕄) :
    iprop((K (F := F)).ctx EH (P (fiM m) (tbM m) (o0M m)) κ ∗ (K (F := F)).tcSt EH d 0
        ∗ (fLoc d ↦{fullShare} fiM m d) ∗ (tLoc d ↦{fullShare} tbM m d) ∗ (oLoc d ↦{fullShare} o0M m d)
        ∗ (iprop((K (F := F)).tcSt EH d 1 ∗ (oLoc d ↦{fullShare} outA (fiM m) (tbM m) d)) -∗ Φ ⟨⟩))
      ⊢ wp frame (wpE ((K (F := F)).defs (D (F := F))) 𝒱 (SparseCore.T d) none) Set.univ ((sc (F := F)).run d 0) Φ := by
  iintro ⟨#Hctx, Hst, Hf, Ht, Ho, Hk⟩
  iapply ((K (F := F)).wp_run (D (F := F)) 𝒱 (EH := EH) (P := P (fiM m) (tbM m) (o0M m)) κ d 0) $$ [Hst Hf Ht Ho Hk]
  isplitr; · iexact Hctx
  isplitl [Hst]; · iexact Hst
  isplitl [Hf Ht Ho]
  · rw [st0_eq]
    ihave Hf' := (Entails.of_eq (fPts_rows (F := F) d _)) $$ Hf
    ihave Ho' := (Entails.of_eq (oPts_rows (F := F) d _)) $$ Ho
    ihave Ht' := (Transfers.pointsTo_toks_split fullShare 2) $$ Ht
    icases Ht' with ⟨-, Ht'⟩
    isplitl [Hf']; · iexact Hf'
    isplitl [Ht']; · iexact Ht'
    iexact Ho'
  iintro ⟨Hst, Hdn⟩
  iapply Hk
  isplitl [Hst]; · iexact Hst
  ihave Hdn' := (Entails.of_eq (dn0_eq m d)) $$ Hdn
  iapply (Entails.of_eq (oPts_rows (F := F) d _).symm); iexact Hdn'

/-! ## @main on the TensorCore -/

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_arg2 (W main_arg2) ∗ pl d main_v0 (W main_v0)
          ∗ pl d main_v1 (W main_v1) ∗ pl d main_v2_0 (W main_v2_0) ∗ pl d main_v2_1 (W main_v2_1) ∗ pl d main_v3 (W main_v3)
          ∗ pl d main_v4 (W main_v4) ∗ pl d main_v5 (W main_v5) ∗ pl d main_v6 (W main_v6)) := by
  unfold unscopedBufs
  rw [show (Finset.univ.filter fun b : Ref sig .tc => ¬ b.isScoped)
      = {main_arg0, main_arg1, main_arg2, main_v0, main_v1, main_v2_0, main_v2_1, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The kernel's result on device d. -/
def resM (d : Dev nD) : FVec F S1024x50 .f32 :=
  Cert.KernelIdeal.KerTerm.kerTerm (F := F) (m ((SparseCore.T d).loc main_arg0)) (m ((SparseCore.T d).loc main_arg1)) (m ((SparseCore.T d).loc main_arg2))

/-- What @main leaves the claim: the three arguments as launched and the result. -/
abbrev FIN (d : Dev nD) : sProp 𝕄 :=
  iprop(pl d main_arg0 (m ((SparseCore.T d).loc main_arg0)) ∗ pl d main_arg1 (m ((SparseCore.T d).loc main_arg1))
    ∗ pl d main_arg2 (m ((SparseCore.T d).loc main_arg2)) ∗ pl d main_v6 (resM m d))

def fq (d : Dev nD) (s' : Phys nD τ sig (Elt F)) : Prop :=
  s'.mem.mem ((SparseCore.T d).loc main_v6) = resM m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

set_option maxRecDepth 16384 in
theorem hfin (d : Dev nD) (s' : Phys nD τ sig (Elt F)) : iprop(FIN m d ∗ SI s') ⊢ (⌜fq m d s'⌝ : sProp 𝕄) := by
  iintro ⟨⟨H0, H1, H2, H6⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (SI_pointsTo_agree (st := s') (ℓ := (SparseCore.T d).loc main_v6) (I := Finset.univ) (q := fullShare) (f := resM m d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i)⟩

set_option maxHeartbeats 2000000 in
/-- @main on device d's TensorCore. -/
theorem hmain (hfi : ∀ d (j : S51200.Idx), (fiM m d j).toNat < 1024000) (κ : GSem nD τ sig → ℕ) (d : Dev nD) :
    iprop((K (F := F)).ctx EH (P (fiM m) (tbM m) (o0M m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Hv20, Hv21, Hv3, Hv4, Hv5, Hv6⟩, -, -⟩, ⟨Hcg, Htk⟩⟩
  obtain ⟨R, hR1, hR2⟩ := tcSt_open (F := F) d
  -- x transposed
  iapply (wp_transpose_arg0 𝒱 none Set.univ (fun b => m (d, b)) d _ _ _ _) $$ [Hst Hb Ha0 Ha1 Ha2 Hv0 Hv1 Hv20 Hv21 Hv3 Hv4 Hv5 Hv6 Hcg Htk]
  isplitl [Hb]; · iexact Hb
  isplitl [Ha0]; · iexact Ha0
  isplitl [Hv0]; · iexact Hv0
  iintro %r ⟨Hb, Ha0, Hv0⟩
  rw [wp_ret]; imodintro
  -- y transposed
  iapply (wp_transpose_arg1 𝒱 none Set.univ (fun b => m (d, b)) d _ _ _ _) $$ [Hst Hb Ha0 Ha1 Ha2 Hv0 Hv1 Hv20 Hv21 Hv3 Hv4 Hv5 Hv6 Hcg Htk]
  isplitl [Hb]; · iexact Hb
  isplitl [Ha1]; · iexact Ha1
  isplitl [Hv1]; · iexact Hv1
  iintro %r ⟨Hb, Ha1, Hv1⟩
  rw [wp_ret]; imodintro
  -- the first stage
  ihave Hst' := hR1 $$ Hst
  icases Hst' with ⟨HO, HR⟩
  ihave Hlv := ((K (F := F)).ctx_levAts (EH := EH) (P := P (fiM m) (tbM m) (o0M m)) κ) $$ Hctx
  iapply (step_region m d _) $$ [HO HR Hlv Hb Ha0 Ha1 Ha2 Hv0 Hv1 Hv20 Hv21 Hv3 Hv4 Hv5 Hv6 Hcg Htk]
  rw [arrays_eq, arrays_eq, show (pdats (F := F) (A0M m) 0 d) = dat0 (A0M m) d from rfl, arrAt_w0, arrAt_w1, arrAt_w2, arrAt_w3, arrAt_w4]
  isplitl [HR Ha0 Ha1 Hv3 Hv4 Hv5 Hv6]
  swap
  · isplitl [Hb]; · iexact Hb
    isplitl [Ha2 Hv0 Hv1 Hv20 Hv21]
    · isplitl [Ha2]; · iexact Ha2
      isplitl [Hv0]; · iexact Hv0
      isplitl [Hv1]; · iexact Hv1
      isplitl [Hv20]; · iexact Hv20
      iexact Hv21
    isplitl [HO]; · iexact HO
    isplitl [Hlv]; · iexact Hlv
    isplitl [Hcg]; · iexact Hcg
    iexact Htk
  iintro ⟨Hb, ⟨Ha2, Hv0, Hv1, Hv20, Hv21⟩, HO⟩
  -- the table flattened
  iapply (wp_reshape_table 𝒱 none Set.univ (fun b => m (d, b)) d _ _ _ _) $$ [HO HR Hb Ha0 Ha1 Ha2 Hv0 Hv1 Hv20 Hv21 Hv3 Hv4 Hv5 Hv6]
  isplitl [Hb]; · iexact Hb
  isplitl [Hv20]; · iexact Hv20
  isplitl [Hv3]; · iexact Hv3
  iintro %r ⟨Hb, Hv20, Hv3⟩
  rw [wp_ret]; imodintro
  -- the second stage
  ihave Hst := hR2 $$ [HO HR]
  · isplitl [HO]; · iexact HO
    iexact HR
  iapply (step_call m κ d _) $$ [Hst Hb Ha0 Ha1 Ha2 Hv0 Hv1 Hv20 Hv21 Hv3 Hv4 Hv5 Hv6]
  isplitr; · iexact Hctx
  isplitl [Hst]; · iexact Hst
  isplitl [Hv21]; · iexact Hv21
  isplitl [Hv3]; · iexact Hv3
  isplitl [Hv4]; · iexact Hv4
  iintro ⟨Hst, Hv4⟩
  -- the output cut into rows
  iapply (wp_reshape_out 𝒱 none Set.univ (fun b => m (d, b)) d _ _ _ _) $$ [Hst Hb Ha0 Ha1 Ha2 Hv4 Hv5 Hv6]
  isplitl [Hb]; · iexact Hb
  isplitl [Hv4]; · iexact Hv4
  isplitl [Hv5]; · iexact Hv5
  iintro %r ⟨Hb, Hv4, Hv5⟩
  rw [wp_ret]; imodintro
  -- and transposed
  iapply (wp_transpose_out 𝒱 none Set.univ (fun b => m (d, b)) d _ _ _ _) $$ [Hst Hb Ha0 Ha1 Ha2 Hv5 Hv6]
  isplitl [Hb]; · iexact Hb
  isplitl [Hv5]; · iexact Hv5
  isplitl [Hv6]; · iexact Hv6
  iintro %r ⟨Hb, Hv5, Hv6⟩
  rw [wp_ret]; imodintro; imodintro
  isplitl [Hst]; · iexact Hst
  isplitl [Ha0]; · iexact Ha0
  isplitl [Ha1]; · iexact Ha1
  isplitl [Ha2]; · iexact Ha2
  iexact Hv6

/-! ## The program's run -/

/-- What every final memory satisfies: the result is the kernel's result term and the arguments are as launched. -/
def QC : PUnit × MemSt nD τ sig (Elt F) → Prop := fun r => ∀ c : Dev nD,
  r.2.mem ((c.tc : Thread nD τ).loc main_v6)
      = Cert.KernelIdeal.KerTerm.kerTerm (F := F) (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run_main' (hfi : ∀ d (j : S51200.Idx), (fiM m d j).toNat < 1024000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (fiM m) (tbM m) (o0M m)) facts v₀
    (fun q hq => match q with | 0 => nomatch hq)
    (fun q _ => match q with | 0 => tileObl (fiM m) (tbM m) (o0M m) facts hfi)
    (fun q _ => match q with | 0 => SparseCore.Cfg.VecSplit.of_plain (vecSplit (fiM m) (tbM m) (o0M m)))
    m ρ main (fun d => G (F := F) d) (FIN m) (u₀ (F := F)) (sep_elim_left.trans (hu₀ m)) (hmain m ρ hfi) (fq m) (hfin m) (QC m) (fun _ h => h)

/-- At the compiled mesh, from any memory with zero counters whose two integer arguments lie in [0, 999]: every weakly
    fair execution of the program's threads terminates, nothing faulting; the result is the kernel's result term of the
    arguments and the arguments are unchanged. -/
theorem run_main (hx : ∀ (c : Dev nD) i, (m ((c.tc : Thread nD τ).loc main_arg0) i).toNat < 1000)
    (hy : ∀ (c : Dev nD) i, (m ((c.tc : Thread nD τ).loc main_arg1) i).toNat < 1000) :
    θ_run (Cert.KernelIdeal.defs (F := F)) (Cert.KernelIdeal.threads (F := F)) ⟨m, fun _ => 0, ρ⟩ (fun r => ∀ c : Dev nD,
      r.2.mem ((c.tc : Thread nD τ).loc main_v6)
          = Cert.KernelIdeal.KerTerm.kerTerm (F := F) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  run_main' m ρ fun d j => Cert.KernelIdeal.KerValue.idxArr_lt (F := F) _ _ (hx d) (hy d) j

end Cert.KernelIdeal.Run

end
-- ==== Proof.B.Table.lean ====
/-
  The table the first stage leaves, block by block.  Block ct (of eight) holds, at row v and lane l, the row's
  log-sum-exp minus the logit of class 128·ct + l; the last block's lanes past class 999 hold the log-sum-exp minus 0.
-/
import proofs.«203669_g49563922596444_cont_8to1_c_1114_17_alg».proof.Proof.Gen.Kernel.Skeleton

noncomputable section

namespace Cert.Kernel.Table

open Idealize.ShloMosaic Cert.Kernel

/-- The eight blocks of the table, each a function of the whole logit matrix. -/
def tabBlock {F : FTy → Type} [FloatOps F] (w : FVec F S1000x1000 .f32) : Fin 8 → FVec F S1000x128 .f32
  | 0 => Gen.k0_pay4 w
  | 1 => Gen.k0_pay5 w
  | 2 => Gen.k0_pay6 w
  | 3 => Gen.k0_pay7 w
  | 4 => Gen.k0_pay8 w
  | 5 => Gen.k0_pay9 w
  | 6 => Gen.k0_pay10 w
  | 7 => Gen.k0_pay1 (Gen.k0_pay3 w) (Gen.k0_pay11 w) (Scalar.ofBits .f32 0x00000000#32)

end Cert.Kernel.Table

end
-- ==== Proof.B.KerTerm.lean ====
/-
  The kernel's result as one pure term of its three arguments.

  The first stage writes a table of 8000 × 128 numbers — eight blocks of 1000 rows, block ct row v lane l holding the
  log-sum-exp of logit row v minus logit (v, 128·ct + l) — and a list of 51200 flat indices, entry t·1024 + b being
  (y(b,t) div 128)·128000 + x(b,t)·128 + (y(b,t) mod 128).  The second stage reads the flattened table at each index.
  The result is that list of 51200 numbers cut into 50 rows of 1024 and transposed.
-/
import proofs.«203669_g49563922596444_cont_8to1_c_1114_17_alg».proof.Proof.B.Table
import Idealize.ShloMosaic.Lib.ValueIdx

noncomputable section

namespace Cert.Kernel.KerTerm

open Idealize.ShloMosaic Cert.Kernel Cert.Kernel.Gen

variable {F : FTy → Type} [FloatOps F]

/-- A flat array read at a list of indices (an index is taken modulo the array's length, which changes nothing for
    indices in range). -/
def outVal (fi : S51200.Idx → BitVec 32) (tb : S1024000.Idx → F .f32) : S51200.Idx → F .f32 :=
  fun j => tb (ValueIdx.ix1 (⟨(fi j).toNat % 1024000, Nat.mod_lt _ (by decide)⟩ : Fin 1024000))

/-- The table: row r = 1000·ct + v, lane l, is block ct at (v, l). -/
def tabArr (w : FVec F S1000x1000 .f32) : S8000x128.Idx → F .f32 :=
  fun j => Cert.Kernel.Table.tabBlock w (⟨(j 0).val / 1000 % 8, Nat.mod_lt _ (by decide)⟩ : Fin 8)
    (ValueIdx.ix2 (⟨(j 0).val % 1000, Nat.mod_lt _ (by decide)⟩ : Fin 1000) (⟨(j 1).val % 128, Nat.mod_lt _ (by decide)⟩ : Fin 128))

/-- The flat index list, from the two integer arguments. -/
def idxArr (x y : IVec S1024x50 32) : S51200.Idx → BitVec 32 :=
  Gen.k0_pay2 (F := F) (transpose S50x1024 [1, 0] x Gen.transposes_S1024x50_S50x1024_1_0)
    (transpose S50x1024 [1, 0] y Gen.transposes_S1024x50_S50x1024_1_0)

/-- The kernel's result. -/
def kerTerm (x y : IVec S1024x50 32) (w : FVec F S1000x1000 .f32) : FVec F S1024x50 .f32 :=
  transpose S1024x50 [1, 0]
    (shapeCast S50x1024 (outVal (idxArr (F := F) x y) (shapeCast S1024000 (tabArr w) Gen.shapeCasts_S8000x128_S1024000)) Gen.shapeCasts_S51200_S50x1024)
    Gen.transposes_S50x1024_S1024x50_1_0

end Cert.Kernel.KerTerm

end
-- ==== Proof.B.Base.lean ====
/-
  The kernel's program as the SparseCore launch theorem sees it, the resource algebra of its proof, and the arrays its
  second stage moves: the flat index list (51200 words), the flat table (1,024,000 numbers) and the output (51200
  numbers).  Worker wid = 2·s + c (subcore s of SparseCore c) owns rows [1600·wid, 1600·(wid+1)) of the index list
  and of the output; every worker reads the whole table.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.Writes
import Idealize.ShloMosaic.Lib.Tactic
import proofs.«203669_g49563922596444_cont_8to1_c_1114_17_alg».proof.Proof.Gen.Kernel
import proofs.«203669_g49563922596444_cont_8to1_c_1114_17_alg».proof.Proof.Gen.Kernel.Skeleton
import proofs.«203669_g49563922596444_cont_8to1_c_1114_17_alg».proof.Proof.Gen.Kernel.Launch
import proofs.«203669_g49563922596444_cont_8to1_c_1114_17_alg».proof.Proof.Gen.Kernel.Points
import proofs.«203669_g49563922596444_cont_8to1_c_1114_17_alg».proof.Proof.B.KerTerm

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the first stage's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The arrays of the second stage -/

abbrev fLoc (d : Dev nD) : Loc nD τ sig := (SparseCore.T d).loc main_v2_1
abbrev tLoc (d : Dev nD) : Loc nD τ sig := (SparseCore.T d).loc main_v3
abbrev oLoc (d : Dev nD) : Loc nD τ sig := (SparseCore.T d).loc main_v4

theorem div32 : 32 ∣ S51200.size 0 := ⟨1600, rfl⟩
/-- Worker wid's rows of a 51200-long array. -/
abbrev wrow (i : Fin 32) : Rect S51200 := Rect.part (s := S51200) (a₀ := 0) div32 i
abbrev wSet (i : Fin 32) : Finset S51200.Idx := (wrow i).set

theorem wrows_disjoint : ∀ i ∈ (Finset.univ : Finset (Fin 32)), ∀ j ∈ (Finset.univ : Finset (Fin 32)), i ≠ j → Disjoint (wSet i) (wSet j) :=
  fun _ _ _ _ h => Rect.part_disjoint div32 h
theorem wrows_cover : (Finset.univ : Finset (Fin 32)).biUnion wSet = Finset.univ := Rect.biUnion_part div32

/-- The worker number of subcore s of SparseCore c. -/
def wid (c : Fin 2) (s : Fin 16) : Fin 32 := ⟨2 * s.val + c.val, by omega⟩

/-- (c, s) ↦ 2·s + c is a bijection of the 2 × 16 workers with the 32 row blocks. -/
def widEquiv : Fin 2 × Fin 16 ≃ Fin 32 where
  toFun p := wid p.1 p.2
  invFun i := (⟨i.val % 2, by omega⟩, ⟨i.val / 2, by omega⟩)
  left_inv p := by
    obtain ⟨c, s⟩ := p
    simp only [wid]
    refine Prod.ext (Fin.ext ?_) (Fin.ext ?_)
    · show (2 * s.val + c.val) % 2 = c.val; omega
    · show (2 * s.val + c.val) / 2 = s.val; omega
  right_inv i := by
    simp only [wid]
    exact Fin.ext (by show 2 * (i.val / 2) + i.val % 2 = i.val; omega)

end Cert.Kernel.Run

end
-- ==== Proof.B.Geom.lean ====
/-
  Where a worker of the second stage sits and which rows it owns, as the program addresses them: subcore L 1 of
  SparseCore L 0 is worker 2·(L 1) + (L 0) and its slice of a 51200-long array starts at 3200·(L 1) + 1600·(L 0).
-/
import proofs.«203669_g49563922596444_cont_8to1_c_1114_17_alg».proof.Proof.B.Base

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v2_1_scv : Memref Cert.Kernel.sig Kind.scVector Space.hbm Cert.Kernel.S51200 EltTy.i32)
local notation "tV" => (Memref.whole Cert.Kernel.main_v3_scv : Memref Cert.Kernel.sig Kind.scVector Space.hbm Cert.Kernel.S1024000 EltTy.f32)
local notation "oV" => (Memref.whole Cert.Kernel.main_v4_scv : Memref Cert.Kernel.sig Kind.scVector Space.hbm Cert.Kernel.S51200 EltTy.f32)
local notation "sV" => (Memref.whole Cert.Kernel.cc1_scratch0 : Memref Cert.Kernel.sig Kind.scVector Space.vmem Cert.Kernel.S1600 EltTy.i32)
local notation "rV" => (Memref.whole Cert.Kernel.cc1_scratch1 : Memref Cert.Kernel.sig Kind.scVector Space.vmem Cert.Kernel.S1600 EltTy.f32)

/-! ## A worker's place and its rows -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-- The worker's rows, as the program slices them. -/
abbrev wrowK (L : grid1.Coords) : Rect S51200 := Rect.unit (s := S51200) (k1_off1 L) S1600.size (k1_off1_inb L)
abbrev fSl (L : grid1.Coords) : Memref sig .scVector .hbm S1600 .i32 := (fV).slice (wrowK L) (fun _ => rfl)
abbrev oSl (L : grid1.Coords) : Memref sig .scVector .hbm S1600 .f32 := (oV).slice (wrowK L) (fun _ => rfl)
/-- All of the table and of the two scratch buffers, as the program slices them. -/
abbrev tAll : Memref sig .scVector .hbm S1024000 .f32 := (tV).slice (Rect.unit (s := S1024000) ![0] S1024000.size inb_S1024000_S1024000_0) (fun _ => rfl)
abbrev sAll : Memref sig .scVector .vmem S1600 .i32 := (sV).slice (Rect.unit (s := S1600) ![0] S1600.size inb_S1600_S1600_0) (fun _ => rfl)
abbrev rAll : Memref sig .scVector .vmem S1600 .f32 := (rV).slice (Rect.unit (s := S1600) ![0] S1600.size inb_S1600_S1600_0) (fun _ => rfl)

/-- The program's slice is the worker's block of rows: offset 3200·s + 1600·c = 1600·(2s + c). -/
theorem wrowK_eq (L : grid1.Coords) : wrowK L = wrow (wid (cL L) (jL L)) := by
  unfold wrowK wrow Rect.part Rect.block
  congr 1 <;> funext a
  · rw [k1_off1_eq]
    match a with
    | 0 => simp [Shape.partIx, Shape.partSize, wid]; omega
  · match a with
    | 0 => simp [Shape.partSize]

theorem set_fSl (L : grid1.Coords) : (fSl L).view.set = wSet (wid (cL L) (jL L)) := by
  show ((View.whole (main_v2_1_scv : Ref sig .scVector)).slice (wrowK L)).set = _
  rw [View.set_slice, wrowK_eq]; exact Finset.map_refl
theorem set_oSl (L : grid1.Coords) : (oSl L).view.set = wSet (wid (cL L) (jL L)) := by
  show ((View.whole (main_v4_scv : Ref sig .scVector)).slice (wrowK L)).set = _
  rw [View.set_slice, wrowK_eq]; exact Finset.map_refl

end Cert.Kernel.Run

end
-- ==== Proof.B.TileValue.lean ====
/-
  What a worker's rows of the output hold after its task, as a pure fact about reads and writes of arrays.

  The worker's index scratch holds its 1600 rows of the index list; its value scratch holds, at position k, the flat
  table at the index the scratch names at k; its rows of the output are overwritten with the value scratch.  So output
  row 1600·wid + k holds the table at index list entry 1600·wid + k — the table read at the index list, which is in range.
-/
import proofs.«203669_g49563922596444_cont_8to1_c_1114_17_alg».proof.Proof.B.Geom

noncomputable section

namespace Cert.Kernel.Run

open Cert.Kernel Cert.Kernel.Gen

open Idealize.ShloMosaic
open Idealize.ShloMosaic.SparseCore (S V T)

variable {F : FTy → Type} [FloatOps F]

local notation "fV" => (Memref.whole Cert.Kernel.main_v2_1_scv : Memref Cert.Kernel.sig Kind.scVector Space.hbm Cert.Kernel.S51200 EltTy.i32)
local notation "tV" => (Memref.whole Cert.Kernel.main_v3_scv : Memref Cert.Kernel.sig Kind.scVector Space.hbm Cert.Kernel.S1024000 EltTy.f32)
local notation "oV" => (Memref.whole Cert.Kernel.main_v4_scv : Memref Cert.Kernel.sig Kind.scVector Space.hbm Cert.Kernel.S51200 EltTy.f32)
local notation "sV" => (Memref.whole Cert.Kernel.cc1_scratch0 : Memref Cert.Kernel.sig Kind.scVector Space.vmem Cert.Kernel.S1600 EltTy.i32)
local notation "rV" => (Memref.whole Cert.Kernel.cc1_scratch1 : Memref Cert.Kernel.sig Kind.scVector Space.vmem Cert.Kernel.S1600 EltTy.f32)

/-- The one-coordinate offset list ![0] is the zero function. -/
private theorem zero1 : (![0] : Fin 1 → ℕ) = fun _ => 0 := by funext a; match a with | ⟨0, _⟩ => rfl

/-- A read through the slice of the index scratch at its whole rectangle is the contents. -/
private theorem read_sAll (g : S1600.Idx → Elt F .i32) : View.read (Elt F) (sAll).view g = g :=
  Memref.read_access_unit_zero (Elt F) cc1_scratch0 zero1 inb_S1600_S1600_0 g

/-- A read through the slice of the table at its whole rectangle is the contents. -/
private theorem read_tAll (g : S1024000.Idx → Elt F .f32) : View.read (Elt F) (tAll).view g = g :=
  Memref.read_access_unit_zero (Elt F) main_v3_scv zero1 inb_S1024000_S1024000_0 g

/-- An unmasked write through the slice of the value scratch at its whole rectangle leaves the payload. -/
private theorem write_rAll (f g : S1600.Idx → Elt F .f32) : View.write (Elt F) (rAll).view f g Finset.univ = g :=
  Memref.write_access_unit_zero_univ (Elt F) cc1_scratch1 zero1 inb_S1600_S1600_0 f g

/-- A read through the worker's slice of the index list is the list at the slice's element. -/
private theorem read_fSl (L : grid1.Coords) (g : S51200.Idx → Elt F .i32) (x : S1600.Idx) :
    View.read (Elt F) (fSl L).view g x = g ((fSl L).view.emb x) :=
  (View.read_apply _ _).trans (cast_eq _ _)

/-- One write through the whole rectangle of the worker's slice of the output puts the payload at y on the slice's
    element for y. -/
private theorem writes_whole_emb (L : grid1.Coords) (oD : S51200.Idx → Elt F .f32) (P : S1600.Idx → Elt F .f32) (y : S1600.Idx) :
    (oSl L).view.writes (Elt F) oD [⟨Rect.whole S1600, P⟩] ((oSl L).view.emb y) = P y := by
  have h := View.read_writes_cons_emb (oSl L).view (Val := Elt F) oD (Rect.whole S1600) P [] y
  rw [Rect.emb_whole_apply] at h
  exact ((View.read_apply _ _).trans (cast_eq _ _)).symm.trans h

/-- The gather's payload at y is the flat table at the index the offset list names at y: a rank-one gather along its
    only axis, whose row for position y is the list's word at y. -/
private theorem gather_apply (tb : S1024000.Idx → Elt F .f32) (idx : S1600.Idx → Elt F .i32)
    (h : ∀ x, (idx x).toNat < S1024000.size gathers_S1024000_S1600.axis) (y : S1600.Idx) :
    SparseCore.gatherPayload gathers_S1024000_S1600 tb (SparseCore.rows idx rfl h) y
      = tb (ValueIdx.ix1 (⟨(idx y).toNat, h y⟩ : Fin 1024000)) := by
  unfold SparseCore.gatherPayload
  refine congrArg tb (funext fun a => ?_)
  match a with
  | ⟨0, _⟩ =>
    refine Fin.ext ?_
    show (gathers_S1024000_S1600.idx (SparseCore.rows idx rfl h) y gathers_S1024000_S1600.axis).val = (idx y).toNat
    rw [Shape.Gathers.idx_axis]
    unfold SparseCore.rows
    show (idx (S1600.rowMajor.symm _)).toNat = (idx y).toNat
    refine congrArg (fun z => (idx z).toNat) ((Equiv.symm_apply_eq _).2 (Fin.ext ?_))
    rw [Shape.rowMajor_val_one]
    rfl

/-- Every word of the index scratch, once the worker's rows of the index list have landed in it, is an index of the
    table. -/
theorem tile_hin (d : Dev nD) (L : grid1.Coords) (fiD : Buf (Elt F) (fLoc d)) (hfi : ∀ j : S51200.Idx, (fiD j).toNat < 1024000)
    (fs : Buf (Elt F) ((V d (cV L) (jV L)).loc cc1_scratch0)) :
    ∀ x, ((sAll).view.read (Elt F) (View.write (Elt F) (sV).view fs (ReadAs.same.apply (View.read (Elt F) (fSl L).view fiD)) Finset.univ) x).toNat
      < S1024000.size gathers_S1024000_S1600.axis := by
  intro x
  rw [View.write_whole_univ, read_sAll]
  show (View.read (Elt F) (fSl L).view fiD x).toNat < 1024000
  rw [read_fSl]
  exact hfi _

/-- The worker's rows of the output, overwritten with the value scratch after the gather, hold the table read at the
    index list. -/
theorem tile_val (d : Dev nD) (L : grid1.Coords) (fiD : Buf (Elt F) (fLoc d)) (tbD : Buf (Elt F) (tLoc d)) (oD : Buf (Elt F) (oLoc d))
    (fs : Buf (Elt F) ((V d (cV L) (jV L)).loc cc1_scratch0)) (fr : Buf (Elt F) ((V d (cV L) (jV L)).loc cc1_scratch1))
    (hin : ∀ x, ((sAll).view.read (Elt F) (View.write (Elt F) (sV).view fs (ReadAs.same.apply (View.read (Elt F) (fSl L).view fiD)) Finset.univ) x).toNat
      < S1024000.size gathers_S1024000_S1600.axis) :
    ∀ i ∈ (oSl L).view.set,
      ((oSl L).view.writes (Elt F) oD [⟨Rect.whole S1600,
          ReadAs.same.apply (View.read (Elt F) (rV).view
            (View.write (Elt F) (rAll).view fr
              (SparseCore.gatherPayload gathers_S1024000_S1600 (View.read (Elt F) (tAll).view tbD)
                (SparseCore.rows (View.read (Elt F) (sAll).view
                  (View.write (Elt F) (sV).view fs (ReadAs.same.apply (View.read (Elt F) (fSl L).view fiD)) Finset.univ)) rfl hin))
              Finset.univ))⟩]) i
        = Cert.Kernel.KerTerm.outVal fiD tbD i := by
  intro i hi
  obtain ⟨y, rfl⟩ := View.exists_emb_of_mem_set (oSl L).view hi
  rw [writes_whole_emb, write_rAll]
  show SparseCore.gatherPayload gathers_S1024000_S1600 (View.read (Elt F) (tAll).view tbD) (SparseCore.rows _ rfl hin) y = _
  rw [gather_apply, read_tAll]
  have hidx : View.read (Elt F) (sAll).view
      (View.write (Elt F) (sV).view fs (ReadAs.same.apply (View.read (Elt F) (fSl L).view fiD)) Finset.univ) y
        = fiD ((oSl L).view.emb y) := by
    rw [View.write_whole_univ, read_sAll]
    exact read_fSl L fiD y
  have hlt : (fiD ((oSl L).view.emb y)).toNat < 1024000 := by
    have := hin y
    rw [hidx] at this
    exact this
  unfold KerTerm.outVal
  refine congrArg tbD (funext fun a => ?_)
  match a with
  | ⟨0, _⟩ =>
    refine Fin.ext ?_
    show (View.read (Elt F) (sAll).view
      (View.write (Elt F) (sV).view fs (ReadAs.same.apply (View.read (Elt F) (fSl L).view fiD)) Finset.univ) y).toNat
        = (fiD ((oSl L).view.emb y)).toNat % 1024000
    rw [hidx, Nat.mod_eq_of_lt hlt]

end Cert.Kernel.Run

end
-- ==== Proof.B.Tile.lean ====
/-
  One worker's task of the second stage, at a symbolic place (SparseCore L 0, subcore L 1): it copies its 1600 rows of
  the index list into its index scratch, gathers the table's entries at those indices into its value scratch, and
  copies the value scratch out to its 1600 rows of the output.  Every index is below the table's length, so the gather
  is defined; what the worker leaves in its rows of the output is the table read at its rows of the index list.
-/
import proofs.«203669_g49563922596444_cont_8to1_c_1114_17_alg».proof.Proof.B.TileValue

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v2_1_scv : Memref Cert.Kernel.sig Kind.scVector Space.hbm Cert.Kernel.S51200 EltTy.i32)
local notation "tV" => (Memref.whole Cert.Kernel.main_v3_scv : Memref Cert.Kernel.sig Kind.scVector Space.hbm Cert.Kernel.S1024000 EltTy.f32)
local notation "oV" => (Memref.whole Cert.Kernel.main_v4_scv : Memref Cert.Kernel.sig Kind.scVector Space.hbm Cert.Kernel.S51200 EltTy.f32)
local notation "sV" => (Memref.whole Cert.Kernel.cc1_scratch0 : Memref Cert.Kernel.sig Kind.scVector Space.vmem Cert.Kernel.S1600 EltTy.i32)
local notation "rV" => (Memref.whole Cert.Kernel.cc1_scratch1 : Memref Cert.Kernel.sig Kind.scVector Space.vmem Cert.Kernel.S1600 EltTy.f32)

variable [FloatOps F]

/-! ## What the handshakes carry -/

variable (fi : (d : Dev nD) → Buf (Elt F) (fLoc d)) (tb : (d : Dev nD) → Buf (Elt F) (tLoc d)) (o0 o1 : (d : Dev nD) → Buf (Elt F) (oLoc d))

/-- The read shares of the table: one per SparseCore, and of that one per subcore. -/
abbrev tqC (c : Fin 2) : PosShare TreeShare := Transfers.shareTok fullShare 2 c
abbrev tq (c : Fin 2) (i : Fin 16) : PosShare TreeShare := Transfers.shareTok (tqC c) 16 i

abbrev fRowPts (d : Dev nD) (w : Fin 32) : sProp 𝕄 := fLoc d ↦[wSet w]{fullShare} fi d
abbrev tShPts (d : Dev nD) (c : Fin 2) (i : Fin 16) : sProp 𝕄 := tLoc d ↦{tq c i} tb d
abbrev oRowPts (d : Dev nD) (w : Fin 32) (f : Buf (Elt F) (oLoc d)) : sProp 𝕄 := oLoc d ↦[wSet w]{fullShare} f

/-! ## The worker's cells and buffers among its subcore's own -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V (d : Dev nD) (L : grid1.Coords) :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The buffers as the program addresses them -/

omit [FloatOps F] in
theorem pts_fSl (d : Dev nD) (L : grid1.Coords) (f : Buf (Elt F) (fLoc d)) :
    ((fSl L).view.loc (V d (cV L) (jV L)) ↦[(fSl L).view.set]{fullShare} f : sProp 𝕄) = fLoc d ↦[wSet (wid (cL L) (jL L))]{fullShare} f := by
  rw [set_fSl]
omit [FloatOps F] in
theorem pts_oSl (d : Dev nD) (L : grid1.Coords) (f : Buf (Elt F) (oLoc d)) :
    ((oSl L).view.loc (V d (cV L) (jV L)) ↦[(oSl L).view.set]{fullShare} f : sProp 𝕄) = oLoc d ↦[wSet (wid (cL L) (jL L))]{fullShare} f := by
  rw [set_oSl]
omit [FloatOps F] in
theorem pts_tV (d : Dev nD) (L : grid1.Coords) (q : PosShare TreeShare) (f : Buf (Elt F) (tLoc d)) :
    ((tV).view.loc (V d (cV L) (jV L)) ↦{q} f : sProp 𝕄) = tLoc d ↦{q} f := rfl
omit [FloatOps F] in
theorem pts_sV (d : Dev nD) (L : grid1.Coords) (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (d : Dev nD) (L : grid1.Coords) (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-! ## The task -/

set_option maxHeartbeats 4000000 in
theorem tile_body (d : Dev nD) (L : grid1.Coords) (hF : (K (F := F)).Facts) (hfi : ∀ j : S51200.Idx, (fi d j).toNat < 1024000)
    (O : CellTallies nD τ sig (HIx 1)) (W : Waits sig (HIx 1)) (hO : ∀ g, O g none = 0) :
    iprop(levAts (K (F := F)).L (K (F := F)).lev ∗ emp
        ∗ (fRowPts fi d (wid (cL L) (jL L)) ∗ tShPts tb d (cL L) (jL L) ∗ oRowPts d (wid (cL L) (jL L)) (o0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L fV (Memref.isWhole_whole _) tV (Memref.isWhole_whole _) oV (Memref.isWhole_whole _)
            sV (Memref.isWhole_whole _) rV (Memref.isWhole_whole _) cc1_scratch2 cc1_scoped0 cc1_scoped1)
          fun _ => iprop(oRowPts d (wid (cL L) (jL L)) (Cert.Kernel.KerTerm.outVal (fi d) (tb d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_sc_kernel_eq_skeleton]; unfold cc1_sc_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_fSl (F := F) d L _).symm) $$ Hi
  ihave Ho' := (Entails.of_eq (pts_oSl (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  -- the gather: the worker hands in its share of the table, its value scratch, its index scratch and the cell at zero
  have h0 : (![0] : Fin 1 → ℕ) = fun _ => 0 := by funext a; match a with | ⟨0, _⟩ => rfl
  have htS : (tAll).view.set = Finset.univ := by
    show ((View.whole (main_v3_scv : Ref sig .scVector)).slice (Rect.unit (s := S1024000) ![0] S1024000.size inb_S1024000_S1024000_0)).set = _
    rw [View.set_slice_whole]; exact Finset.eq_univ_of_forall (View.mem_set_unit_zero h0 _)
  have hsS : (sAll).view.set = Finset.univ := by
    show ((View.whole (cc1_scratch0 : Ref sig .scVector)).slice (Rect.unit (s := S1600) ![0] S1600.size inb_S1600_S1600_0)).set = _
    rw [View.set_slice_whole]; exact Finset.eq_univ_of_forall (View.mem_set_unit_zero h0 _)
  have hrS : (rAll).view.set = Finset.univ := by
    show ((View.whole (cc1_scratch1 : Ref sig .scVector)).slice (Rect.unit (s := S1600) ![0] S1600.size inb_S1600_S1600_0)).set = _
    rw [View.set_slice_whole]; exact Finset.eq_univ_of_forall (View.mem_set_unit_zero h0 _)
  ihave Hx'' := (Entails.of_eq (show ((tV).view.loc (V d (cV L) (jV L)) ↦{tq (cL L) (jL L)} tb d : sProp 𝕄)
      = (tAll).view.loc (V d (cV L) (jV L)) ↦[(tAll).view.set]{tq (cL L) (jL L)} tb d by rw [htS])) $$ Hx'
  ihave Hr'' := (Entails.of_eq (show ((rV).view.loc (V d (cV L) (jV L)) ↦{fullShare} fr : sProp 𝕄)
      = (rAll).view.loc (V d (cV L) (jV L)) ↦[(rAll).view.set]{fullShare} fr by rw [hrS])) $$ Hr'
  ihave Hs'' := (Entails.of_eq (show ((sV).view.loc (V d (cV L) (jV L)) ↦{fullShare} View.write (Elt F) (sV).view fs (tile_body.sl.dma0 fi d L) Finset.univ : sProp 𝕄)
      = (sAll).view.loc (V d (cV L) (jV L)) ↦[(sAll).view.set]{fullShare} View.write (Elt F) (sV).view fs (tile_body.sl.dma0 fi d L) Finset.univ
      by rw [hsS])) $$ Hs'
  have hin : ∀ x, ((sAll).view.read (Elt F) (View.write (Elt F) (sV).view fs (tile_body.sl.dma0 fi d L) Finset.univ) x).toNat
      < S1024000.size gathers_S1024000_S1600.axis := by
    exact tile_hin d L (fi d) hfi fs
  have hN : ∀ h : S1024000.Gathers 0 S1600, ∑ j, ((rAll).slice (S1600.rowRect h.axis' j) (S1600.stride_rowRect h.axis' j)).view.dmaCredit
      = (rAll).view.dmaCredit := fun h => SparseCore.sum_rowCredit_eq_dmaCredit (rAll) h.axis' (fun _ => rfl)
  iapply (SparseCore.wp_indirectGatherLocal countersEmb 𝒱₀ (V d (cV L) (jV L)) none (hg := gathers_S1024000_S1600) (default : HIx 1)
      (rAll).view.dmaCredit (hN _) (by decide) hin) $$ [Hx'' Hr'' Hs'' HsemB]
  · isplitl [Hx'']; · iexact Hx''
    isplitl [Hr'']; · iexact Hr''
    isplitl [Hs'']; · iexact Hs''
    iexact HsemB
  iintro Hfl
  sl_exec
  -- its wait: the value scratch written with the gathered entries; the table's share and the index scratch back
  iapply (Transfers.wp_waitLocalO countersEmb 𝒱₀ (V d (cV L) (jV L)) none (default : HIx 1) (rfl : (rAll).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hr3 := (Entails.of_eq (show ((rAll).view.loc (V d (cV L) (jV L)) ↦[(rAll).view.set]{fullShare} _ : sProp 𝕄)
      = (rV).view.loc (V d (cV L) (jV L)) ↦{fullShare} _ by rw [hrS])) $$ Hr'
  ihave Hs3 := (Entails.of_eq (show ((sAll).view.loc (V d (cV L) (jV L)) ↦[(sAll).view.set]{fullShare} _ : sProp 𝕄)
      = (sV).view.loc (V d (cV L) (jV L)) ↦{fullShare} _ by rw [hsS])) $$ Hs'
  sl_exec
  sl_step
  -- what the worker's rows of the output now hold is the table read at its rows of the index list
  have hval : ∀ i ∈ (oSl L).view.set,
      ((oSl L).view.writes (Elt F) (o0 d) [⟨Rect.whole S1600, tile_body.sl.dma0_1 fi tb d L fs fr hin⟩]) i
        = Cert.Kernel.KerTerm.outVal (fi d) (tb d) i :=
    tile_val d L (fi d) (tb d) (o0 d) fs fr hin
  ihave Ho3 := (Entails.of_eq (pointsTo_congr (q := fullShare) hval)) $$ Ho'
  isplitl [Ho3]
  · iapply (Entails.of_eq (pts_oSl (F := F) d L _)); iexact Ho3
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.Run

end
-- ==== Proof.B.Launch1.lean ====
/-
  The second stage under the launch theorem, first half: what each handshake carries, the task's obligation, and how a
  SparseCore's operands split among its sixteen workers.  A SparseCore is handed its workers' rows of the index list and
  of the output and a read share of the table; each worker gets its rows and a read share of that share; what comes
  back is the workers' rows of the output, holding the table read at the index list.
-/
import proofs.«203669_g49563922596444_cont_8to1_c_1114_17_alg».proof.Proof.B.Tile

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "fV" => (Memref.whole Cert.Kernel.main_v2_1_scv : Memref Cert.Kernel.sig Kind.scVector Space.hbm Cert.Kernel.S51200 EltTy.i32)
local notation "tV" => (Memref.whole Cert.Kernel.main_v3_scv : Memref Cert.Kernel.sig Kind.scVector Space.hbm Cert.Kernel.S1024000 EltTy.f32)
local notation "oV" => (Memref.whole Cert.Kernel.main_v4_scv : Memref Cert.Kernel.sig Kind.scVector Space.hbm Cert.Kernel.S51200 EltTy.f32)
local notation "sV" => (Memref.whole Cert.Kernel.cc1_scratch0 : Memref Cert.Kernel.sig Kind.scVector Space.vmem Cert.Kernel.S1600 EltTy.i32)
local notation "rV" => (Memref.whole Cert.Kernel.cc1_scratch1 : Memref Cert.Kernel.sig Kind.scVector Space.vmem Cert.Kernel.S1600 EltTy.f32)

variable [FloatOps F]
variable (fi : (d : Dev nD) → Buf (Elt F) (fLoc d)) (tb : (d : Dev nD) → Buf (Elt F) (tLoc d)) (o0 : (d : Dev nD) → Buf (Elt F) (oLoc d))

/-- What the second stage leaves in the output. -/
abbrev outA (d : Dev nD) : Buf (Elt F) (oLoc d) := Cert.Kernel.KerTerm.outVal (fi d) (tb d)

/-! ## What the handshakes carry -/

def P : (K (F := F)).Pay (nD := nD) (Val := Elt F) (Name := ℕ) (U := UU) where
  st := fun q d c => match q with
    | 0 => iprop((bigSep Finset.univ fun i : Fin 16 => fRowPts fi d (wid (Fin.cast nCore_zero c) i))
        ∗ (tLoc d ↦{tqC (Fin.cast nCore_zero c)} tb d)
        ∗ bigSep Finset.univ fun i : Fin 16 => oRowPts d (wid (Fin.cast nCore_zero c) i) (o0 d))
  dn := fun q d c => match q with
    | 0 => bigSep Finset.univ fun i : Fin 16 => oRowPts d (wid (Fin.cast nCore_zero c) i) (outA fi tb d)
  go := fun q d c i => match q with
    | 0 => iprop(fRowPts fi d (wid (Fin.cast nCore_zero c) (Fin.cast nSub_zero i)) ∗ tShPts tb d (Fin.cast nCore_zero c) (Fin.cast nSub_zero i)
        ∗ oRowPts d (wid (Fin.cast nCore_zero c) (Fin.cast nSub_zero i)) (o0 d))
  td := fun q d c i => match q with
    | 0 => oRowPts d (wid (Fin.cast nCore_zero c) (Fin.cast nSub_zero i)) (outA fi tb d)
  x := fun _ _ => iprop(emp)

instance P_storable : (P (F := F) fi tb o0).IsStorable where
  st q d c := match q with
    | 0 => (inferInstance : BI.Storable (upEmb : UEmb _ 𝕄) iprop((bigSep Finset.univ fun i : Fin 16 => fRowPts fi d (wid (Fin.cast nCore_zero c) i))
        ∗ (tLoc d ↦{tqC (Fin.cast nCore_zero c)} tb d)
        ∗ bigSep Finset.univ fun i : Fin 16 => oRowPts d (wid (Fin.cast nCore_zero c) i) (o0 d)))
  dn q d c := match q with
    | 0 => (inferInstance : BI.Storable (upEmb : UEmb _ 𝕄) (bigSep Finset.univ fun i : Fin 16 => oRowPts d (wid (Fin.cast nCore_zero c) i) (outA fi tb d)))
  go q d c i := match q with
    | 0 => (inferInstance : BI.Storable (upEmb : UEmb _ 𝕄)
      iprop(fRowPts fi d (wid (Fin.cast nCore_zero c) (Fin.cast nSub_zero i)) ∗ tShPts tb d (Fin.cast nCore_zero c) (Fin.cast nSub_zero i)
        ∗ oRowPts d (wid (Fin.cast nCore_zero c) (Fin.cast nSub_zero i)) (o0 d)))
  td q d c i := match q with
    | 0 => (inferInstance : BI.Storable (upEmb : UEmb _ 𝕄) (oRowPts d (wid (Fin.cast nCore_zero c) (Fin.cast nSub_zero i)) (outA fi tb d)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_kernel (coordsV c s)
          fV (Memref.isWhole_whole _) tV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfi : ∀ d (j : S51200.Idx), (fi d j).toNat < 1024000) :
    (K (F := F)).TileObl (D (F := F)) 𝒱 (P fi tb o0) v₀ 0 := by
  intro d c i O W hO _ _
  simp only [show (P fi tb o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi tb o0 d (coordsV ⟨_, hci.1⟩ ⟨_, hci.2⟩) hF (hfi d) O W hO).trans (wp_mono frame _ _ fun _ => obl_post)

/-! ## A SparseCore's operands split among its workers -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P fi tb o0) 0 := by
  intro d c
  show iprop((bigSep Finset.univ fun i : Fin 16 => fRowPts fi d (wid (Fin.cast nCore_zero c) i))
        ∗ (tLoc d ↦{tqC (Fin.cast nCore_zero c)} tb d)
        ∗ bigSep Finset.univ fun i : Fin 16 => oRowPts d (wid (Fin.cast nCore_zero c) i) (o0 d)) ⊢ |={Set.univ}=> iprop(
      (bigSep Finset.univ fun i : Fin ((K (F := F)).nSub 0) =>
        iprop(fRowPts fi d (wid (Fin.cast nCore_zero c) (Fin.cast nSub_zero i)) ∗ tShPts tb d (Fin.cast nCore_zero c) (Fin.cast nSub_zero i)
          ∗ oRowPts d (wid (Fin.cast nCore_zero c) (Fin.cast nSub_zero i)) (o0 d)))
      ∗ ((bigSep Finset.univ fun i : Fin ((K (F := F)).nSub 0) => oRowPts d (wid (Fin.cast nCore_zero c) (Fin.cast nSub_zero i)) (outA fi tb d))
          -∗ bigSep Finset.univ fun i : Fin 16 => oRowPts d (wid (Fin.cast nCore_zero c) i) (outA fi tb d)))
  rw [bigSep_tasks (F := F) (fun i => iprop(fRowPts fi d (wid (Fin.cast nCore_zero c) i) ∗ tShPts tb d (Fin.cast nCore_zero c) i
      ∗ oRowPts d (wid (Fin.cast nCore_zero c) i) (o0 d))),
    bigSep_tasks (F := F) (fun i => oRowPts d (wid (Fin.cast nCore_zero c) i) (outA fi tb d)), bigSep_sep', bigSep_sep']
  iintro ⟨Hf, Ht, Ho⟩
  ihave Hts := (Transfers.pointsTo_toks_split (tqC (Fin.cast nCore_zero c)) 16) $$ Ht
  icases Hts with ⟨-, Hts⟩
  imodintro
  isplitl [Hf Hts Ho]
  · isplitl [Hf]; · iexact Hf
    isplitl [Hts]; · iexact Hts
    iexact Ho
  iintro H; iexact H

end Cert.Kernel.Run

end
-- ==== Proof.B.TableCanon.lean ====
/-
  The table the first stage leaves in its 8000 × 128 buffer, as one function of the buffer's index.

  The stage stores eight blocks of 1000 rows, block ct through the rectangle of rows [1000·ct, 1000·ct + 1000) and all
  128 lanes.  The rectangles tile the buffer, so every index (r, l) lies in exactly the rectangle ct = r / 1000, at the
  local index (r - 1000·ct, l) = (r mod 1000, l); there the stored block's entry is the table's entry: r / 1000 mod 8
  = r / 1000 for r below 8000, and l mod 128 = l.  So the contents the eight stores leave, whatever their order, are
  the table.
-/
import proofs.«203669_g49563922596444_cont_8to1_c_1114_17_alg».proof.Proof.B.KerTerm
import Idealize.ShloMosaic.Lib.Pipeline.Value
import Idealize.ShloMosaic.Lib.Pipeline.FrameBody
import Idealize.ShloMosaic.Lib.Tactic
import Idealize.ShloMosaic.Lib.Ring

noncomputable section

namespace Cert.Kernel.TableCanon

open Idealize.ShloMosaic Cert.Kernel Cert.Kernel.Gen

/-! The eight rectangles: rows [1000·ct, 1000·ct + 1000), all 128 lanes. -/

abbrev rT0 : Rect S8000x128 := Rect.unit (s := S8000x128) ![0, 0] S1000x128.size Gen.inb_S8000x128_S1000x128_0_0
abbrev rT1 : Rect S8000x128 := Rect.unit (s := S8000x128) ![1000, 0] S1000x128.size Gen.inb_S8000x128_S1000x128_1000_0
abbrev rT2 : Rect S8000x128 := Rect.unit (s := S8000x128) ![2000, 0] S1000x128.size Gen.inb_S8000x128_S1000x128_2000_0
abbrev rT3 : Rect S8000x128 := Rect.unit (s := S8000x128) ![3000, 0] S1000x128.size Gen.inb_S8000x128_S1000x128_3000_0
abbrev rT4 : Rect S8000x128 := Rect.unit (s := S8000x128) ![4000, 0] S1000x128.size Gen.inb_S8000x128_S1000x128_4000_0
abbrev rT5 : Rect S8000x128 := Rect.unit (s := S8000x128) ![5000, 0] S1000x128.size Gen.inb_S8000x128_S1000x128_5000_0
abbrev rT6 : Rect S8000x128 := Rect.unit (s := S8000x128) ![6000, 0] S1000x128.size Gen.inb_S8000x128_S1000x128_6000_0
abbrev rT7 : Rect S8000x128 := Rect.unit (s := S8000x128) ![7000, 0] S1000x128.size Gen.inb_S8000x128_S1000x128_7000_0

/-- The eight stores as pieces, last store first. -/
def tabPieces {F : FTy → Type} [FloatOps F] (b : Fin 8 → Vec F S1000x128 .f32) : List (View.Piece (Elt F) S8000x128 .f32) :=
  [⟨rT7, b 7⟩, ⟨rT6, b 6⟩, ⟨rT5, b 5⟩, ⟨rT4, b 4⟩, ⟨rT3, b 3⟩, ⟨rT2, b 2⟩, ⟨rT1, b 1⟩, ⟨rT0, b 0⟩]

/-- The eight rectangles cover the buffer. -/
theorem cover_tabPieces {F : FTy → Type} [FloatOps F] (b : Fin 8 → Vec F S1000x128 .f32) (y : S8000x128.Idx) :
    ∃ pc ∈ tabPieces b, y ∈ pc.1.set :=
  View.cover_of_tiledL (tabPieces b) S1000x128.size (by sl_kernel_rfl) y

/-- The table at the buffer index that is row x₀ of block ct, lane x₁: the block's entry there. -/
theorem tabArr_at {F : FTy → Type} [FloatOps F] (w : FVec F S1000x1000 .f32) (ct : Fin 8) (j : S8000x128.Idx)
    (x : S1000x128.Idx) (h0 : (j 0).val = 1000 * ct.val + (x 0).val) (h1 : (j 1).val = (x 1).val) :
    Cert.Kernel.KerTerm.tabArr w j = Cert.Kernel.Table.tabBlock w ct x := by
  have hx0 : (x 0).val < 1000 := (x 0).isLt
  have hx1 : (x 1).val < 128 := (x 1).isLt
  have hct := ct.isLt
  have e1 : (⟨(j 0).val / 1000 % 8, Nat.mod_lt _ (by decide)⟩ : Fin 8) = ct :=
    Fin.ext (by show (j 0).val / 1000 % 8 = ct.val; omega)
  have e2 : ValueIdx.ix2 (⟨(j 0).val % 1000, Nat.mod_lt _ (by decide)⟩ : Fin 1000)
      (⟨(j 1).val % 128, Nat.mod_lt _ (by decide)⟩ : Fin 128) = x := by
    funext a; apply Fin.ext
    match a with
    | ⟨0, _⟩ => show (j 0).val % 1000 = (x 0).val; omega
    | ⟨1, _⟩ => show (j 1).val % 128 = (x 1).val; omega
  unfold Cert.Kernel.KerTerm.tabArr
  rw [e1, e2]

/-- What the eight stores of the table's blocks leave in the buffer is the table. -/
theorem canon_tabPieces {F : FTy → Type} [FloatOps F] [∀ e, Nonempty (Elt F e)] (w : FVec F S1000x1000 .f32) :
    View.canon (tabPieces (Cert.Kernel.Table.tabBlock w)) = Cert.Kernel.KerTerm.tabArr w := by
  funext y
  refine View.canon_apply_of_pieces (Cert.Kernel.KerTerm.tabArr w) _ ?_ y (cover_tabPieces _ y)
  intro p hp x
  unfold tabPieces at hp
  simp only [List.mem_cons, List.not_mem_nil, or_false] at hp
  rcases hp with rfl | rfl | rfl | rfl | rfl | rfl | rfl | rfl
  · exact (tabArr_at w 7 _ x (by show 7000 + 1 * (x 0).val = 1000 * 7 + (x 0).val; omega)
      (by show 0 + 1 * (x 1).val = (x 1).val; omega)).symm
  · exact (tabArr_at w 6 _ x (by show 6000 + 1 * (x 0).val = 1000 * 6 + (x 0).val; omega)
      (by show 0 + 1 * (x 1).val = (x 1).val; omega)).symm
  · exact (tabArr_at w 5 _ x (by show 5000 + 1 * (x 0).val = 1000 * 5 + (x 0).val; omega)
      (by show 0 + 1 * (x 1).val = (x 1).val; omega)).symm
  · exact (tabArr_at w 4 _ x (by show 4000 + 1 * (x 0).val = 1000 * 4 + (x 0).val; omega)
      (by show 0 + 1 * (x 1).val = (x 1).val; omega)).symm
  · exact (tabArr_at w 3 _ x (by show 3000 + 1 * (x 0).val = 1000 * 3 + (x 0).val; omega)
      (by show 0 + 1 * (x 1).val = (x 1).val; omega)).symm
  · exact (tabArr_at w 2 _ x (by show 2000 + 1 * (x 0).val = 1000 * 2 + (x 0).val; omega)
      (by show 0 + 1 * (x 1).val = (x 1).val; omega)).symm
  · exact (tabArr_at w 1 _ x (by show 1000 + 1 * (x 0).val = 1000 * 1 + (x 0).val; omega)
      (by show 0 + 1 * (x 1).val = (x 1).val; omega)).symm
  · exact (tabArr_at w 0 _ x (by show 0 + 1 * (x 0).val = 1000 * 0 + (x 0).val; omega)
      (by show 0 + 1 * (x 1).val = (x 1).val; omega)).symm

end Cert.Kernel.TableCanon

end
-- ==== Proof.B.TcBody.lean ====
/-
  The first stage's body as a triple.

  On whole staging buffers — the logit matrix and the two integer matrices at given contents, the table's and the
  index list's buffers at anything — the body runs to its continuation holding the three inputs as they were, the
  table's buffer at the table (eight blocks of 1000 rows: block ct at row v, lane l holds the log-sum-exp of logit row
  v minus logit (v, 128·ct + l)) and the index list's buffer at the flat indices.  The body stores the table by eight
  stores through the rectangles of rows [1000·ct, 1000·ct + 1000), which tile the buffer, and the index list by one
  store through the whole buffer; what the stores leave is read as one function of the buffer's index.
-/
import proofs.«203669_g49563922596444_cont_8to1_c_1114_17_alg».proof.Proof.B.Base
import proofs.«203669_g49563922596444_cont_8to1_c_1114_17_alg».proof.Proof.B.TableCanon

set_option maxRecDepth 16384

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

/-- A load through the whole buffer reads the buffer's contents. -/
theorem readAt_unit_zero {sg : RefSig} {κ : Kind} {sp : Space} {s : Shape} {e : EltTy} {Val : EltTy → Type}
    (v : View sg κ sp s e) (f : v.ty.Contents Val) {off : Fin s.rank → Nat} (h : off = fun _ => 0)
    (inb : ∀ a, off a + s.size a ≤ s.size a) :
    v.readAt Val (Rect.unit off s.size inb).toLoadRect f = v.read Val f :=
  View.ld_unit_zero h inb (v.read Val f)

/-- What the eight stores of the table's blocks, computed from the loaded logit matrix, leave in the table's buffer,
    over any prior contents: the table of the logit matrix. -/
theorem table_read [FloatOps F] [∀ e, Nonempty (Elt F e)] {κ κ' : Kind} {sp sp' : Space}
    (v0 : View sig κ' sp' S1000x1000 .f32) (f0 : v0.ty.Contents (Elt F))
    (v : View sig κ sp S8000x128 .f32) (f : v.ty.Contents (Elt F)) :
    v.read (Elt F) (v.writes (Elt F) f (TableCanon.tabPieces (Cert.Kernel.Table.tabBlock
        (View.readAt (Elt F) v0 (Rect.unit (s := S1000x1000) ![0, 0] S1000x1000.size inb_S1000x1000_S1000x1000_0_0).toLoadRect f0))))
      = Cert.Kernel.KerTerm.tabArr (v0.read (Elt F) f0) := by
  rw [readAt_unit_zero v0 f0 (by funext a; fin_cases a <;> rfl),
    View.read_writes_eq_canon _ _ _ (TableCanon.cover_tabPieces _), TableCanon.canon_tabPieces]

/-- What the one store of the flat indices, computed from the two loaded integer matrices, leaves in the index
    list's buffer, over any prior contents: the flat indices of the two matrices. -/
theorem idx_read [FloatOps F] [∀ e, Nonempty (Elt F e)] {κ κ₁ κ₂ : Kind} {sp sp₁ sp₂ : Space}
    (v1 : View sig κ₁ sp₁ S50x1024 .i32) (f1 : v1.ty.Contents (Elt F))
    (v2 : View sig κ₂ sp₂ S50x1024 .i32) (f2 : v2.ty.Contents (Elt F))
    (v : View sig κ sp S51200 .i32) (f : v.ty.Contents (Elt F)) :
    v.read (Elt F) (v.writes (Elt F) f
        [⟨Rect.unit (s := S51200) ![0] S51200.size inb_S51200_S51200_0,
          Gen.k0_pay2 (F := F)
            (View.readAt (Elt F) v1 (Rect.unit (s := S50x1024) ![0, 0] S50x1024.size inb_S50x1024_S50x1024_0_0).toLoadRect f1)
            (View.readAt (Elt F) v2 (Rect.unit (s := S50x1024) ![0, 0] S50x1024.size inb_S50x1024_S50x1024_0_0).toLoadRect f2)⟩])
      = Gen.k0_pay2 (F := F) (v1.read (Elt F) f1) (v2.read (Elt F) f2) := by
  rw [readAt_unit_zero v1 f1 (by funext a; fin_cases a <;> rfl), readAt_unit_zero v2 f2 (by funext a; fin_cases a <;> rfl),
    View.read_writes_eq_canon _ _ _ (fun y => ⟨_, List.mem_singleton_self _,
      View.mem_set_unit_zero (by funext a; fin_cases a; rfl) inb_S51200_S51200_0 y⟩),
    View.canon_unit_zero (by funext a; fin_cases a; rfl)]

set_option maxHeartbeats 1000000 in
/-- The first stage's body on whole staging buffers: the inputs are kept, the table's buffer ends at the table and
    the index list's at the flat indices. -/
theorem sound_table [FloatOps F] [∀ e, Nonempty (Elt F e)] (c : Dev nD) (E : Set ℕ)
    (arg0 : Memref sig .tc .vmem S1000x1000 .f32) (harg0 : arg0.IsWhole) (arg1 : Memref sig .tc .vmem S50x1024 .i32) (harg1 : arg1.IsWhole)
    (arg2 : Memref sig .tc .vmem S50x1024 .i32) (harg2 : arg2.IsWhole) (arg3 : Memref sig .tc .vmem S8000x128 .f32) (harg3 : arg3.IsWhole)
    (arg4 : Memref sig .tc .vmem S51200 .i32) (harg4 : arg4.IsWhole)
    (x0 : Vec F S1000x1000 .f32) (x1 x2 : Vec F S50x1024 .i32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (Cert.Kernel.KerTerm.tabArr x0) ∗ owns (c : Thread nD τ) arg4 fullShare (Gen.k0_pay2 (F := F) x1 x2)) -∗ Kk ⟨⟩))
      ⊢ wp frame (wpE (defs₀ (F := F)) Variants.none c none) E (cc0__table_body arg0 harg0 arg1 harg1 arg2 harg2 arg3 harg3 arg4 harg4) Kk := by
  simp only [cc0__table_body_eq_skeleton]; unfold cc0__table_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact table_read arg0.view f0 arg3.view f3
  iexists _; isplitr
  swap; · iexact H4
  ipureintro
  exact idx_read arg1.view f1 arg2.view f2 arg4.view f4

end Cert.Kernel.Run

end
-- ==== Proof.B.Region.lean ====
/-
  The first stage (the TensorCore call) as a region of @main: its proof data and its entry and exit.  The call has no
  grid: one point, five windows each the whole array — the logit matrix and the two transposed index arrays fetched, the
  table and the flat index list written back.  After the body the table's window holds the table of the fetched logits
  and the index window the flat indices of the fetched index arrays.  The TensorCore owes its start signals to the
  SparseCores throughout; the region's own waits sit at the lowest level, below them.
-/
import proofs.«203669_g49563922596444_cont_8to1_c_1114_17_alg».proof.Proof.B.Base
import proofs.«203669_g49563922596444_cont_8to1_c_1114_17_alg».proof.Proof.B.TableCanon
import proofs.«203669_g49563922596444_cont_8to1_c_1114_17_alg».proof.Proof.B.TcBody

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The proof data -/

-- the five windows' arrays when the region is entered
variable (A0 : (c : Dev nD) → (w : Fin cfg0.W) → Buf (Elt F) ((cfg0.win w).arr.view.loc (c : Thread nD τ)))

/-- A window's (whole) block read off its array. -/
def xblk (c : Dev nD) (w : Fin cfg0.W) : ((cfg0.win w).xblock (cfg0.grid.coords t0_0)).Idx → Elt F (cfg0.win w).elt :=
  ((cfg0.win w).blk t0_0).view.read (Elt F) (A0 c w)

/-- What the TensorCore owes through the region: its start signals. -/
abbrev Otc0 (c : Dev nD) : CellTallies nD τ sig (HIx 1) := (K (F := F)).Otc c 0

theorem Otc0_none (c : Dev nD) (g : GSem nD τ sig) : Otc0 (F := F) c g none = 0 := by
  by_contra h
  have := SparseCore.Cfg.lev_of_Otc_pos (K := K (F := F)) (Nat.pos_of_ne_zero h)
  rw [SparseCore.Cfg.lev_none] at this; omega

def dat0 (c : Dev nD) : Pipeline.Dat τ (Elt F) (HIx 1) ℕ UU ℕ cfg0 c where
  A w := A0 c w
  after w _ := match w with
    | ⟨0, _⟩ => xblk A0 c 0
    | ⟨1, _⟩ => xblk A0 c 1
    | ⟨2, _⟩ => xblk A0 c 2
    | ⟨3, _⟩ => Cert.Kernel.KerTerm.tabArr (xblk A0 c 0)
    | ⟨4, _⟩ => Gen.k0_pay2 (F := F) (xblk A0 c 1) (xblk A0 c 2)
  Φ _ := iprop(emp)
  q _ := fullShare
  owed _ := Otc0 (F := F) c
  recorded _ := {p | p.2 = none}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat0 A0

theorem before_in0 (c : Dev nD) (d) : (dat0 (F := F) A0 c).before 0 t0_0 d = xblk A0 c 0 := by
  unfold Pipeline.Dat.before; rw [if_pos (by decide)]; rfl
theorem before_in1 (c : Dev nD) (d) : (dat0 (F := F) A0 c).before 1 t0_0 d = xblk A0 c 1 := by
  unfold Pipeline.Dat.before; rw [if_pos (by decide)]; rfl
theorem before_in2 (c : Dev nD) (d) : (dat0 (F := F) A0 c).before 2 t0_0 d = xblk A0 c 2 := by
  unfold Pipeline.Dat.before; rw [if_pos (by decide)]; rfl

/-! ## The body obligation -/

theorem body_obligation (c : Dev nD) : BodyObligation (dat0 (F := F) A0 c) (defs₀ (F := F)) 𝒱₀ none Set.univ := fun t => by
  obtain rfl := fin_N0 t
  rw [bigSep_W0, bigSep_W0]
  rw [show (dat0 A0 c).Φ t0_0.castSucc = iprop(emp) from rfl, show (dat0 A0 c).Φ t0_0.succ = iprop(emp) from rfl,
    show (dat0 A0 c).owesAt none t0_0.succ = (dat0 A0 c).owesAt none t0_0.castSucc from rfl]
  iintro ⟨-, HO, ⟨%d0, H0⟩, ⟨%d1, H1⟩, ⟨%d2, H2⟩, ⟨%d3, H3⟩, ⟨%d4, H4⟩⟩
  rw [before_in0, before_in1, before_in2]
  iapply (sound_table c Set.univ _ _ _ _ _ _ _ _ _ _ (xblk A0 c 0) (xblk A0 c 1) (xblk A0 c 2) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitr; · iempintro
  isplitl [HO]; · iexact HO
  isplitl [H0]; · iexact H0
  isplitl [H1]; · iexact H1
  isplitl [H2]; · iexact H2
  isplitl [H3]; · iexact H3
  iexact H4

/-! ## The region -/

/-- A buffer of core c at the full share. -/
abbrev pl (c : Dev nD) (b : Ref sig .tc) (f : b.ty.Contents (Elt F)) : sProp 𝕄 := ((c : Thread nD τ).loc b) ↦{fullShare} f

/-- What the TensorCore owes, its recorded waits all at the lowest level. -/
abbrev tcOwes (c : Dev nD) : sProp 𝕄 :=
  iprop(∃ W, ⌜(K (F := F)).WBelow (SparseCore.T c) W 0⌝ ∗ owes (SparseCore.T c) (Otc0 (F := F) c) W)

omit [∀ e, Nonempty (Elt F e)] in
theorem lev_le_zero_iff (g : GSem nD τ sig) (ι : HIx 1) : (K (F := F)).lev g ι ≤ 0 ↔ ι = none := by
  cases ι with
  | none => simp
  | some q => constructor
              · intro h; have := (K (F := F)).lev_some_pos g q; omega
              · intro h; cases h

def reg0 : Pipeline.RegionSeg (pcfgs (F := F)) adm (pdats A0) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation A0 c).loose
  hwaits c := Pipeline.cellsWaits_intro _ (pdats A0) none 0 c fun w s t =>
    (K (F := F)).mayWait_none (thr := (c : Thread nD τ)) _ (Otc0_none c)
  pre c := iprop((pdats A0 0 c).arrays (A0 c) ∗ tcOwes (F := F) c)
  post c := iprop((pdats A0 0 c).arrays ((pdats A0 0 c).arrAt · (Pipeline.pin (pcfgs (F := F)) adm 0).N) ∗ tcOwes (F := F) c)
  X _ := iprop(emp)
  Y _ := iprop(emp)
  Z _ := iprop(emp)
  hentry c := by
    rw [Pipeline.ownSems0_none]
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; intro p hp; exact Or.inl ((lev_le_zero_iff (F := F) _ _).mp (hW p hp))
      iexact HO
    isplitr <;> iempintro
  hin c := by iintro -; iempintro
  hout c := by
    rw [Pipeline.ownSems0_none, scopedRest0_eq]
    iintro -; isplitr; · iempintro
    isplitr <;> iempintro
  hexit c := by
    iintro ⟨Ha, HO, -, -⟩
    imodintro
    isplitl [Ha]; · iexact Ha
    unfold Pipeline.Dat.owesAt Pipeline.owesWithin
    icases HO with ⟨%W, %hW, HO⟩
    iexists W; isplitr
    swap; · iexact HO
    ipureintro; intro p hp
    refine (lev_le_zero_iff (F := F) _ _).mpr ?_
    rcases hW hp with h | ⟨w, s, h⟩
    · exact h
    · rw [h]

end Cert.Kernel.Run

end
-- ==== Proof.B.RegionFinal.lean ====
/-
  What the first stage leaves in its five arrays.

  The call has no grid: one point, every window the whole array.  The three input windows' arrays are never written
  back, so they end as they were.  The two output windows' arrays are written back once, whole: the table's array
  ends at the table of the logit matrix the region found, the index list's at the flat indices of the two integer
  matrices it found.  A window's block read off its array through the whole view is the array.
-/
import proofs.«203669_g49563922596444_cont_8to1_c_1114_17_alg».proof.Proof.B.Region

set_option maxRecDepth 16384

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (A0 : (c : Dev nD) → (w : Fin cfg0.W) → Buf (Elt F) ((cfg0.win w).arr.view.loc (c : Thread nD τ)))

/-! ## The input windows -/

theorem isOut0 : (cfg0.win 0).isOut = false := rfl
theorem isOut1 : (cfg0.win 1).isOut = false := rfl
theorem isOut2 : (cfg0.win 2).isOut = false := rfl

/-- The logit matrix's array is never written back. -/
theorem arrAt_w0 (c : Dev nD) : (dat0 (F := F) A0 c).arrAt 0 cfg0.N = A0 c 0 :=
  (dat0 (F := F) A0 c).arrAt_in 0 isOut0 _
/-- The first integer matrix's array is never written back. -/
theorem arrAt_w1 (c : Dev nD) : (dat0 (F := F) A0 c).arrAt 1 cfg0.N = A0 c 1 :=
  (dat0 (F := F) A0 c).arrAt_in 1 isOut1 _
/-- The second integer matrix's array is never written back. -/
theorem arrAt_w2 (c : Dev nD) : (dat0 (F := F) A0 c).arrAt 2 cfg0.N = A0 c 2 :=
  (dat0 (F := F) A0 c).arrAt_in 2 isOut2 _

/-! ## A whole window's block is its array

The block's rectangle starts at 0 on every axis with unit strides: local index j sits at 0·size + 1·j = j. -/

theorem emb_blk0 (j : S1000x1000.Idx) : ((cfg0.win 0).blk t0_0).view.emb j = j := by
  funext a; apply Fin.ext
  match a with
  | ⟨0, _⟩ => show 0 * 1000 + 1 * (j 0).val = (j 0).val; omega
  | ⟨1, _⟩ => show 0 * 1000 + 1 * (j 1).val = (j 1).val; omega
theorem emb_blk1 (j : S50x1024.Idx) : ((cfg0.win 1).blk t0_0).view.emb j = j := by
  funext a; apply Fin.ext
  match a with
  | ⟨0, _⟩ => show 0 * 50 + 1 * (j 0).val = (j 0).val; omega
  | ⟨1, _⟩ => show 0 * 1024 + 1 * (j 1).val = (j 1).val; omega
theorem emb_blk2 (j : S50x1024.Idx) : ((cfg0.win 2).blk t0_0).view.emb j = j := by
  funext a; apply Fin.ext
  match a with
  | ⟨0, _⟩ => show 0 * 50 + 1 * (j 0).val = (j 0).val; omega
  | ⟨1, _⟩ => show 0 * 1024 + 1 * (j 1).val = (j 1).val; omega
theorem emb_blk3 (j : S8000x128.Idx) : ((cfg0.win 3).blk t0_0).view.emb j = j := by
  funext a; apply Fin.ext
  match a with
  | ⟨0, _⟩ => show 0 * 8000 + 1 * (j 0).val = (j 0).val; omega
  | ⟨1, _⟩ => show 0 * 128 + 1 * (j 1).val = (j 1).val; omega
theorem emb_blk4 (j : S51200.Idx) : ((cfg0.win 4).blk t0_0).view.emb j = j := by
  funext a; apply Fin.ext
  match a with
  | ⟨0, _⟩ => show 0 * 51200 + 1 * (j 0).val = (j 0).val; omega

/-- The logit matrix's block, read off its array, is the array. -/
theorem xblk_eq0 (c : Dev nD) : xblk A0 c 0 = A0 c 0 := by
  funext j
  show A0 c 0 (((cfg0.win 0).blk t0_0).view.emb j) = A0 c 0 j
  rw [emb_blk0]
theorem xblk_eq1 (c : Dev nD) : xblk A0 c 1 = A0 c 1 := by
  funext j
  show A0 c 1 (((cfg0.win 1).blk t0_0).view.emb j) = A0 c 1 j
  rw [emb_blk1]
theorem xblk_eq2 (c : Dev nD) : xblk A0 c 2 = A0 c 2 := by
  funext j
  show A0 c 2 (((cfg0.win 2).blk t0_0).view.emb j) = A0 c 2 j
  rw [emb_blk2]

/-! ## The table's window -/

/-- What the one point writes back into the table's array is the table of the logit matrix, read through the block. -/
theorem flushed3_eq (c : Dev nD) (t : Fin cfg0.N) :
    (dat0 (F := F) A0 c).flushed 3 t = ((cfg0.win 3).blk t).view.read (Elt F) (Cert.Kernel.KerTerm.tabArr (A0 c 0)) := by
  obtain rfl := fin_N0 t
  show (cfg0.win 3).cut (grid0.coords t0_0) ((dat0 (F := F) A0 c).after 3 t0_0) = _
  funext j
  show Cert.Kernel.KerTerm.tabArr (xblk A0 c 0) j
    = Cert.Kernel.KerTerm.tabArr (A0 c 0) (((cfg0.win 3).blk t0_0).view.emb j)
  rw [xblk_eq0, emb_blk3]

/-- Every index of the table's array is in the one point's block. -/
theorem mem_blk3 (i : S8000x128.Idx) : i ∈ ((cfg0.win 3).blk t0_0).view.set := by
  have h := ((cfg0.win 3).blk t0_0).view.emb_mem_set i
  rw [emb_blk3] at h
  exact h

/-- The table's array after the region: the table of the logit matrix the region found. -/
theorem arrAt_w3 (c : Dev nD) : (dat0 (F := F) A0 c).arrAt 3 cfg0.N = Cert.Kernel.KerTerm.tabArr (A0 c 0) :=
  (dat0 (F := F) A0 c).arrAt_eq_of_cover 3 _ (fun t _ => flushed3_eq A0 c t)
    (fun i => ⟨t0_0, flush0_3 t0_0, mem_blk3 i⟩)

/-! ## The index list's window -/

/-- What the one point writes back into the index list's array is the flat indices of the two integer matrices,
    read through the block. -/
theorem flushed4_eq (c : Dev nD) (t : Fin cfg0.N) :
    (dat0 (F := F) A0 c).flushed 4 t = ((cfg0.win 4).blk t).view.read (Elt F) (Gen.k0_pay2 (F := F) (A0 c 1) (A0 c 2)) := by
  obtain rfl := fin_N0 t
  show (cfg0.win 4).cut (grid0.coords t0_0) ((dat0 (F := F) A0 c).after 4 t0_0) = _
  funext j
  show Gen.k0_pay2 (F := F) (xblk A0 c 1) (xblk A0 c 2) j
    = Gen.k0_pay2 (F := F) (A0 c 1) (A0 c 2) (((cfg0.win 4).blk t0_0).view.emb j)
  rw [xblk_eq1, xblk_eq2, emb_blk4]

/-- Every index of the index list's array is in the one point's block. -/
theorem mem_blk4 (i : S51200.Idx) : i ∈ ((cfg0.win 4).blk t0_0).view.set := by
  have h := ((cfg0.win 4).blk t0_0).view.emb_mem_set i
  rw [emb_blk4] at h
  exact h

/-- The index list's array after the region: the flat indices of the two integer matrices the region found. -/
theorem arrAt_w4 (c : Dev nD) : (dat0 (F := F) A0 c).arrAt 4 cfg0.N = Gen.k0_pay2 (F := F) (A0 c 1) (A0 c 2) :=
  (dat0 (F := F) A0 c).arrAt_eq_of_cover 4 _ (fun t _ => flushed4_eq A0 c t)
    (fun i => ⟨t0_0, flush0_4 t0_0, mem_blk4 i⟩)

end Cert.Kernel.Run

end
-- ==== Proof.B.HostSteps.lean ====
/-
  @main's host operations on the TensorCore, each as a rule over its own two arrays.

  A one-operand host operation y = f(a) run on a device's TensorCore, holding the region boundary, the operand's array
  whole at contents X and the result's array whole at any contents: the continuation runs with the boundary back, the
  operand's array as it was and the result's array at f X.  A reshape is the same with f the row-major recast of X to
  the result's shape.  Both follow from the rule for a host operation over a set of whole arrays, at the two-element set
  of the operation's own arrays and a valuation that gives the two arrays the stated contents.
-/
import proofs.«203669_g49563922596444_cont_8to1_c_1114_17_alg».proof.Proof.B.Base

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-- The two arrays of a one-operand operation, held whole at a valuation: the two points-to facts. -/
theorem held_pair (d : Dev nD) (a y : Ref sig .tc) (hay : (Proc.devRef .tc a : DevRef τ sig) ≠ Proc.devRef .tc y)
    (W : Valuation τ sig (Elt F)) :
    (held (T d) ({Proc.devRef .tc a, Proc.devRef .tc y} : Finset (DevRef τ sig)) W : sProp 𝕄)
      = iprop(((SparseCore.T d).loc a ↦{fullShare} W (Proc.devRef .tc a)) ∗ ((SparseCore.T d).loc y ↦{fullShare} W (Proc.devRef .tc y))) := by
  unfold held
  rw [SparseCore.bigSep_insert' (by simpa using hay), bigSep_singleton]

/-- A host operation that touches two distinct arrays a and y, writes y alone, determines what it writes, and leaves
    in y a function g of a's contents: holding the boundary and the two arrays whole, a at X, the continuation runs
    with the boundary back, a as it was and y at g X.  The valuation B names contents for every other array; the
    rule does not read it. -/
theorem wp_two_T {Λ : Labels} {defs : Defs nD τ sig (Elt F) Λ} (𝒱 : Variants) (bd : Option 𝒱.V) (E : Set ℕ)
    (B : Valuation τ sig (Elt F)) (d : Dev nD) (a y : Ref sig .tc)
    (hay : (Proc.devRef .tc a : DevRef τ sig) ≠ Proc.devRef .tc y)
    (op : HloOp τ sig (Elt F))
    (hbufs : op.bufs = {Proc.devRef .tc a, Proc.devRef .tc y}) (hwrites : op.writes = {Proc.devRef .tc y})
    (hfresh : op.fresh = ∅)
    (g : a.ty.Contents (Elt F) → y.ty.Contents (Elt F))
    (hres : ∀ W : Valuation τ sig (Elt F), op.result W (Proc.devRef .tc y) = g (W (Proc.devRef .tc a)))
    (X : a.ty.Contents (Elt F)) (Y0 : y.ty.Contents (Elt F)) {α : Type}
    (k : ((b : op.writes) → b.1.ty.Contents (Elt F)) → Prog (TpuEff nD τ sig (Elt F) Λ .tc) α)
    (Q : α → sProp 𝕄) :
    iprop(boundary (SparseCore.T d) ∗ ((SparseCore.T d).loc a ↦{fullShare} X) ∗ ((SparseCore.T d).loc y ↦{fullShare} Y0)
        ∗ (∀ r, (iprop(boundary (SparseCore.T d) ∗ ((SparseCore.T d).loc a ↦{fullShare} X) ∗ ((SparseCore.T d).loc y ↦{fullShare} g X))
            -∗ wp frame (wpE defs 𝒱 (SparseCore.T d) bd) E (k r) Q)))
      ⊢ wp frame (wpE defs 𝒱 (SparseCore.T d) bd) E (hlo rfl op k) Q := by
  have hVa : (Function.update (Function.update B (Proc.devRef .tc a) X) (Proc.devRef .tc y) Y0 : Valuation τ sig (Elt F))
      (Proc.devRef .tc a) = X := by
    rw [Function.update_of_ne hay, Function.update_self]
  have hVy : (Function.update (Function.update B (Proc.devRef .tc a) X) (Proc.devRef .tc y) Y0 : Valuation τ sig (Elt F))
      (Proc.devRef .tc y) = Y0 := Function.update_self _ _ _
  have hRa : op.result (Function.update (Function.update B (Proc.devRef .tc a) X) (Proc.devRef .tc y) Y0) (Proc.devRef .tc a) = X := by
    rw [HloOp.result_of_not_mem _ _ (by rw [hwrites]; simpa using hay), hVa]
  have hRy : op.result (Function.update (Function.update B (Proc.devRef .tc a) X) (Proc.devRef .tc y) Y0) (Proc.devRef .tc y) = g X := by
    rw [hres, hVa]
  have hafter : (held (T d) ({Proc.devRef .tc a, Proc.devRef .tc y} : Finset (DevRef τ sig))
      (op.result (Function.update (Function.update B (Proc.devRef .tc a) X) (Proc.devRef .tc y) Y0)) : sProp 𝕄)
      = iprop(((SparseCore.T d).loc a ↦{fullShare} X) ∗ ((SparseCore.T d).loc y ↦{fullShare} g X)) := by
    rw [held_pair d a y hay, hRa, hRy]
  iintro ⟨Hb, Ha, Hy, Hk⟩
  iapply (wp_hlo_within 𝒱 (SparseCore.T d) bd E (op := op)
    (S := {Proc.devRef .tc a, Proc.devRef .tc y}) (le_of_eq hbufs)
    (V := Function.update (Function.update B (Proc.devRef .tc a) X) (Proc.devRef .tc y) Y0) hfresh) $$ [Hb Ha Hy]
  · isplitl [Hb]; · iexact Hb
    rw [held_pair d a y hay, hVa, hVy]
    isplitl [Ha]; · iexact Ha
    iexact Hy
  iintro ⟨Hb, Hheld⟩
  ihave Hh := (Entails.of_eq hafter) $$ Hheld
  icases Hh with ⟨Ha, Hy⟩
  iapply Hk
  isplitl [Hb]; · iexact Hb
  isplitl [Ha]; · iexact Ha
  iexact Hy

/-- A one-operand host operation y = f(a) on a device's TensorCore, over its own two arrays. -/
theorem wp_unary_T {Λ : Labels} {defs : Defs nD τ sig (Elt F) Λ} (𝒱 : Variants) (bd : Option 𝒱.V) (E : Set ℕ)
    (B : Valuation τ sig (Elt F)) (d : Dev nD) (a y : Ref sig .tc)
    (hay : (Proc.devRef .tc a : DevRef τ sig) ≠ Proc.devRef .tc y)
    (f : a.ty.Contents (Elt F) → y.ty.Contents (Elt F))
    (hx : a.space ≠ .host ∧ (Proc.devRef .tc a : DevRef τ sig).isScoped = false)
    (hy : y.space ≠ .host ∧ (Proc.devRef .tc y : DevRef τ sig).isScoped = false)
    (X : a.ty.Contents (Elt F)) (Y0 : y.ty.Contents (Elt F)) {α : Type}
    (k : ((b : (StableHlo.unary (τ := τ) (Val := Elt F) a y f hx hy).writes) → b.1.ty.Contents (Elt F)) → Prog (TpuEff nD τ sig (Elt F) Λ .tc) α)
    (Q : α → sProp 𝕄) :
    iprop(boundary (SparseCore.T d) ∗ ((SparseCore.T d).loc a ↦{fullShare} X) ∗ ((SparseCore.T d).loc y ↦{fullShare} Y0)
        ∗ (∀ r, (iprop(boundary (SparseCore.T d) ∗ ((SparseCore.T d).loc a ↦{fullShare} X) ∗ ((SparseCore.T d).loc y ↦{fullShare} f X))
            -∗ wp frame (wpE defs 𝒱 (SparseCore.T d) bd) E (k r) Q)))
      ⊢ wp frame (wpE defs 𝒱 (SparseCore.T d) bd) E (hlo rfl (StableHlo.unary a y f hx hy) k) Q :=
  wp_two_T 𝒱 bd E B d a y hay (StableHlo.unary a y f hx hy) rfl rfl rfl f
    (fun W => StableHlo.unary_result a y f hx hy W) X Y0 k Q

/-- A host reshape y = reshape(a) on a device's TensorCore, over its own two arrays: y ends at a's contents recast,
    in row-major order, to y's shape. -/
theorem wp_reshape_T {Λ : Labels} {defs : Defs nD τ sig (Elt F) Λ} (𝒱 : Variants) (bd : Option 𝒱.V) (E : Set ℕ)
    (B : Valuation τ sig (Elt F)) (d : Dev nD) (a y : Ref sig .tc)
    (hay : (Proc.devRef .tc a : DevRef τ sig) ≠ Proc.devRef .tc y)
    (he : a.ty.elt = y.ty.elt) (hs : a.ty.shape.ShapeCasts y.ty.shape)
    (hx : a.space ≠ .host ∧ (Proc.devRef .tc a : DevRef τ sig).isScoped = false)
    (hy : y.space ≠ .host ∧ (Proc.devRef .tc y : DevRef τ sig).isScoped = false)
    (X : a.ty.Contents (Elt F)) (Y0 : y.ty.Contents (Elt F)) {α : Type}
    (k : ((b : (StableHlo.reshape (τ := τ) (Val := Elt F) a y he hs hx hy).writes) → b.1.ty.Contents (Elt F)) → Prog (TpuEff nD τ sig (Elt F) Λ .tc) α)
    (Q : α → sProp 𝕄) :
    iprop(boundary (SparseCore.T d) ∗ ((SparseCore.T d).loc a ↦{fullShare} X) ∗ ((SparseCore.T d).loc y ↦{fullShare} Y0)
        ∗ (∀ r, (iprop(boundary (SparseCore.T d) ∗ ((SparseCore.T d).loc a ↦{fullShare} X)
              ∗ ((SparseCore.T d).loc y ↦{fullShare} (fun i => he ▸ shapeCast y.ty.shape X hs i : y.ty.Contents (Elt F))))
            -∗ wp frame (wpE defs 𝒱 (SparseCore.T d) bd) E (k r) Q)))
      ⊢ wp frame (wpE defs 𝒱 (SparseCore.T d) bd) E (hlo rfl (StableHlo.reshape a y he hs hx hy) k) Q :=
  wp_two_T 𝒱 bd E B d a y hay (StableHlo.reshape a y he hs hx hy) rfl rfl rfl
    (fun X' => (fun i => he ▸ shapeCast y.ty.shape X' hs i : y.ty.Contents (Elt F)))
    (fun W => StableHlo.reshape_result a y he hs hx hy W) X Y0 k Q

/-! ## @main's five host operations -/

/-- @main's transpose of its first integer argument: 1024×50 to 50×1024. -/
theorem wp_transpose_arg0 {Λ : Labels} {defs : Defs nD τ sig (Elt F) Λ} (𝒱 : Variants) (bd : Option 𝒱.V) (E : Set ℕ)
    (B : Valuation τ sig (Elt F)) (d : Dev nD)
    (X : (main_arg0 : Ref sig .tc).ty.Contents (Elt F)) (Y0 : (main_v0 : Ref sig .tc).ty.Contents (Elt F)) {α : Type}
    (k : ((b : (StableHlo.unary (τ := τ) (Val := Elt F) main_arg0 main_v0 ((transpose S50x1024 [1, 0] · Gen.transposes_S1024x50_S50x1024_1_0) : (⟨S1024x50, .i32⟩ : BufTy).Contents (Elt F) → (⟨S50x1024, .i32⟩ : BufTy).Contents (Elt F))).writes) → b.1.ty.Contents (Elt F))
      → Prog (TpuEff nD τ sig (Elt F) Λ .tc) α)
    (Q : α → sProp 𝕄) :
    iprop(boundary (SparseCore.T d) ∗ ((SparseCore.T d).loc main_arg0 ↦{fullShare} X) ∗ ((SparseCore.T d).loc main_v0 ↦{fullShare} Y0)
        ∗ (∀ r, (iprop(boundary (SparseCore.T d) ∗ ((SparseCore.T d).loc main_arg0 ↦{fullShare} X)
              ∗ ((SparseCore.T d).loc main_v0 ↦{fullShare} (transpose S50x1024 [1, 0] X Gen.transposes_S1024x50_S50x1024_1_0 : (main_v0 : Ref sig .tc).ty.Contents (Elt F))))
            -∗ wp frame (wpE defs 𝒱 (SparseCore.T d) bd) E (k r) Q)))
      ⊢ wp frame (wpE defs 𝒱 (SparseCore.T d) bd) E (hlo rfl (StableHlo.unary main_arg0 main_v0 ((transpose S50x1024 [1, 0] · Gen.transposes_S1024x50_S50x1024_1_0) : (⟨S1024x50, .i32⟩ : BufTy).Contents (Elt F) → (⟨S50x1024, .i32⟩ : BufTy).Contents (Elt F))) k) Q :=
  wp_unary_T 𝒱 bd E B d main_arg0 main_v0 (by decide) _ _ _ X Y0 k Q

/-- @main's transpose of its second integer argument: 1024×50 to 50×1024. -/
theorem wp_transpose_arg1 {Λ : Labels} {defs : Defs nD τ sig (Elt F) Λ} (𝒱 : Variants) (bd : Option 𝒱.V) (E : Set ℕ)
    (B : Valuation τ sig (Elt F)) (d : Dev nD)
    (X : (main_arg1 : Ref sig .tc).ty.Contents (Elt F)) (Y0 : (main_v1 : Ref sig .tc).ty.Contents (Elt F)) {α : Type}
    (k : ((b : (StableHlo.unary (τ := τ) (Val := Elt F) main_arg1 main_v1 ((transpose S50x1024 [1, 0] · Gen.transposes_S1024x50_S50x1024_1_0) : (⟨S1024x50, .i32⟩ : BufTy).Contents (Elt F) → (⟨S50x1024, .i32⟩ : BufTy).Contents (Elt F))).writes) → b.1.ty.Contents (Elt F))
      → Prog (TpuEff nD τ sig (Elt F) Λ .tc) α)
    (Q : α → sProp 𝕄) :
    iprop(boundary (SparseCore.T d) ∗ ((SparseCore.T d).loc main_arg1 ↦{fullShare} X) ∗ ((SparseCore.T d).loc main_v1 ↦{fullShare} Y0)
        ∗ (∀ r, (iprop(boundary (SparseCore.T d) ∗ ((SparseCore.T d).loc main_arg1 ↦{fullShare} X)
              ∗ ((SparseCore.T d).loc main_v1 ↦{fullShare} (transpose S50x1024 [1, 0] X Gen.transposes_S1024x50_S50x1024_1_0 : (main_v1 : Ref sig .tc).ty.Contents (Elt F))))
            -∗ wp frame (wpE defs 𝒱 (SparseCore.T d) bd) E (k r) Q)))
      ⊢ wp frame (wpE defs 𝒱 (SparseCore.T d) bd) E (hlo rfl (StableHlo.unary main_arg1 main_v1 ((transpose S50x1024 [1, 0] · Gen.transposes_S1024x50_S50x1024_1_0) : (⟨S1024x50, .i32⟩ : BufTy).Contents (Elt F) → (⟨S50x1024, .i32⟩ : BufTy).Contents (Elt F))) k) Q :=
  wp_unary_T 𝒱 bd E B d main_arg1 main_v1 (by decide) _ _ _ X Y0 k Q

/-- @main's reshape of the first stage's table: 8000×128 to 1024000. -/
theorem wp_reshape_table {Λ : Labels} {defs : Defs nD τ sig (Elt F) Λ} (𝒱 : Variants) (bd : Option 𝒱.V) (E : Set ℕ)
    (B : Valuation τ sig (Elt F)) (d : Dev nD)
    (X : (main_v2_0 : Ref sig .tc).ty.Contents (Elt F)) (Y0 : (main_v3 : Ref sig .tc).ty.Contents (Elt F)) {α : Type}
    (k : ((b : (StableHlo.reshape (τ := τ) (Val := Elt F) main_v2_0 main_v3 rfl Gen.shapeCasts_S8000x128_S1024000).writes) → b.1.ty.Contents (Elt F))
      → Prog (TpuEff nD τ sig (Elt F) Λ .tc) α)
    (Q : α → sProp 𝕄) :
    iprop(boundary (SparseCore.T d) ∗ ((SparseCore.T d).loc main_v2_0 ↦{fullShare} X) ∗ ((SparseCore.T d).loc main_v3 ↦{fullShare} Y0)
        ∗ (∀ r, (iprop(boundary (SparseCore.T d) ∗ ((SparseCore.T d).loc main_v2_0 ↦{fullShare} X)
              ∗ ((SparseCore.T d).loc main_v3 ↦{fullShare} (shapeCast S1024000 X Gen.shapeCasts_S8000x128_S1024000 : (main_v3 : Ref sig .tc).ty.Contents (Elt F))))
            -∗ wp frame (wpE defs 𝒱 (SparseCore.T d) bd) E (k r) Q)))
      ⊢ wp frame (wpE defs 𝒱 (SparseCore.T d) bd) E (hlo rfl (StableHlo.reshape main_v2_0 main_v3 rfl Gen.shapeCasts_S8000x128_S1024000) k) Q :=
  wp_reshape_T 𝒱 bd E B d main_v2_0 main_v3 (by decide) rfl Gen.shapeCasts_S8000x128_S1024000 _ _ X Y0 k Q

/-- @main's reshape of the second stage's result: 51200 to 50×1024. -/
theorem wp_reshape_out {Λ : Labels} {defs : Defs nD τ sig (Elt F) Λ} (𝒱 : Variants) (bd : Option 𝒱.V) (E : Set ℕ)
    (B : Valuation τ sig (Elt F)) (d : Dev nD)
    (X : (main_v4 : Ref sig .tc).ty.Contents (Elt F)) (Y0 : (main_v5 : Ref sig .tc).ty.Contents (Elt F)) {α : Type}
    (k : ((b : (StableHlo.reshape (τ := τ) (Val := Elt F) main_v4 main_v5 rfl Gen.shapeCasts_S51200_S50x1024).writes) → b.1.ty.Contents (Elt F))
      → Prog (TpuEff nD τ sig (Elt F) Λ .tc) α)
    (Q : α → sProp 𝕄) :
    iprop(boundary (SparseCore.T d) ∗ ((SparseCore.T d).loc main_v4 ↦{fullShare} X) ∗ ((SparseCore.T d).loc main_v5 ↦{fullShare} Y0)
        ∗ (∀ r, (iprop(boundary (SparseCore.T d) ∗ ((SparseCore.T d).loc main_v4 ↦{fullShare} X)
              ∗ ((SparseCore.T d).loc main_v5 ↦{fullShare} (shapeCast S50x1024 X Gen.shapeCasts_S51200_S50x1024 : (main_v5 : Ref sig .tc).ty.Contents (Elt F))))
            -∗ wp frame (wpE defs 𝒱 (SparseCore.T d) bd) E (k r) Q)))
      ⊢ wp frame (wpE defs 𝒱 (SparseCore.T d) bd) E (hlo rfl (StableHlo.reshape main_v4 main_v5 rfl Gen.shapeCasts_S51200_S50x1024) k) Q :=
  wp_reshape_T 𝒱 bd E B d main_v4 main_v5 (by decide) rfl Gen.shapeCasts_S51200_S50x1024 _ _ X Y0 k Q

/-- @main's final transpose: 50×1024 to 1024×50. -/
theorem wp_transpose_out {Λ : Labels} {defs : Defs nD τ sig (Elt F) Λ} (𝒱 : Variants) (bd : Option 𝒱.V) (E : Set ℕ)
    (B : Valuation τ sig (Elt F)) (d : Dev nD)
    (X : (main_v5 : Ref sig .tc).ty.Contents (Elt F)) (Y0 : (main_v6 : Ref sig .tc).ty.Contents (Elt F)) {α : Type}
    (k : ((b : (StableHlo.unary (τ := τ) (Val := Elt F) main_v5 main_v6 ((transpose S1024x50 [1, 0] · Gen.transposes_S50x1024_S1024x50_1_0) : (⟨S50x1024, .f32⟩ : BufTy).Contents (Elt F) → (⟨S1024x50, .f32⟩ : BufTy).Contents (Elt F))).writes) → b.1.ty.Contents (Elt F))
      → Prog (TpuEff nD τ sig (Elt F) Λ .tc) α)
    (Q : α → sProp 𝕄) :
    iprop(boundary (SparseCore.T d) ∗ ((SparseCore.T d).loc main_v5 ↦{fullShare} X) ∗ ((SparseCore.T d).loc main_v6 ↦{fullShare} Y0)
        ∗ (∀ r, (iprop(boundary (SparseCore.T d) ∗ ((SparseCore.T d).loc main_v5 ↦{fullShare} X)
              ∗ ((SparseCore.T d).loc main_v6 ↦{fullShare} (transpose S1024x50 [1, 0] X Gen.transposes_S50x1024_S1024x50_1_0 : (main_v6 : Ref sig .tc).ty.Contents (Elt F))))
            -∗ wp frame (wpE defs 𝒱 (SparseCore.T d) bd) E (k r) Q)))
      ⊢ wp frame (wpE defs 𝒱 (SparseCore.T d) bd) E (hlo rfl (StableHlo.unary main_v5 main_v6 ((transpose S1024x50 [1, 0] · Gen.transposes_S50x1024_S1024x50_1_0) : (⟨S50x1024, .f32⟩ : BufTy).Contents (Elt F) → (⟨S1024x50, .f32⟩ : BufTy).Contents (Elt F))) k) Q :=
  wp_unary_T 𝒱 bd E B d main_v5 main_v6 (by decide) _ _ _ X Y0 k Q

end Cert.Kernel.Run

end
-- ==== Proof.B.IdxValue.lean ====
/-
  The flat table position the first stage writes for every token, read at an index.

  For the token at time t of batch column b with word x (the token) and y (the target class), the stage writes, at
  flat position t·1024 + b, the 32-bit word (y >> 7)·128000 + x·128 + (y & 127).  For x and y below 1000 the arithmetic
  shift is the quotient by 128 (the sign bit is clear), the mask is the remainder, and no product or sum wraps:
  the word's value is (y / 128)·128000 + x·128 + y mod 128, which is below 8·128000.
-/
import proofs.«203669_g49563922596444_cont_8to1_c_1114_17_alg».proof.Proof.Gen.Kernel.Skeleton
import Idealize.ShloMosaic.Lib.ValueIdx
import Idealize.ShloMosaic.Lib.Pipeline.Value

noncomputable section

namespace Cert.Kernel.IdxValue

open Idealize.ShloMosaic Idealize.ShloMosaic.ValueIdx Cert.Kernel

/-- An arithmetic right shift by 7 of a word below 1000 is the quotient by 128: the sign bit is clear. -/
theorem shrsi7_toNat (y : BitVec 32) (hy : y.toNat < 1000) :
    (IntOp.shrsi .vector y 7#32).toNat = y.toNat / 128 := by
  have hmsb : y.msb = false := by
    rw [BitVec.msb_eq_false_iff_two_mul_lt]; omega
  unfold IntOp.shrsi
  rw [if_pos (by decide)]
  show (y.sshiftRight 7).toNat = _
  rw [BitVec.sshiftRight_eq_of_msb_false hmsb, BitVec.toNat_ushiftRight, Nat.shiftRight_eq_div_pow]

/-- Masking a word with 127 = 2⁷ - 1 is the remainder by 128. -/
theorem andi127_toNat (y : BitVec 32) : (IntOp.andi y 127#32).toNat = y.toNat % 128 := by
  unfold IntOp.andi
  rw [BitVec.toNat_and]
  exact Nat.and_two_pow_sub_one_eq_mod y.toNat 7

/-- The flat position on words: for x, y below 1000 nothing wraps. -/
theorem word_fidx (x y : BitVec 32) (hx : x.toNat < 1000) (hy : y.toNat < 1000) :
    (IntOp.addi (IntOp.addi (IntOp.muli (IntOp.shrsi .vector y 7#32) 128000#32) (IntOp.muli x 128#32))
        (IntOp.andi y 127#32)).toNat
      = y.toNat / 128 * 128000 + x.toNat * 128 + y.toNat % 128 := by
  have h1 := shrsi7_toNat y hy
  have h2 := andi127_toNat y
  have hq : y.toNat / 128 < 8 := by omega
  have hr : y.toNat % 128 < 128 := Nat.mod_lt _ (by decide)
  unfold IntOp.addi IntOp.muli
  rw [BitVec.toNat_add, BitVec.toNat_add, BitVec.toNat_mul, BitVec.toNat_mul, h1, h2]
  show ((y.toNat / 128 * 128000 % 2 ^ 32 + x.toNat * 128 % 2 ^ 32) % 2 ^ 32 + y.toNat % 128) % 2 ^ 32 = _
  omega

/-- The word written at flat position t·1024 + b, as a number. -/
theorem fidx_toNat {F : FTy → Type} [FloatOps F] (xT yT : Vec F S50x1024 .i32) (t : Fin 50) (b : Fin 1024)
    (hx : (xT (ix2 t b)).toNat < 1000) (hy : (yT (ix2 t b)).toNat < 1000) :
    (Gen.k0_pay2 (F := F) xT yT (ix1 (⟨t.val * 1024 + b.val, by omega⟩ : Fin 51200))).toNat
      = (yT (ix2 t b)).toNat / 128 * 128000 + (xT (ix2 t b)).toNat * 128 + (yT (ix2 t b)).toNat % 128 := by
  unfold Gen.k0_pay2
  rw [shapeCast_apply _ _ (ix1 (⟨t.val * 1024 + b.val, by omega⟩ : Fin 51200)) (ix2 t b)
    (by rw [Shape.rowMajor_val_two, Shape.rowMajor_val_one]; rfl),
    shapeCast_self, shapeCast_self]
  exact word_fidx (xT (ix2 t b)) (yT (ix2 t b)) hx hy

/-- Every flat position the stage writes is inside the table of 8·128000 entries. -/
theorem fidx_lt {F : FTy → Type} [FloatOps F] (xT yT : Vec F S50x1024 .i32)
    (hx : ∀ i, (xT i).toNat < 1000) (hy : ∀ i, (yT i).toNat < 1000) (j : S51200.Idx) :
    (Gen.k0_pay2 (F := F) xT yT j).toNat < 1024000 := by
  obtain ⟨n, rfl⟩ : ∃ n : Fin 51200, j = ix1 n := ⟨j 0, eq_ix1 j⟩
  have hn := n.isLt
  have ht : n.val / 1024 < 50 := by omega
  have hb : n.val % 1024 < 1024 := Nat.mod_lt _ (by decide)
  have e : n = (⟨(⟨n.val / 1024, ht⟩ : Fin 50).val * 1024 + (⟨n.val % 1024, hb⟩ : Fin 1024).val, by
      show n.val / 1024 * 1024 + n.val % 1024 < 51200; omega⟩ : Fin 51200) :=
    Fin.ext (by show n.val = n.val / 1024 * 1024 + n.val % 1024; omega)
  have h1 := hx (ix2 (⟨n.val / 1024, ht⟩ : Fin 50) (⟨n.val % 1024, hb⟩ : Fin 1024))
  have h2 := hy (ix2 (⟨n.val / 1024, ht⟩ : Fin 50) (⟨n.val % 1024, hb⟩ : Fin 1024))
  rw [e, fidx_toNat xT yT ⟨n.val / 1024, ht⟩ ⟨n.val % 1024, hb⟩ h1 h2]
  omega

end Cert.Kernel.IdxValue

end
-- ==== Proof.B.IdxLt.lean ====
/-
  Every flat index the kernel computes is below the flattened table's length: the two integer arguments, transposed,
  have entries below 1000, and the index (y div 128)·128000 + x·128 + (y mod 128) of such entries is below 1024000.
-/
import proofs.«203669_g49563922596444_cont_8to1_c_1114_17_alg».proof.Proof.B.IdxValue
import proofs.«203669_g49563922596444_cont_8to1_c_1114_17_alg».proof.Proof.B.KerTerm
import Idealize.ShloMosaic.Lib.ValueLayout

noncomputable section

namespace Cert.Kernel.KerValue

open Idealize.ShloMosaic Idealize.ShloMosaic.ValueIdx Cert.Kernel Cert.Kernel.KerTerm

/-- Every flat index is below the flattened table's length. -/
theorem idxArr_lt {F : FTy → Type} [FloatOps F] (x y : IVec S1024x50 32) (hx : ∀ i, (x i).toNat < 1000)
    (hy : ∀ i, (y i).toNat < 1000) (j : S51200.Idx) : (idxArr (F := F) x y j).toNat < 1024000 := by
  refine IdxValue.fidx_lt (F := F) _ _ (fun i => ?_) (fun i => ?_) j
  · obtain ⟨p, q, rfl⟩ : ∃ p q, i = ix2 p q := ⟨_, _, eq_ix2 i⟩
    rw [transpose_ix2_apply]
    exact hx _
  · obtain ⟨p, q, rfl⟩ : ∃ p q, i = ix2 p q := ⟨_, _, eq_ix2 i⟩
    rw [transpose_ix2_apply]
    exact hy _

end Cert.Kernel.KerValue

end
-- ==== Proof.B.Launch2.lean ====
/-
  The whole program under the launch theorem, second half: the launch element of the ghost state, @main on the
  TensorCore — two transposes, the first stage as a region, a reshape, the second stage as a SparseCore call, a reshape
  and a transpose — and what the final memory says.  Through @main the arrays hold: xT, yT the transposed index
  arguments; the table of the logit argument and the flat index list of xT, yT; the table flattened; the output the
  flattened table read at the index list; and last the output cut into 50 rows of 1024 and transposed, which is the
  kernel's result term.
-/
import proofs.«203669_g49563922596444_cont_8to1_c_1114_17_alg».proof.Proof.B.Launch1
import proofs.«203669_g49563922596444_cont_8to1_c_1114_17_alg».proof.Proof.B.Region
import proofs.«203669_g49563922596444_cont_8to1_c_1114_17_alg».proof.Proof.B.RegionFinal
import proofs.«203669_g49563922596444_cont_8to1_c_1114_17_alg».proof.Proof.B.HostSteps
import proofs.«203669_g49563922596444_cont_8to1_c_1114_17_alg».proof.Proof.B.IdxLt

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The contents the arrays take through @main -/

def xT (d : Dev nD) : Vec F S50x1024 .i32 := transpose S50x1024 [1, 0] (m ((SparseCore.T d).loc main_arg0)) Gen.transposes_S1024x50_S50x1024_1_0
def yT (d : Dev nD) : Vec F S50x1024 .i32 := transpose S50x1024 [1, 0] (m ((SparseCore.T d).loc main_arg1)) Gen.transposes_S1024x50_S50x1024_1_0
def fiM (d : Dev nD) : Buf (Elt F) (fLoc d) := Gen.k0_pay2 (F := F) (xT m d) (yT m d)
def tblM (d : Dev nD) : Vec F S8000x128 .f32 := Cert.Kernel.KerTerm.tabArr (m ((SparseCore.T d).loc main_arg2))
def tbM (d : Dev nD) : Buf (Elt F) (tLoc d) := shapeCast S1024000 (tblM m d) Gen.shapeCasts_S8000x128_S1024000
def o0M (d : Dev nD) : Buf (Elt F) (oLoc d) := m (oLoc d)

/-- The first stage's five arrays when it is entered. -/
def A0M (d : Dev nD) : (w : Fin cfg0.W) → Buf (Elt F) ((cfg0.win w).arr.view.loc (d : Thread nD τ))
  | ⟨0, _⟩ => m ((SparseCore.T d).loc main_arg2)
  | ⟨1, _⟩ => xT m d
  | ⟨2, _⟩ => yT m d
  | ⟨3, _⟩ => m ((SparseCore.T d).loc main_v2_0)
  | ⟨4, _⟩ => m ((SparseCore.T d).loc main_v2_1)

/-! ## The launch element of the ghost state -/

abbrev cfgsP : Fin 1 → Pipeline.Cfg sig Λ₀ := Pipeline.pin (pcfgs (F := F)) adm
theorem phinj : Function.Injective (Pipeline.cellOf (nD := nD) (τ := τ) (cfgsP (F := F))) := cellOf_inj

def u₀ : UU :=
  (initOf (K (F := F)).hsCells (K (F := F)).hsToks,
    (initOf (Pipeline.cells (cfgsP (F := F)) phinj) (Pipeline.launchToks (cfgsP (F := F)) phinj), 1))

/-- What @main's proof starts from beside what the launch deals it: the first stage's staging cells' ghost state. -/
abbrev G (d : Dev nD) : sProp 𝕄 := iprop(Pipeline.cellsGhost (cfgsP (F := F)) EP 0 d ∗ Pipeline.toksInit (cfgsP (F := F)) EP 0 d)

omit [FloatOps F] [∀ e, Nonempty (Elt F e)] in
theorem bigSep_emp' {I : Type} (s : Finset I) : (bigSep s fun _ => iprop(emp)) = (iprop(emp) : sProp 𝕄) := bigSep_emp_const s

/-- The first stage's staging cells funded, per device. -/
theorem fundG : (BI.own ((EP (F := F)) (initOf (Pipeline.cells (cfgsP (F := F)) phinj) (Pipeline.launchToks (cfgsP (F := F)) phinj))) : sProp 𝕄)
    ⊢ iprop(|==> bigSep Finset.univ fun d : Dev nD => G (F := F) d) := by
  have ec : (bigSep Finset.univ fun c : Dev nD => bigSep Finset.univ fun p : Fin 1 => (Pipeline.cellsGhost (cfgsP (F := F)) (EP (F := F)) p c : sProp 𝕄))
      = bigSep Finset.univ fun c : Dev nD => Pipeline.cellsGhost (cfgsP (F := F)) (EP (F := F)) 0 c :=
    bigSep_congr fun c _ => bigSep_univ_of_subsingleton (0 : Fin 1)
  have et : (bigSep Finset.univ fun c : Dev nD => bigSep Finset.univ fun p : Fin 1 => (Pipeline.toksInit (cfgsP (F := F)) (EP (F := F)) p c : sProp 𝕄))
      = bigSep Finset.univ fun c : Dev nD => Pipeline.toksInit (cfgsP (F := F)) (EP (F := F)) 0 c :=
    bigSep_congr fun c _ => bigSep_univ_of_subsingleton (0 : Fin 1)
  refine (Pipeline.fund_ghost (cfgsP (F := F)) (EP (F := F)) phinj).trans ?_
  rw [ec, et, ← bigSep_sep']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (fiM m) (tbM m) (o0M m)).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (show (BI.own (((Emb.inl : Emb UP (UP × Counters)).trans (embR : Emb (UP × Counters) 𝕄))
      (initOf (Pipeline.cells (cfgsP (F := F)) phinj) (Pipeline.launchToks (cfgsP (F := F)) phinj))) : sProp 𝕄)
      ⊢ BI.own ((EP (F := F)) (initOf (Pipeline.cells (cfgsP (F := F)) phinj) (Pipeline.launchToks (cfgsP (F := F)) phinj))) from .rfl) $$ HP
  imod (fundG (F := F)) $$ HP' with HG
  imodintro
  isplitl [HH]; · iexact HH
  isplitl [HG]; · iexact HG
  rw [show (bigSep Finset.univ fun thr : Thread nD τ => bigSep Finset.univ fun q : Fin 1 => (P (F := F) (fiM m) (tbM m) (o0M m)).x q thr) = bigSep Finset.univ fun _ => iprop(emp) from
    bigSep_congr fun _ _ => bigSep_univ_of_subsingleton (0 : Fin 1), bigSep_emp']
  iempintro

/-! ## The first stage inside @main -/

/-- The TensorCore's state before the SparseCore call is what it owes beside the rest. -/
theorem tcSt_open (d : Dev nD) : ∃ R : sProp 𝕄,
    ((K (F := F)).tcSt (EH (F := F)) d 0 ⊢ iprop(tcOwes (F := F) d ∗ R)) ∧ (iprop(tcOwes (F := F) d ∗ R) ⊢ (K (F := F)).tcSt (EH (F := F)) d 0) := by
  unfold SparseCore.Cfg.tcSt tcOwes
  exact ⟨_, .rfl, .rfl⟩

theorem arrays_eq (c : Dev nD) (Fa) : ((pdats (F := F) (A0M m) 0 c).arrays Fa : sProp 𝕄)
    = iprop(pl c main_arg2 (Fa 0) ∗ pl c main_v0 (Fa 1) ∗ pl c main_v1 (Fa 2) ∗ pl c main_v2_0 (Fa 3) ∗ pl c main_v2_1 (Fa 4)) := by
  rw [Pipeline.arrays_eq (Pipeline.pin (pcfgs (F := F)) adm) (pdats (A0M m)) 0 c launch0.arr_whole ((pdats (A0M m) 0 c).share_full fun _ => rfl) Fa, bigSep_W0]

/-- The program's line for the first stage is the pipeline-level custom call, lifted. -/
theorem lift_entry : (SparseCore.liftProg (nD := nD) (τ := τ) (sig := sig) (Val := Elt F) (Λ := ΛP (F := F)) (Q := 1) (pr := Proc.tc)
    (Prog.op (TpuEff.customCall (Pipeline.entry (0 : Fin 1)) ()) fun _ => Prog.ret PUnit.unit))
    = Prog.lift (TpuEff.customCall (SparseCore.inner (Pipeline.entry (0 : Fin 1))) ()) := rfl

set_option maxHeartbeats 400000 in
/-- The first stage: from its five arrays as entered to the arrays as it leaves them. -/
theorem step_region (d : Dev nD) (Φ : PUnit → sProp 𝕄) :
    iprop((iprop(boundary (SparseCore.T d)
            ∗ (pdats (F := F) (A0M m) 0 d).arrays ((pdats (A0M m) 0 d).arrAt · (Pipeline.pin (pcfgs (F := F)) adm 0).N) ∗ tcOwes (F := F) d) -∗ Φ ⟨⟩)
        ∗ boundary (SparseCore.T d) ∗ (pdats (F := F) (A0M m) 0 d).arrays (A0M m d) ∗ tcOwes (F := F) d
        ∗ levAts (K (F := F)).L (K (F := F)).lev ∗ G (F := F) d)
      ⊢ wp frame (wpE ((K (F := F)).defs (D (F := F))) 𝒱 (SparseCore.T d) none) Set.univ
          (Prog.lift (TpuEff.customCall (SparseCore.inner (Pipeline.entry 0)) ())) Φ := by
  rw [← lift_entry (F := F)]
  iintro ⟨Hk, Hb, Ha, HO, Hlv, Hcg, Htk⟩
  iapply ((K (F := F)).wp_liftProg (D (F := F)) 𝒱 (SparseCore.T d) Set.univ none _ Φ)
  iapply (Pipeline.RegionSeg.wp (pcfgs (F := F)) adm (pdats (A0M m)) (none : HIx 1) phinj (EP (F := F)) defs₀ 𝒱₀
    (K (F := F)).L (K (F := F)).lev (reg0 (A0M m)) d none (by simp) (fun _ => Prog.ret PUnit.unit) Φ) $$ [Hk Hb Ha HO Hlv Hcg Htk]
  dsimp only [reg0]
  isplitl [Hk]
  · iintro ⟨Hb, Ha, HO⟩
    rw [wp_ret]; imodintro
    iapply Hk
    isplitl [Hb]; · iexact Hb
    isplitl [Ha]; · iexact Ha
    iexact HO
  isplitl [Hb]; · iexact Hb
  isplitl [Ha HO]
  · isplitl [Ha]; · iexact Ha
    iexact HO
  isplitl [Hlv]; · iexact Hlv
  isplitl [Hcg]; · iexact Hcg
  iexact Htk

/-! ## The second stage inside @main -/

omit [FloatOps F] [∀ e, Nonempty (Elt F e)] in
theorem fPts_rows (d : Dev nD) (f : Buf (Elt F) (fLoc d)) :
    (fLoc d ↦{fullShare} f : sProp 𝕄) = bigSep Finset.univ fun w : Fin 32 => fLoc d ↦[wSet w]{fullShare} f := by
  rw [← pointsTo_biUnion Finset.univ (ℓ := fLoc d) wSet wrows_disjoint, wrows_cover]; try rfl
omit [FloatOps F] [∀ e, Nonempty (Elt F e)] in
theorem oPts_rows (d : Dev nD) (f : Buf (Elt F) (oLoc d)) :
    (oLoc d ↦{fullShare} f : sProp 𝕄) = bigSep Finset.univ fun w : Fin 32 => oLoc d ↦[wSet w]{fullShare} f := by
  rw [← pointsTo_biUnion Finset.univ (ℓ := oLoc d) wSet wrows_disjoint, wrows_cover]; try rfl
omit [FloatOps F] [∀ e, Nonempty (Elt F e)] in
/-- The 32 row blocks, grouped by SparseCore and subcore. -/
theorem regroup (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl
omit [∀ e, Nonempty (Elt F e)] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands the two SparseCores, regrouped by worker. -/
theorem st0_eq (d : Dev nD) : (bigSep Finset.univ fun c : Fin ((K (F := F)).nCore 0) => (P (fiM m) (tbM m) (o0M m)).st 0 d c)
    = iprop((bigSep Finset.univ fun w : Fin 32 => fRowPts (fiM m) d w) ∗ (bigSep Finset.univ fun c : Fin 2 => tLoc d ↦{tqC c} tbM m d)
        ∗ bigSep Finset.univ fun w : Fin 32 => oRowPts d w (o0M m d)) := by
  rw [show (bigSep Finset.univ fun c : Fin ((K (F := F)).nCore 0) => (P (fiM m) (tbM m) (o0M m)).st 0 d c)
        = bigSep Finset.univ fun c : Fin 2 => iprop((bigSep Finset.univ fun i : Fin 16 => fRowPts (fiM m) d (wid c i))
            ∗ (tLoc d ↦{tqC c} tbM m d) ∗ bigSep Finset.univ fun i : Fin 16 => oRowPts d (wid c i) (o0M m d)) from
      bigSep_cores (F := F) (fun c => iprop((bigSep Finset.univ fun i : Fin 16 => fRowPts (fiM m) d (wid c i))
            ∗ (tLoc d ↦{tqC c} tbM m d) ∗ bigSep Finset.univ fun i : Fin 16 => oRowPts d (wid c i) (o0M m d))),
      bigSep_sep', bigSep_sep', ← regroup (fun w => fRowPts (fiM m) d w), ← regroup (fun w => oRowPts d w (o0M m d))]

/-- What comes back, regrouped by worker. -/
theorem dn0_eq (d : Dev nD) : (bigSep Finset.univ fun c : Fin ((K (F := F)).nCore 0) => (P (fiM m) (tbM m) (o0M m)).dn 0 d c)
    = bigSep Finset.univ fun w : Fin 32 => oRowPts d w (outA (fiM m) (tbM m) d) := by
  rw [show (bigSep Finset.univ fun c : Fin ((K (F := F)).nCore 0) => (P (fiM m) (tbM m) (o0M m)).dn 0 d c)
      = bigSep Finset.univ fun c : Fin 2 => bigSep Finset.univ fun i : Fin 16 => oRowPts d (wid c i) (outA (fiM m) (tbM m) d) from
    bigSep_cores (F := F) (fun c => bigSep Finset.univ fun i : Fin 16 => oRowPts d (wid c i) (outA (fiM m) (tbM m) d)),
    ← regroup (fun w => oRowPts d w (outA (fiM m) (tbM m) d))]

set_option maxHeartbeats 2000000 in
/-- The second stage: from the index list, the flattened table and the output held whole to the output at the table
    read at the index list. -/
theorem step_call (κ : GSem nD τ sig → ℕ) (d : Dev nD) (Φ : PUnit → sProp 𝕄) :
    iprop((K (F := F)).ctx EH (P (fiM m) (tbM m) (o0M m)) κ ∗ (K (F := F)).tcSt EH d 0
        ∗ (fLoc d ↦{fullShare} fiM m d) ∗ (tLoc d ↦{fullShare} tbM m d) ∗ (oLoc d ↦{fullShare} o0M m d)
        ∗ (iprop((K (F := F)).tcSt EH d 1 ∗ (oLoc d ↦{fullShare} outA (fiM m) (tbM m) d)) -∗ Φ ⟨⟩))
      ⊢ wp frame (wpE ((K (F := F)).defs (D (F := F))) 𝒱 (SparseCore.T d) none) Set.univ ((sc (F := F)).run d 0) Φ := by
  iintro ⟨#Hctx, Hst, Hf, Ht, Ho, Hk⟩
  iapply ((K (F := F)).wp_run (D (F := F)) 𝒱 (EH := EH) (P := P (fiM m) (tbM m) (o0M m)) κ d 0) $$ [Hst Hf Ht Ho Hk]
  isplitr; · iexact Hctx
  isplitl [Hst]; · iexact Hst
  isplitl [Hf Ht Ho]
  · rw [st0_eq]
    ihave Hf' := (Entails.of_eq (fPts_rows (F := F) d _)) $$ Hf
    ihave Ho' := (Entails.of_eq (oPts_rows (F := F) d _)) $$ Ho
    ihave Ht' := (Transfers.pointsTo_toks_split fullShare 2) $$ Ht
    icases Ht' with ⟨-, Ht'⟩
    isplitl [Hf']; · iexact Hf'
    isplitl [Ht']; · iexact Ht'
    iexact Ho'
  iintro ⟨Hst, Hdn⟩
  iapply Hk
  isplitl [Hst]; · iexact Hst
  ihave Hdn' := (Entails.of_eq (dn0_eq m d)) $$ Hdn
  iapply (Entails.of_eq (oPts_rows (F := F) d _).symm); iexact Hdn'

/-! ## @main on the TensorCore -/

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_arg2 (W main_arg2) ∗ pl d main_v0 (W main_v0)
          ∗ pl d main_v1 (W main_v1) ∗ pl d main_v2_0 (W main_v2_0) ∗ pl d main_v2_1 (W main_v2_1) ∗ pl d main_v3 (W main_v3)
          ∗ pl d main_v4 (W main_v4) ∗ pl d main_v5 (W main_v5) ∗ pl d main_v6 (W main_v6)) := by
  unfold unscopedBufs
  rw [show (Finset.univ.filter fun b : Ref sig .tc => ¬ b.isScoped)
      = {main_arg0, main_arg1, main_arg2, main_v0, main_v1, main_v2_0, main_v2_1, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The kernel's result on device d. -/
def resM (d : Dev nD) : FVec F S1024x50 .f32 :=
  Cert.Kernel.KerTerm.kerTerm (F := F) (m ((SparseCore.T d).loc main_arg0)) (m ((SparseCore.T d).loc main_arg1)) (m ((SparseCore.T d).loc main_arg2))

/-- What @main leaves the claim: the three arguments as launched and the result. -/
abbrev FIN (d : Dev nD) : sProp 𝕄 :=
  iprop(pl d main_arg0 (m ((SparseCore.T d).loc main_arg0)) ∗ pl d main_arg1 (m ((SparseCore.T d).loc main_arg1))
    ∗ pl d main_arg2 (m ((SparseCore.T d).loc main_arg2)) ∗ pl d main_v6 (resM m d))

def fq (d : Dev nD) (s' : Phys nD τ sig (Elt F)) : Prop :=
  s'.mem.mem ((SparseCore.T d).loc main_v6) = resM m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

set_option maxRecDepth 16384 in
theorem hfin (d : Dev nD) (s' : Phys nD τ sig (Elt F)) : iprop(FIN m d ∗ SI s') ⊢ (⌜fq m d s'⌝ : sProp 𝕄) := by
  iintro ⟨⟨H0, H1, H2, H6⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (SI_pointsTo_agree (st := s') (ℓ := (SparseCore.T d).loc main_v6) (I := Finset.univ) (q := fullShare) (f := resM m d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i)⟩

set_option maxHeartbeats 2000000 in
/-- @main on device d's TensorCore. -/
theorem hmain (hfi : ∀ d (j : S51200.Idx), (fiM m d j).toNat < 1024000) (κ : GSem nD τ sig → ℕ) (d : Dev nD) :
    iprop((K (F := F)).ctx EH (P (fiM m) (tbM m) (o0M m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Hv20, Hv21, Hv3, Hv4, Hv5, Hv6⟩, -, -⟩, ⟨Hcg, Htk⟩⟩
  obtain ⟨R, hR1, hR2⟩ := tcSt_open (F := F) d
  -- x transposed
  iapply (wp_transpose_arg0 𝒱 none Set.univ (fun b => m (d, b)) d _ _ _ _) $$ [Hst Hb Ha0 Ha1 Ha2 Hv0 Hv1 Hv20 Hv21 Hv3 Hv4 Hv5 Hv6 Hcg Htk]
  isplitl [Hb]; · iexact Hb
  isplitl [Ha0]; · iexact Ha0
  isplitl [Hv0]; · iexact Hv0
  iintro %r ⟨Hb, Ha0, Hv0⟩
  rw [wp_ret]; imodintro
  -- y transposed
  iapply (wp_transpose_arg1 𝒱 none Set.univ (fun b => m (d, b)) d _ _ _ _) $$ [Hst Hb Ha0 Ha1 Ha2 Hv0 Hv1 Hv20 Hv21 Hv3 Hv4 Hv5 Hv6 Hcg Htk]
  isplitl [Hb]; · iexact Hb
  isplitl [Ha1]; · iexact Ha1
  isplitl [Hv1]; · iexact Hv1
  iintro %r ⟨Hb, Ha1, Hv1⟩
  rw [wp_ret]; imodintro
  -- the first stage
  ihave Hst' := hR1 $$ Hst
  icases Hst' with ⟨HO, HR⟩
  ihave Hlv := ((K (F := F)).ctx_levAts (EH := EH) (P := P (fiM m) (tbM m) (o0M m)) κ) $$ Hctx
  iapply (step_region m d _) $$ [HO HR Hlv Hb Ha0 Ha1 Ha2 Hv0 Hv1 Hv20 Hv21 Hv3 Hv4 Hv5 Hv6 Hcg Htk]
  rw [arrays_eq, arrays_eq, show (pdats (F := F) (A0M m) 0 d) = dat0 (A0M m) d from rfl, arrAt_w0, arrAt_w1, arrAt_w2, arrAt_w3, arrAt_w4]
  isplitl [HR Ha0 Ha1 Hv3 Hv4 Hv5 Hv6]
  swap
  · isplitl [Hb]; · iexact Hb
    isplitl [Ha2 Hv0 Hv1 Hv20 Hv21]
    · isplitl [Ha2]; · iexact Ha2
      isplitl [Hv0]; · iexact Hv0
      isplitl [Hv1]; · iexact Hv1
      isplitl [Hv20]; · iexact Hv20
      iexact Hv21
    isplitl [HO]; · iexact HO
    isplitl [Hlv]; · iexact Hlv
    isplitl [Hcg]; · iexact Hcg
    iexact Htk
  iintro ⟨Hb, ⟨Ha2, Hv0, Hv1, Hv20, Hv21⟩, HO⟩
  -- the table flattened
  iapply (wp_reshape_table 𝒱 none Set.univ (fun b => m (d, b)) d _ _ _ _) $$ [HO HR Hb Ha0 Ha1 Ha2 Hv0 Hv1 Hv20 Hv21 Hv3 Hv4 Hv5 Hv6]
  isplitl [Hb]; · iexact Hb
  isplitl [Hv20]; · iexact Hv20
  isplitl [Hv3]; · iexact Hv3
  iintro %r ⟨Hb, Hv20, Hv3⟩
  rw [wp_ret]; imodintro
  -- the second stage
  ihave Hst := hR2 $$ [HO HR]
  · isplitl [HO]; · iexact HO
    iexact HR
  iapply (step_call m κ d _) $$ [Hst Hb Ha0 Ha1 Ha2 Hv0 Hv1 Hv20 Hv21 Hv3 Hv4 Hv5 Hv6]
  isplitr; · iexact Hctx
  isplitl [Hst]; · iexact Hst
  isplitl [Hv21]; · iexact Hv21
  isplitl [Hv3]; · iexact Hv3
  isplitl [Hv4]; · iexact Hv4
  iintro ⟨Hst, Hv4⟩
  -- the output cut into rows
  iapply (wp_reshape_out 𝒱 none Set.univ (fun b => m (d, b)) d _ _ _ _) $$ [Hst Hb Ha0 Ha1 Ha2 Hv4 Hv5 Hv6]
  isplitl [Hb]; · iexact Hb
  isplitl [Hv4]; · iexact Hv4
  isplitl [Hv5]; · iexact Hv5
  iintro %r ⟨Hb, Hv4, Hv5⟩
  rw [wp_ret]; imodintro
  -- and transposed
  iapply (wp_transpose_out 𝒱 none Set.univ (fun b => m (d, b)) d _ _ _ _) $$ [Hst Hb Ha0 Ha1 Ha2 Hv5 Hv6]
  isplitl [Hb]; · iexact Hb
  isplitl [Hv5]; · iexact Hv5
  isplitl [Hv6]; · iexact Hv6
  iintro %r ⟨Hb, Hv5, Hv6⟩
  rw [wp_ret]; imodintro; imodintro
  isplitl [Hst]; · iexact Hst
  isplitl [Ha0]; · iexact Ha0
  isplitl [Ha1]; · iexact Ha1
  isplitl [Ha2]; · iexact Ha2
  iexact Hv6

/-! ## The program's run -/

/-- What every final memory satisfies: the result is the kernel's result term and the arguments are as launched. -/
def QC : PUnit × MemSt nD τ sig (Elt F) → Prop := fun r => ∀ c : Dev nD,
  r.2.mem ((c.tc : Thread nD τ).loc main_v6)
      = Cert.Kernel.KerTerm.kerTerm (F := F) (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run_main' (hfi : ∀ d (j : S51200.Idx), (fiM m d j).toNat < 1024000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (fiM m) (tbM m) (o0M m)) facts v₀
    (fun q hq => match q with | 0 => nomatch hq)
    (fun q _ => match q with | 0 => tileObl (fiM m) (tbM m) (o0M m) facts hfi)
    (fun q _ => match q with | 0 => SparseCore.Cfg.VecSplit.of_plain (vecSplit (fiM m) (tbM m) (o0M m)))
    m ρ main (fun d => G (F := F) d) (FIN m) (u₀ (F := F)) (sep_elim_left.trans (hu₀ m)) (hmain m ρ hfi) (fq m) (hfin m) (QC m) (fun _ h => h)

/-- At the compiled mesh, from any memory with zero counters whose two integer arguments lie in [0, 999]: every weakly
    fair execution of the program's threads terminates, nothing faulting; the result is the kernel's result term of the
    arguments and the arguments are unchanged. -/
theorem run_main (hx : ∀ (c : Dev nD) i, (m ((c.tc : Thread nD τ).loc main_arg0) i).toNat < 1000)
    (hy : ∀ (c : Dev nD) i, (m ((c.tc : Thread nD τ).loc main_arg1) i).toNat < 1000) :
    θ_run (Cert.Kernel.defs (F := F)) (Cert.Kernel.threads (F := F)) ⟨m, fun _ => 0, ρ⟩ (fun r => ∀ c : Dev nD,
      r.2.mem ((c.tc : Thread nD τ).loc main_v6)
          = Cert.Kernel.KerTerm.kerTerm (F := F) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  run_main' m ρ fun d j => Cert.Kernel.KerValue.idxArr_lt (F := F) _ _ (hx d) (hy d) j

end Cert.Kernel.Run

end
-- ==== Proof.lean ====
/-
  The certificate: for token rows x, target classes y (both in 0..999) and a finite 1000 × 1000 logit table w, the kernel
  and the reference both run to the end with their arguments unchanged, and at the exact instance both results are,
  at every (b, t), the cross-entropy of logit row x(b, t) against class y(b, t): log-sum-exp of the row minus its entry
  at the class.  The kernel reads it from a table of log-sum-exp minus logit; the reference computes minus the one-hot
  weighted sum of the row's log-softmax; on a row of finite numbers the two agree.
-/
import proofs.«203669_g49563922596444_cont_8to1_c_1114_17_alg».proof.Defs
import proofs.«203669_g49563922596444_cont_8to1_c_1114_17_alg».proof.Proof.Gen.Kernel
import proofs.«203669_g49563922596444_cont_8to1_c_1114_17_alg».proof.Proof.Gen.Kernel.Skeleton
import proofs.«203669_g49563922596444_cont_8to1_c_1114_17_alg».proof.Proof.Gen.Kernel.Launch
import proofs.«203669_g49563922596444_cont_8to1_c_1114_17_alg».proof.Proof.Gen.Kernel.Points
import proofs.«203669_g49563922596444_cont_8to1_c_1114_17_alg».proof.Proof.Gen.KernelIdeal
import proofs.«203669_g49563922596444_cont_8to1_c_1114_17_alg».proof.Proof.Gen.KernelIdeal.Skeleton
import proofs.«203669_g49563922596444_cont_8to1_c_1114_17_alg».proof.Proof.Gen.KernelIdeal.Launch
import proofs.«203669_g49563922596444_cont_8to1_c_1114_17_alg».proof.Proof.Gen.KernelIdeal.Points
import proofs.«203669_g49563922596444_cont_8to1_c_1114_17_alg».proof.Proof.Gen.ReferenceIdeal
import proofs.«203669_g49563922596444_cont_8to1_c_1114_17_alg».proof.Proof.Gen.Pre_input_domain
import proofs.«203669_g49563922596444_cont_8to1_c_1114_17_alg».proof.Proof.PreFacts
import proofs.«203669_g49563922596444_cont_8to1_c_1114_17_alg».proof.Proof.KerValue
import proofs.«203669_g49563922596444_cont_8to1_c_1114_17_alg».proof.Proof.RefValue
import proofs.«203669_g49563922596444_cont_8to1_c_1114_17_alg».proof.Proof.Launch2
import proofs.«203669_g49563922596444_cont_8to1_c_1114_17_alg».proof.Proof.B.Launch2
import Idealize.ShloMosaic.Adequacy
import Idealize.ShloMosaic.Init

noncomputable section

namespace Cert.Proof

open Idealize.ShloMosaic Idealize.SL.Sem Idealize.ShloMosaic.ValueIdx

/-- The kernel as printed runs and leaves its arguments unchanged: the precondition bounds both integer arguments. -/
theorem frame_k : Cert.frame_Kernel := fun m ρ hpre =>
  (θ_run Cert.Kernel.defs _ _).mono (fun _ h c => (h c).2)
    (Cert.Kernel.Run.run_main (F := Bits) m ρ (fun c => Cert.PreFacts.x_lt _ _ _ (hpre c)) (fun c => Cert.PreFacts.y_lt _ _ _ (hpre c)))

/-- The same at the exact instance. -/
theorem frame_ki : Cert.frame_KernelIdeal := fun m ρ hpre =>
  (θ_run Cert.KernelIdeal.defs _ _).mono (fun _ h c => (h c).2)
    (Cert.KernelIdeal.Run.run_main (F := Ideal) m ρ (fun c => Cert.PreFacts.x_lt _ _ _ (hpre c)) (fun c => Cert.PreFacts.y_lt _ _ _ (hpre c)))

/-- The reference runs from any memory and leaves its arguments unchanged. -/
theorem frame_ri : Cert.frame_ReferenceIdeal := fun m ρ _ =>
  (θ_run Cert.ReferenceIdeal.defs _ _).mono (fun _ h c => (h c).2) (Cert.ReferenceIdeal.RefValue.run m ρ)

/-- At the exact instance, from memories that agree on the arguments, the kernel's result and the reference's are the
    same array: at every (b, t) both are the cross-entropy of logit row x(b, t) against class y(b, t). -/
theorem algebraic : Cert.algebraic_KernelIdeal_ReferenceIdeal := by
  intro m g m' g' hpre hagree
  have hx : ∀ (c : Dev Cert.KernelIdeal.nD) i,
      (m ((c.tc : Thread Cert.KernelIdeal.nD Cert.KernelIdeal.τ).loc Cert.KernelIdeal.main_arg0) i).toNat < 1000 :=
    fun c => Cert.PreFacts.x_lt _ _ _ (hpre c)
  have hy : ∀ (c : Dev Cert.KernelIdeal.nD) i,
      (m ((c.tc : Thread Cert.KernelIdeal.nD Cert.KernelIdeal.τ).loc Cert.KernelIdeal.main_arg1) i).toNat < 1000 :=
    fun c => Cert.PreFacts.y_lt _ _ _ (hpre c)
  have hw : ∀ (c : Dev Cert.KernelIdeal.nD) i, ∃ r : ℝ,
      m ((c.tc : Thread Cert.KernelIdeal.nD Cert.KernelIdeal.τ).loc Cert.KernelIdeal.main_arg2) i = (r : EReal) :=
    fun c => Cert.PreFacts.w_finite _ _ _ (hpre c)
  refine ⟨fun c => Cert.KernelIdeal.KerTerm.kerTerm (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run_main (F := Ideal) m g hx hy, ?_⟩
  refine (θ_run Cert.ReferenceIdeal.defs _ _).mono (fun _ h c => ⟨(h c).1.trans ?_, (h c).2⟩)
    (Cert.ReferenceIdeal.RefValue.run m' g')
  rw [(hagree c).1, (hagree c).2.1, (hagree c).2.2]
  funext j
  obtain ⟨b, t, rfl⟩ : ∃ (b : Fin 1024) (t : Fin 50), j = ix2 b t := ⟨j 0, j 1, eq_ix2 j⟩
  exact (Cert.ReferenceIdeal.RefValue.refTerm_apply _ _ _ (hx c) (hy c) (hw c) b t).trans
    (Cert.KernelIdeal.KerValue.kerTerm_apply _ _ _ (hx c) (hy c) b t).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
